-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x32 : Shape := ⟨2, ![10000, 32]⟩
abbrev S128x64 : Shape := ⟨2, ![128, 64]⟩
abbrev S64 : Shape := ⟨1, ![64]⟩
abbrev S64x32 : Shape := ⟨2, ![64, 32]⟩
abbrev S32 : Shape := ⟨1, ![32]⟩
abbrev S96x16 : Shape := ⟨2, ![96, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x32 : S_.BroadcastsInDim S10000x32 (![] : Fin 0 → Fin S10000x32.rank)
  reducesTo_S10000x32_S_d0_1 : S10000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S96x16 : S_.BroadcastsInDim S96x16 (![] : Fin 0 → Fin S96x16.rank)
  reducesTo_S96x16_S_d0_1 : S96x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32 .f32) (main_arg12 : FVec F S96x16 .f32) (main_arg13 : FVec F S16 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S96x16 .f32 := Host.absf main_arg12
  let main_cst_22 : FVec F S_ .f32 := constant S_ .f32 0x7F800000#32
  let main_v60 : FVec F S96x16 .f32 := broadcastInDim S96x16 ![] bcast_S_S96x16 main_cst_22
  let main_v61 : IVec S96x16 1 := cmpf .olt main_v59 main_v60
  let main_c_23 : IVec S_ 1 := constantI S_ 1 1#1
  let main_v62 : IVec S_ 1 := (fun x v => Host.reduce IntOp.andi x v reducesTo_S96x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg7 : FVec F S32 .f32) (main_arg8 : FVec F S128x64 .f32) (main_arg9 : FVec F S64 .f32) (main_arg10 : FVec F S64x32 .f32) (main_arg11 : FVec F S32 .f32) (main_arg12 : FVec F S96x16 .f32) (main_arg13 : FVec F S16 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_arg13 main_v48 main_v49 main_v50

def fn_part1 {F : FTy → Type} [FloatOps F] (main_arg4 : FVec F S128x64 .f32) (main_arg5 : FVec F S64 .f32) (main_arg6 : FVec F S64x32 .f32) (main_arg7 : FVec F S32 .f32) (main_arg8 : FVec F S128x64 .f32) (main_arg9 : FVec F S64 .f32) (main_arg10 : FVec F S64x32 .f32) (main_arg11 : FVec F S32 .f32) (main_arg12 : FVec F S96x16 .f32) (main_arg13 : FVec F S16 .f32) (main_v13 : IVec S_ 1) (main_v16 : IVec S10000x32 1) : IVec S_ 1 :=
  let main_c_5 : IVec S_ 1 := constantI S_ 1 1#1
  let main_v17 : IVec S_ 1 := (fun x v => Host.reduce IntOp.andi x v reducesTo_S10000x32_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S10000x10000 .f32) (main_arg3 : FVec F S10000x32 .f32) (main_arg4 : FVec F S128x64 .f32) (main_arg5 : FVec F S64 .f32) (main_arg6 : FVec F S64x32 .f32) (main_arg7 : FVec F S32 .f32) (main_arg8 : FVec F S128x64 .f32) (main_arg9 : FVec F S64 .f32) (main_arg10 : FVec F S64x32 .f32) (main_arg11 : FVec F S32 .f32) (main_arg12 : FVec F S96x16 .f32) (main_arg13 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x32 .f32 := Host.absf main_arg3
  let main_cst_4 : FVec F S_ .f32 := constant S_ .f32 0x7F800000#32
  let main_v15 : FVec F S10000x32 .f32 := broadcastInDim S10000x32 ![] bcast_S_S10000x32 main_cst_4
  let main_v16 : IVec S10000x32 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S10000x32 : Shape := ⟨2, ![10000, 32]⟩
abbrev S128x64 : Shape := ⟨2, ![128, 64]⟩
abbrev S64 : Shape := ⟨1, ![64]⟩
abbrev S64x32 : Shape := ⟨2, ![64, 32]⟩
abbrev S32 : Shape := ⟨1, ![32]⟩
abbrev S96x16 : Shape := ⟨2, ![96, 16]⟩
abbrev S16 : Shape := ⟨1, ![16]⟩
abbrev S1x64 : Shape := ⟨2, ![1, 64]⟩
abbrev S1x32 : Shape := ⟨2, ![1, 32]⟩
abbrev S1x16 : Shape := ⟨2, ![1, 16]⟩
abbrev S10000x16 : Shape := ⟨2, ![10000, 16]⟩
abbrev S280x10000 : Shape := ⟨2, ![280, 10000]⟩
abbrev S280x32 : Shape := ⟨2, ![280, 32]⟩
abbrev S280x16 : Shape := ⟨2, ![280, 16]⟩
abbrev S10000x64 : Shape := ⟨2, ![10000, 64]⟩
abbrev S10080x16 : Shape := ⟨2, ![10080, 16]⟩
abbrev S280x64 : Shape := ⟨2, ![280, 64]⟩
abbrev S32x16 : Shape := ⟨2, ![32, 16]⟩

abbrev nBuf : Space → Nat
  | .hbm => 20
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x32, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S128x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S96x16, .f32⟩
  | .hbm, ⟨13, _⟩ => ⟨S16, .f32⟩
  | .hbm, ⟨14, _⟩ => ⟨S1x64, .f32⟩
  | .hbm, ⟨15, _⟩ => ⟨S1x64, .f32⟩
  | .hbm, ⟨16, _⟩ => ⟨S1x32, .f32⟩
  | .hbm, ⟨17, _⟩ => ⟨S1x32, .f32⟩
  | .hbm, ⟨18, _⟩ => ⟨S1x16, .f32⟩
  | .hbm, ⟨19, _⟩ => ⟨S10000x16, .f32⟩
  | .local _ .vmem, ⟨0, _⟩ => ⟨S10000x128, .f32⟩
  | .local _ .vmem, ⟨1, _⟩ => ⟨S280x10000, .f32⟩
  | .local _ .vmem, ⟨2, _⟩ => ⟨S280x10000, .f32⟩
  | .local _ .vmem, ⟨3, _⟩ => ⟨S280x10000, .f32⟩
  | .local _ .vmem, ⟨4, _⟩ => ⟨S280x10000, .f32⟩
  | .local _ .vmem, ⟨5, _⟩ => ⟨S280x32, .f32⟩
  | .local _ .vmem, ⟨6, _⟩ => ⟨S280x32, .f32⟩
  | .local _ .vmem, ⟨7, _⟩ => ⟨S128x64, .f32⟩
  | .local _ .vmem, ⟨8, _⟩ => ⟨S128x64, .f32⟩
  | .local _ .vmem, ⟨9, _⟩ => ⟨S1x64, .f32⟩
  | .local _ .vmem, ⟨10, _⟩ => ⟨S1x64, .f32⟩
  | .local _ .vmem, ⟨11, _⟩ => ⟨S64x32, .f32⟩
  | .local _ .vmem, ⟨12, _⟩ => ⟨S64x32, .f32⟩
  | .local _ .vmem, ⟨13, _⟩ => ⟨S96x16, .f32⟩
  | .local _ .vmem, ⟨14, _⟩ => ⟨S1x32, .f32⟩
  | .local _ .vmem, ⟨15, _⟩ => ⟨S1x32, .f32⟩
  | .local _ .vmem, ⟨16, _⟩ => ⟨S1x16, .f32⟩
  | .local _ .vmem, ⟨17, _⟩ => ⟨S280x16, .f32⟩
  | .local _ .vmem, ⟨18, _⟩ => ⟨S280x16, .f32⟩
  | .local _ .vmem, ⟨19, _⟩ => ⟨S10000x64, .bf16⟩
  | .local _ .vmem, ⟨20, _⟩ => ⟨S10000x64, .bf16⟩
  | .local _ .vmem, ⟨21, _⟩ => ⟨S10080x16, .bf16⟩
  | .local _ .vmem, ⟨22, _⟩ => ⟨S10080x16, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![2, 36], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c280_i32 : BitVec 32 := 280#32
  let v38 : BitVec 32 := Scalar.muli arg1 c280_i32
  let v39 : Index := Scalar.indexCast v38
  let c0_27 : Index := 0#32
  ![v39.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S280x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S280x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S280x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S96x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S280x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  shapeCasts_S64_S1x64 : S64.ShapeCasts S1x64
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S280x10000_S280x10000_0_0 : ∀ a, (![0, 0] : Fin 2 → Nat) a + S280x10000.size a ≤ S280x10000.size a
  h_S280x10000 : 0 < S280x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S280x64 : S1x64.Broadcasts S280x64
  inb_S64x32_S64x32_0_0 : ∀ a, (![0, 0] : Fin 2 → Nat) a + S64x32.size a ≤ S64x32.size a
  h_S64x32 : 0 < S64x32.numel
  inb_S96x16_S32x16_32_0 : ∀ a, (![32, 0] : Fin 2 → Nat) a + S32x16.size a ≤ S96x16.size a
  h_S32x16 : 0 < S32x16.numel
  h_S280x16 : 0 < S280x16.numel
  shapeCasts_S280x16_S280x16 : S280x16.ShapeCasts S280x16
  inb_S96x16_S32x16_64_0 : ∀ a, (![64, 0] : Fin 2 → Nat) a + S32x16.size a ≤ S96x16.size a
  inb_S10080x16_S10000x16_0_0 : ∀ a, (![0, 0] : Fin 2 → Nat) a + S10000x16.size a ≤ S10080x16.size a
  h_S10000x16 : 0 < S10000x16.numel
  inb_S280x32_S280x32_0_0 : ∀ a, (![0, 0] : Fin 2 → Nat) a + S280x32.size a ≤ S280x32.size a
  h_S280x32 : 0 < S280x32.numel
  inb_S96x16_S32x16_0_0 : ∀ a, (![0, 0] : Fin 2 → Nat) a + S32x16.size a ≤ S96x16.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x16_S280x16 : S1x16.Broadcasts S280x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S280x16_S280x16_0_0 : ∀ a, (![0, 0] : Fin 2 → Nat) a + S280x16.size a ≤ S280x16.size a
  dot_S10000x128_S128x64_S10000x64_1_0_0_1_n_n_wf : DotDims.WF S10000x128 S128x64 S10000x64 [1] [0] [0] [1] [] []
  dot_S280x10000_S10000x64_S280x64_1_0_0_1_n_n_wf : DotDims.WF S280x10000 S10000x64 S280x64 [1] [0] [0] [1] [] []
  dot_S280x64_S64x32_S280x32_1_0_0_1_n_n_wf : DotDims.WF S280x64 S64x32 S280x32 [1] [0] [0] [1] [] []
  dot_S280x32_S32x16_S280x16_1_0_0_1_n_n_wf : DotDims.WF S280x32 S32x16 S280x16 [1] [0] [0] [1] [] []
  dot_S280x10000_S10000x16_S280x16_1_0_0_1_n_n_wf : DotDims.WF S280x10000 S10000x16 S280x16 [1] [0] [0] [1] [] []
  dot_S1x32_S32x16_S1x16_1_0_0_1_n_n_wf : DotDims.WF S1x32 S32x16 S1x16 [1] [0] [0] [1] [] []
  hrank0 : 0 < grid0.rank
  k0_off1_inb : ∀ i : grid0.Coords, ∀ (k0_h2 : k0_cond2 i = 1#1), ∀ a, (k0_off1 i) a + S280x16.size a ≤ S10080x16.size a
  k0_off1_packedbf16 : ∀ i : grid0.Coords, ∀ (k0_h2 : k0_cond2 i = 1#1), (Rect.unit (s := S10080x16) (k0_off1 i) S280x16.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S280x10000.size a < S10000x10000.size a
  hwx0_1 : ∀ i : grid0.Coords, EltTy.bits .f32 = 32 ∨ (Rect.unit (s := S10000x10000) (fun a => cc0_transform_1 i a * S280x10000.size a) (fun a => (Pipeline.Clip.of (cc0_transform_1 i a) (S280x10000.size a) (S10000x10000.size a)).extent (S280x10000.size a)) fun a => Pipeline.Clip.inb (Pipeline.Clip.ok_of (hstart0_1 i a))).WholeWords (EltTy.packing .f32)
  hwxs0_1 : ∀ i : grid0.Coords, EltTy.bits .f32 = 32 ∨ (Rect.unit (s := S280x10000) (fun _ => 0) (fun a => (Pipeline.Clip.of (cc0_transform_1 i a) (S280x10000.size a) (S10000x10000.size a)).extent (S280x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S280x10000.size a < S10000x10000.size a
  hwx0_2 : ∀ i : grid0.Coords, EltTy.bits .f32 = 32 ∨ (Rect.unit (s := S10000x10000) (fun a => cc0_transform_2 i a * S280x10000.size a) (fun a => (Pipeline.Clip.of (cc0_transform_2 i a) (S280x10000.size a) (S10000x10000.size a)).extent (S280x10000.size a)) fun a => Pipeline.Clip.inb (Pipeline.Clip.ok_of (hstart0_2 i a))).WholeWords (EltTy.packing .f32)
  hwxs0_2 : ∀ i : grid0.Coords, EltTy.bits .f32 = 32 ∨ (Rect.unit (s := S280x10000) (fun _ => 0) (fun a => (Pipeline.Clip.of (cc0_transform_2 i a) (S280x10000.size a) (S10000x10000.size a)).extent (S280x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S280x32.size a < S10000x32.size a
  hwx0_3 : ∀ i : grid0.Coords, EltTy.bits .f32 = 32 ∨ (Rect.unit (s := S10000x32) (fun a => cc0_transform_3 i a * S280x32.size a) (fun a => (Pipeline.Clip.of (cc0_transform_3 i a) (S280x32.size a) (S10000x32.size a)).extent (S280x32.size a)) fun a => Pipeline.Clip.inb (Pipeline.Clip.ok_of (hstart0_3 i a))).WholeWords (EltTy.packing .f32)
  hwxs0_3 : ∀ i : grid0.Coords, EltTy.bits .f32 = 32 ∨ (Rect.unit (s := S280x32) (fun _ => 0) (fun a => (Pipeline.Clip.of (cc0_transform_3 i a) (S280x32.size a) (S10000x32.size a)).extent (S280x32.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .f32 = 32 ∨ (Rect.block (s := S64x32) S64x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x32.size a ≤ S64x32.size a
  hwx0_9 : ∀ i : grid0.Coords, EltTy.bits .f32 = 32 ∨ (Rect.block (s := S64x32) S64x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S96x16.size a ≤ S96x16.size a
  hwx0_10 : ∀ i : grid0.Coords, EltTy.bits .f32 = 32 ∨ (Rect.block (s := S96x16) S96x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x16.size a ≤ S1x16.size a
  hwx0_13 : ∀ i : grid0.Coords, EltTy.bits .f32 = 32 ∨ (Rect.block (s := S1x16) S1x16.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hstart0_14 : ∀ (i : grid0.Coords) a, cc0_transform_14 i a * S280x16.size a < S10000x16.size a
  hwx0_14 : ∀ i : grid0.Coords, EltTy.bits .f32 = 32 ∨ (Rect.unit (s := S10000x16) (fun a => cc0_transform_14 i a * S280x16.size a) (fun a => (Pipeline.Clip.of (cc0_transform_14 i a) (S280x16.size a) (S10000x16.size a)).extent (S280x16.size a)) fun a => Pipeline.Clip.inb (Pipeline.Clip.ok_of (hstart0_14 i a))).WholeWords (EltTy.packing .f32)
  hwxs0_14 : ∀ i : grid0.Coords, EltTy.bits .f32 = 32 ∨ (Rect.unit (s := S280x16) (fun _ => 0) (fun a => (Pipeline.Clip.of (cc0_transform_14 i a) (S280x16.size a) (S10000x16.size a)).extent (S280x16.size a)) fun a => (Nat.zero_add _).trans_le (Pipeline.Clip.extent_le (Pipeline.Clip.ok_of (hstart0_14 i a)))).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S280x10000_S10000x64_S280x64_1_0_0_1_n_n : DotDims S280x10000 S10000x64 S280x64 where
  lhsContracting := [1]
  rhsContracting := [0]
  lhsNonContracting := [0]
  rhsNonContracting := [1]
  lhsBatch := []
  rhsBatch := []
  wf := dot_S280x10000_S10000x64_S280x64_1_0_0_1_n_n_wf
def dot_S280x64_S64x32_S280x32_1_0_0_1_n_n : DotDims S280x64 S64x32 S280x32 where
  lhsContracting := [1]
  rhsContracting := [0]
  lhsNonContracting := [0]
  rhsNonContracting := [1]
  lhsBatch := []
  rhsBatch := []
  wf := dot_S280x64_S64x32_S280x32_1_0_0_1_n_n_wf
def dot_S280x32_S32x16_S280x16_1_0_0_1_n_n : DotDims S280x32 S32x16 S280x16 where
  lhsContracting := [1]
  rhsContracting := [0]
  lhsNonContracting := [0]
  rhsNonContracting := [1]
  lhsBatch := []
  rhsBatch := []
  wf := dot_S280x32_S32x16_S280x16_1_0_0_1_n_n_wf
def dot_S280x10000_S10000x16_S280x16_1_0_0_1_n_n : DotDims S280x10000 S10000x16 S280x16 where
  lhsContracting := [1]
  rhsContracting := [0]
  lhsNonContracting := [0]
  rhsNonContracting := [1]
  lhsBatch := []
  rhsBatch := []
  wf := dot_S280x10000_S10000x16_S280x16_1_0_0_1_n_n_wf
def dot_S1x32_S32x16_S1x16_1_0_0_1_n_n : DotDims S1x32 S32x16 S1x16 where
  lhsContracting := [1]
  rhsContracting := [0]
  lhsNonContracting := [0]
  rhsNonContracting := [1]
  lhsBatch := []
  rhsBatch := []
  wf := dot_S1x32_S32x16_S1x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S280x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S280x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S280x32.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S96x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S1x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpecClip (Memref.whole main_v5) S280x16.size cc0_transform_14 reads0_14 true false 2 stage0_14 sem0_14
    hrank0 hreads0_14 hstart0_14 nbuf0_14 (Memref.isWhole_whole _) hwx0_14 hwxs0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond3 i == 1#1) | ⟨_ + 15, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S10000x32 : Shape := ⟨2, ![10000, 32]⟩
abbrev S128x64 : Shape := ⟨2, ![128, 64]⟩
abbrev S64 : Shape := ⟨1, ![64]⟩
abbrev S64x32 : Shape := ⟨2, ![64, 32]⟩
abbrev S32 : Shape := ⟨1, ![32]⟩
abbrev S96x16 : Shape := ⟨2, ![96, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S1x32 : Shape := ⟨2, ![1, 32]⟩
abbrev S10000x96 : Shape := ⟨2, ![10000, 96]⟩
abbrev S10000x16 : Shape := ⟨2, ![10000, 16]⟩
abbrev S1x16 : Shape := ⟨2, ![1, 16]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x32, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S128x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S96x16, .f32⟩
  | .hbm, ⟨13, _⟩ => ⟨S16, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000x64, .f32⟩
  | .hbm, ⟨21, _⟩ => ⟨S10000x64, .f32⟩
  | .hbm, ⟨22, _⟩ => ⟨S10000x32, .f32⟩
  | .hbm, ⟨23, _⟩ => ⟨S10000x32, .f32⟩
  | .hbm, ⟨24, _⟩ => ⟨S1x32, .f32⟩
  | .hbm, ⟨25, _⟩ => ⟨S10000x32, .f32⟩
  | .hbm, ⟨26, _⟩ => ⟨S10000x32, .f32⟩
  | .hbm, ⟨27, _⟩ => ⟨S10000x64, .f32⟩
  | .hbm, ⟨28, _⟩ => ⟨S10000x64, .f32⟩
  | .hbm, ⟨29, _⟩ => ⟨S1x64, .f32⟩
  | .hbm, ⟨30, _⟩ => ⟨S10000x64, .f32⟩
  | .hbm, ⟨31, _⟩ => ⟨S10000x64, .f32⟩
  | .hbm, ⟨32, _⟩ => ⟨S_, .f32⟩
  | .hbm, ⟨33, _⟩ => ⟨S10000x64, .f32⟩
  | .hbm, ⟨34, _⟩ => ⟨S10000x64, .f32⟩
  | .hbm, ⟨35, _⟩ => ⟨S10000x32, .f32⟩
  | .hbm, ⟨36, _⟩ => ⟨S10000x32, .f32⟩
  | .hbm, ⟨37, _⟩ => ⟨S1x32, .f32⟩
  | .hbm, ⟨38, _⟩ => ⟨S10000x32, .f32⟩
  | .hbm, ⟨39, _⟩ => ⟨S10000x32, .f32⟩
  | .hbm, ⟨40, _⟩ => ⟨S10000x96, .f32⟩
  | .hbm, ⟨41, _⟩ => ⟨S10000x16, .f32⟩
  | .hbm, ⟨42, _⟩ => ⟨S1x16, .f32⟩
  | .hbm, ⟨43, _⟩ => ⟨S10000x16, .f32⟩
  | .hbm, ⟨44, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_cst : Ref sig .tc := ⟨.hbm, 32, rfl⟩
abbrev main_call1_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  concatenates_S10000x32_S10000x32_S10000x32_S10000x96_d1 : Shape.Concatenates [S10000x32, S10000x32, S10000x32] S10000x96 1
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x96_S96x16_S10000x16_1_0_0_1_n_n_wf : DotDims.WF S10000x96 S96x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x96_S96x16_S10000x16_1_0_0_1_n_n : DotDims S10000x96 S96x16 S10000x16 where
  lhsContracting := [1]
  rhsContracting := [0]
  lhsNonContracting := [0]
  rhsNonContracting := [1]
  lhsBatch := []
  rhsBatch := []
  wf := dot_S10000x96_S96x16_S10000x16_1_0_0_1_n_n_wf

class Facts : Prop extends Facts₀ where

variable [Facts]
-- ==== Proof.KConds.lean ====
/-
  The grid of the one kernel is 2 × 36, point t = 36·p + i.  The body has three guarded parts: the supports
  x·W1 are computed at the first point only (p = 0 ∧ i = 0); the per-node summaries of a block of 280 rows are
  computed in the first sweep (p = 0); the output block is computed in the second sweep (p = 1).  Here the three
  guards are decided over the grid in closed form, with where the output window is idle and written back and
  the row offset of the block a point works on.
-/
import proofs.«148532_g48885317763338_cont_8to1_c_83_23_alg».proof.Proof.Gen.Kernel.Launch
import proofs.«148532_g48885317763338_cont_8to1_c_83_23_alg».proof.Proof.Gen.Kernel.Skeleton
import proofs.«148532_g48885317763338_cont_8to1_c_83_23_alg».proof.Proof.Gen.Kernel.Points

set_option maxRecDepth 16384

noncomputable section

namespace Cert.Kernel.Body

open Cert.Kernel Cert.Kernel.Gen
open Idealize.ShloMosaic Idealize.ShloMosaic.TcCoe

/-- The three branch conditions of the body, as the skeleton computes them from the grid coordinates. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cond2 (i : grid0.Coords) : Prop := k0_cond2 i = 1#1
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 36 :=
  (by decide +kernel : ∀ t : Fin grid0.N, cond2 (grid0.coords t) ↔ t.val < 36)
theorem hcond3 : ∀ t : Fin cfg0.N, cond3 (grid0.coords t) ↔ 36 ≤ t.val :=
  (by decide +kernel : ∀ t : Fin grid0.N, cond3 (grid0.coords t) ↔ 36 ≤ t.val)

/-- The row offset of the block of summaries a first-sweep point writes: 280 · i. -/
theorem off1_0 : ∀ t : Fin cfg0.N, k0_off1 (grid0.coords t) 0 = 280 * (t.val % 36) :=
  (by decide +kernel : ∀ t : Fin grid0.N, k0_off1 (grid0.coords t) 0 = 280 * (t.val % 36))
theorem off1_1 : ∀ t : Fin cfg0.N, k0_off1 (grid0.coords t) 1 = 0 :=
  (by decide +kernel : ∀ t : Fin grid0.N, k0_off1 (grid0.coords t) 1 = 0)

/-- The output window is idle through the first sweep and not written back there; in the second sweep it is
    live and written back at every point. -/
theorem idle14_of : ∀ t : Fin cfg0.N, t.val < 36 → cfg0.idle 14 (grid0.coords t) = true :=
  (by decide +kernel : ∀ t : Fin grid0.N, t.val < 36 → cfg0.idle 14 (grid0.coords t) = true)
theorem live14_of : ∀ t : Fin cfg0.N, 36 ≤ t.val → cfg0.idle 14 (grid0.coords t) = false :=
  (by decide +kernel : ∀ t : Fin grid0.N, 36 ≤ t.val → cfg0.idle 14 (grid0.coords t) = false)
theorem noflush14_of : ∀ t : Fin cfg0.N, t.val < 36 → (cfg0.win 14).flush t = false :=
  (by decide +kernel : ∀ t : Fin grid0.N, t.val < 36 → win0_14.flush t = false)
theorem flush14_of : ∀ t : Fin cfg0.N, 36 ≤ t.val → (cfg0.win 14).flush t = true :=
  (by decide +kernel : ∀ t : Fin grid0.N, 36 ≤ t.val → win0_14.flush t = true)
theorem flush14_iff : ∀ t : Fin cfg0.N, (cfg0.win 14).flush t = true ↔ 36 ≤ t.val :=
  (by decide +kernel : ∀ t : Fin grid0.N, win0_14.flush t = true ↔ 36 ≤ t.val)

/-- The block index of each moving window at a point: the adjacency blocks follow i in both sweeps; the z block
    and the output block stay at 0 through the first sweep and follow i in the second. -/
theorem index1 : ∀ t : Fin cfg0.N, (cfg0.win 1).index t 0 = t.val % 36 ∧ (cfg0.win 1).index t 1 = 0 :=
  (by decide +kernel : ∀ t : Fin grid0.N, win0_1.index t 0 = t.val % 36 ∧ win0_1.index t 1 = 0)
theorem index2 : ∀ t : Fin cfg0.N, (cfg0.win 2).index t 0 = t.val % 36 ∧ (cfg0.win 2).index t 1 = 0 :=
  (by decide +kernel : ∀ t : Fin grid0.N, win0_2.index t 0 = t.val % 36 ∧ win0_2.index t 1 = 0)
theorem index3 : ∀ t : Fin cfg0.N, (cfg0.win 3).index t 0 = (if 36 ≤ t.val then t.val % 36 else 0) ∧ (cfg0.win 3).index t 1 = 0 :=
  (by decide +kernel : ∀ t : Fin grid0.N, win0_3.index t 0 = (if 36 ≤ t.val then t.val % 36 else 0) ∧ win0_3.index t 1 = 0)
theorem index14 : ∀ t : Fin cfg0.N, (cfg0.win 14).index t 0 = (if 36 ≤ t.val then t.val % 36 else 0) ∧ (cfg0.win 14).index t 1 = 0 :=
  (by decide +kernel : ∀ t : Fin grid0.N, win0_14.index t 0 = (if 36 ≤ t.val then t.val % 36 else 0) ∧ win0_14.index t 1 = 0)

theorem N72 : cfg0.N = 72 := N_0

end Cert.Kernel.Body

end
-- ==== Proof.KRunDefs.lean ====
import proofs.«148532_g48885317763338_cont_8to1_c_83_23_alg».proof.Proof.Gen.Kernel.Launch
import proofs.«148532_g48885317763338_cont_8to1_c_83_23_alg».proof.Proof.Gen.Kernel.Skeleton
import proofs.«148532_g48885317763338_cont_8to1_c_83_23_alg».proof.Proof.Gen.Kernel.Points
import proofs.«148532_g48885317763338_cont_8to1_c_83_23_alg».proof.Proof.Gen.Kernel.Frame
import Idealize.ShloMosaic.Lib.Pipeline.FrameBody
import Idealize.ShloMosaic.Lib.Ring
import Idealize.ShloMosaic.Lib.Tactic
import proofs.«148532_g48885317763338_cont_8to1_c_83_23_alg».proof.Proof.KConds
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Rectangles the body loads and stores through, and what one store through a rectangle leaves. -/

/-- The first 10000 rows of a summary scratch. -/
abbrev R19 : Rect S10080x16 := Rect.unit (s := S10080x16) ![0, 0] S10000x16.size inb_S10080x16_S10000x16_0_0
/-- Rows 0‥31, 32‥63, 64‥95 of the head's weights. -/
abbrev Rw0 : Rect S96x16 := Rect.unit (s := S96x16) ![0, 0] S32x16.size inb_S96x16_S32x16_0_0
abbrev Rw32 : Rect S96x16 := Rect.unit (s := S96x16) ![32, 0] S32x16.size inb_S96x16_S32x16_32_0
abbrev Rw64 : Rect S96x16 := Rect.unit (s := S96x16) ![64, 0] S32x16.size inb_S96x16_S32x16_64_0
/-- The 280 rows of a summary scratch a first-sweep point writes. -/
abbrev Rblk (i : grid0.Coords) (h : k0_cond2 i = 1#1) : Rect S10080x16 :=
  Rect.unit (s := S10080x16) (k0_off1 i) S280x16.size (k0_off1_inb i h)

theorem hz2 : (![0, 0] : Fin 2 → Nat) = fun _ => 0 := by
  funext a; match a with | ⟨0, _⟩ => rfl | ⟨1, _⟩ => rfl

section
variable {sg : RefSig} {κ : Kind} {sp : Space} {s : Shape} {e : EltTy} {Val : EltTy → Type}

/-- After one store through a rectangle, the buffer reads the payload inside the rectangle … -/
theorem read_writes_one_emb (v : View sg κ sp s e) (f : v.ty.Contents Val) (r : Rect s) (w : r.shape.Idx → Val e)
    (x : r.shape.Idx) : v.read Val (v.writes Val f [⟨r, w⟩]) (r.emb x) = w x :=
  View.read_writes_cons_emb v f r w [] x

/-- … and what it held before outside it. -/
theorem read_writes_one_of_not_mem (v : View sg κ sp s e) (f : v.ty.Contents Val) (r : Rect s) (w : r.shape.Idx → Val e)
    {y : s.Idx} (hy : y ∉ r.set) : v.read Val (v.writes Val f [⟨r, w⟩]) y = v.read Val f y := by
  have hy' : y ∉ Finset.univ.map r.emb := by rwa [Rect.map_emb_univ]
  rw [View.writes_cons, View.read_slice_write_of_not_mem r _ _ _ hy', View.writes_nil]

/-- A store through the whole shape leaves the payload. -/
theorem read_writes_whole [∀ e, Nonempty (Val e)] (v : View sg κ sp s e) (f : v.ty.Contents Val) {off : Fin s.rank → Nat}
    (h : off = fun _ => 0) (inb : ∀ a, off a + s.size a ≤ s.size a) (w : s.Idx → Val e) :
    v.read Val (v.writes Val f [(⟨Rect.unit off s.size inb, w⟩ : View.Piece Val s e)]) = w := by
  rw [View.read_writes_eq_canon _ _ _ (fun y => ⟨_, List.mem_singleton_self _, View.mem_set_unit_zero h inb y⟩),
    View.canon_unit_zero h]
end

/-- Contents `X` that are `x` with the rectangle `R` overwritten by `w`. -/
def LeftBlk {s : Shape} {α : Type} (X x : s.Idx → α) (R : Rect s) (w : R.shape.Idx → α) : Prop :=
  (∀ y, X (R.emb y) = w y) ∧ (∀ z, z ∉ R.set → X z = x z)

end Cert.Kernel.Body

end
-- ==== Proof.KRunA.lean ====
import proofs.«148532_g48885317763338_cont_8to1_c_83_23_alg».proof.Proof.Gen.Kernel.Launch
import proofs.«148532_g48885317763338_cont_8to1_c_83_23_alg».proof.Proof.Gen.Kernel.Skeleton
import proofs.«148532_g48885317763338_cont_8to1_c_83_23_alg».proof.Proof.Gen.Kernel.Points
import proofs.«148532_g48885317763338_cont_8to1_c_83_23_alg».proof.Proof.Gen.Kernel.Frame
import Idealize.ShloMosaic.Lib.Pipeline.FrameBody
import Idealize.ShloMosaic.Lib.Ring
import Idealize.ShloMosaic.Lib.Tactic
import proofs.«148532_g48885317763338_cont_8to1_c_83_23_alg».proof.Proof.KRunDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 8000000 in
/-- The first point: the first guarded part stores the two supports x·W1 whole into their scratch buffers, then
    the second part runs on them as at any point of the first sweep. -/
theorem runA (i : grid0.Coords) (arg2 : Memref sig .tc .vmem S10000x128 .f32) (harg2 : arg2.IsWhole) (arg3 : Memref sig .tc .vmem S280x10000 .f32) (harg3 : arg3.IsWhole) (arg4 : Memref sig .tc .vmem S280x10000 .f32) (harg4 : arg4.IsWhole) (arg5 : Memref sig .tc .vmem S280x32 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S64x32 .f32) (harg11 : arg11.IsWhole) (arg12 : Memref sig .tc .vmem S96x16 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x16 .f32) (harg15 : arg15.IsWhole) (arg16 : Memref sig .tc .vmem S280x16 .f32) (harg16 : arg16.IsWhole) (arg17 : Memref sig .tc .vmem S10000x64 .bf16) (harg17 : arg17.IsWhole) (arg18 : Memref sig .tc .vmem S10000x64 .bf16) (harg18 : arg18.IsWhole) (arg19 : Memref sig .tc .vmem S10080x16 .bf16) (harg19 : arg19.IsWhole) (arg20 : Memref sig .tc .vmem S10080x16 .bf16) (harg20 : arg20.IsWhole)
    (hc1 : cond1 i) (hc2 : cond2 i) (hc3 : ¬ cond3 i)
    (x2 : Vec F S10000x128 .f32) (x3 : Vec F S280x10000 .f32) (x4 : Vec F S280x10000 .f32) (x5 : Vec F S280x32 .f32) (x6 : Vec F S128x64 .f32) (x7 : Vec F S128x64 .f32) (x8 : Vec F S1x64 .f32) (x9 : Vec F S1x64 .f32) (x10 : Vec F S64x32 .f32) (x11 : Vec F S64x32 .f32) (x12 : Vec F S96x16 .f32) (x13 : Vec F S1x32 .f32) (x14 : Vec F S1x32 .f32) (x15 : Vec F S1x16 .f32) (x16 : Vec F S280x16 .f32) (x17 : Vec F S10000x64 .bf16) (x18 : Vec F S10000x64 .bf16) (x19 : Vec F S10080x16 .bf16) (x20 : Vec F S10080x16 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (k0_pay1 x2 x6) ∗ owns (c : Thread nD τ) arg18 fullShare (k0_pay2 x2 x7) ∗ (∃ X19, ⌜LeftBlk X19 x19 (Rblk i hc2) (k0_pay6 x3 (k0_pay1 x2 x6) x8 x10 (View.ld x12 Rw32))⌝ ∗ owns (c : Thread nD τ) arg19 fullShare X19) ∗ (∃ X20, ⌜LeftBlk X20 x20 (Rblk i hc2) (k0_pay3 (k0_pay5 x4 (k0_pay2 x2 x7) x9 x11) (View.ld x12 Rw64))⌝ ∗ owns (c : Thread nD τ) arg20 fullShare X20)) -∗ K ⟨⟩))
      ⊢ wp frame (wpE (defs₀ (F := F)) Variants.none c none) E (cc0__mgcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mgcn_kernel_eq_skeleton]; unfold cc0__mgcn_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | exact hc1 | exact hc2 | exact hc3)
  sl_step
  iapply Hk
  sl_unfold_run_names
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    rw [read_writes_whole _ _ hz2]
    simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
  isplitl [H18]
  · iexists _; isplitr
    swap; · iexact H18
    ipureintro
    rw [read_writes_whole _ _ hz2]
    simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
  isplitl [H19]
  · iexists _; isplitr
    swap
    · iexists _; isplitr
      swap; · iexact H19
      ipureintro; rfl
    ipureintro
    refine ⟨fun y => ?_, fun z hz => ?_⟩
    · rw [read_writes_one_emb]
      simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
    · rw [read_writes_one_of_not_mem _ _ _ _ hz, harg19.read_unread]
  · iexists _; isplitr
    swap
    · iexists _; isplitr
      swap; · iexact H20
      ipureintro; rfl
    ipureintro
    refine ⟨fun y => ?_, fun z hz => ?_⟩
    · rw [read_writes_one_emb]
      simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
    · rw [read_writes_one_of_not_mem _ _ _ _ hz, harg20.read_unread]

end Cert.Kernel.Body

end
-- ==== Proof.KRunB.lean ====
import proofs.«148532_g48885317763338_cont_8to1_c_83_23_alg».proof.Proof.Gen.Kernel.Launch
import proofs.«148532_g48885317763338_cont_8to1_c_83_23_alg».proof.Proof.Gen.Kernel.Skeleton
import proofs.«148532_g48885317763338_cont_8to1_c_83_23_alg».proof.Proof.Gen.Kernel.Points
import proofs.«148532_g48885317763338_cont_8to1_c_83_23_alg».proof.Proof.Gen.Kernel.Frame
import Idealize.ShloMosaic.Lib.Pipeline.FrameBody
import Idealize.ShloMosaic.Lib.Ring
import Idealize.ShloMosaic.Lib.Tactic
import proofs.«148532_g48885317763338_cont_8to1_c_83_23_alg».proof.Proof.KRunDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 8000000 in
/-- A point of the first sweep other than the first: only the second guarded part runs. It loads the two
    adjacency blocks, both supports, the two first-layer bias rows, the two second-layer weights and two of the
    head's weight slices, and stores a block of 280 rows into each summary scratch at the point's row offset;
    everything else is handed back as found. -/
theorem runB (i : grid0.Coords) (arg2 : Memref sig .tc .vmem S10000x128 .f32) (harg2 : arg2.IsWhole) (arg3 : Memref sig .tc .vmem S280x10000 .f32) (harg3 : arg3.IsWhole) (arg4 : Memref sig .tc .vmem S280x10000 .f32) (harg4 : arg4.IsWhole) (arg5 : Memref sig .tc .vmem S280x32 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S64x32 .f32) (harg11 : arg11.IsWhole) (arg12 : Memref sig .tc .vmem S96x16 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x16 .f32) (harg15 : arg15.IsWhole) (arg16 : Memref sig .tc .vmem S280x16 .f32) (harg16 : arg16.IsWhole) (arg17 : Memref sig .tc .vmem S10000x64 .bf16) (harg17 : arg17.IsWhole) (arg18 : Memref sig .tc .vmem S10000x64 .bf16) (harg18 : arg18.IsWhole) (arg19 : Memref sig .tc .vmem S10080x16 .bf16) (harg19 : arg19.IsWhole) (arg20 : Memref sig .tc .vmem S10080x16 .bf16) (harg20 : arg20.IsWhole)
    (hc1 : ¬ cond1 i) (hc2 : cond2 i) (hc3 : ¬ cond3 i)
    (x2 : Vec F S10000x128 .f32) (x3 : Vec F S280x10000 .f32) (x4 : Vec F S280x10000 .f32) (x5 : Vec F S280x32 .f32) (x6 : Vec F S128x64 .f32) (x7 : Vec F S128x64 .f32) (x8 : Vec F S1x64 .f32) (x9 : Vec F S1x64 .f32) (x10 : Vec F S64x32 .f32) (x11 : Vec F S64x32 .f32) (x12 : Vec F S96x16 .f32) (x13 : Vec F S1x32 .f32) (x14 : Vec F S1x32 .f32) (x15 : Vec F S1x16 .f32) (x16 : Vec F S280x16 .f32) (x17 : Vec F S10000x64 .bf16) (x18 : Vec F S10000x64 .bf16) (x19 : Vec F S10080x16 .bf16) (x20 : Vec F S10080x16 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ X19, ⌜LeftBlk X19 x19 (Rblk i hc2) (k0_pay6 x3 x17 x8 x10 (View.ld x12 Rw32))⌝ ∗ owns (c : Thread nD τ) arg19 fullShare X19) ∗ (∃ X20, ⌜LeftBlk X20 x20 (Rblk i hc2) (k0_pay3 (k0_pay5 x4 x18 x9 x11) (View.ld x12 Rw64))⌝ ∗ owns (c : Thread nD τ) arg20 fullShare X20)) -∗ K ⟨⟩))
      ⊢ wp frame (wpE (defs₀ (F := F)) Variants.none c none) E (cc0__mgcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mgcn_kernel_eq_skeleton]; unfold cc0__mgcn_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr
    swap
    · iexists _; isplitr
      swap; · iexact H19
      ipureintro; rfl
    ipureintro
    refine ⟨fun y => ?_, fun z hz => ?_⟩
    · rw [read_writes_one_emb]
      simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
    · rw [read_writes_one_of_not_mem _ _ _ _ hz, harg19.read_unread]
  · iexists _; isplitr
    swap
    · iexists _; isplitr
      swap; · iexact H20
      ipureintro; rfl
    ipureintro
    refine ⟨fun y => ?_, fun z hz => ?_⟩
    · rw [read_writes_one_emb]
      simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
    · rw [read_writes_one_of_not_mem _ _ _ _ hz, harg20.read_unread]

end Cert.Kernel.Body

end
-- ==== Proof.KRunC.lean ====
import proofs.«148532_g48885317763338_cont_8to1_c_83_23_alg».proof.Proof.Gen.Kernel.Launch
import proofs.«148532_g48885317763338_cont_8to1_c_83_23_alg».proof.Proof.Gen.Kernel.Skeleton
import proofs.«148532_g48885317763338_cont_8to1_c_83_23_alg».proof.Proof.Gen.Kernel.Points
import proofs.«148532_g48885317763338_cont_8to1_c_83_23_alg».proof.Proof.Gen.Kernel.Frame
import Idealize.ShloMosaic.Lib.Pipeline.FrameBody
import Idealize.ShloMosaic.Lib.Ring
import Idealize.ShloMosaic.Lib.Tactic
import proofs.«148532_g48885317763338_cont_8to1_c_83_23_alg».proof.Proof.KRunDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 8000000 in
/-- A point of the second sweep: nothing of the first two guarded parts runs; the third loads the two adjacency
    blocks, the first 10000 rows of both summaries, the z block, the head's three weight slices, the two
    second-layer biases and the head's bias, and stores the output block. Every buffer is handed back as it was
    found but the output's staging buffer, which holds the stored value. -/
theorem runC (i : grid0.Coords) (arg2 : Memref sig .tc .vmem S10000x128 .f32) (harg2 : arg2.IsWhole) (arg3 : Memref sig .tc .vmem S280x10000 .f32) (harg3 : arg3.IsWhole) (arg4 : Memref sig .tc .vmem S280x10000 .f32) (harg4 : arg4.IsWhole) (arg5 : Memref sig .tc .vmem S280x32 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S64x32 .f32) (harg11 : arg11.IsWhole) (arg12 : Memref sig .tc .vmem S96x16 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x16 .f32) (harg15 : arg15.IsWhole) (arg16 : Memref sig .tc .vmem S280x16 .f32) (harg16 : arg16.IsWhole) (arg17 : Memref sig .tc .vmem S10000x64 .bf16) (harg17 : arg17.IsWhole) (arg18 : Memref sig .tc .vmem S10000x64 .bf16) (harg18 : arg18.IsWhole) (arg19 : Memref sig .tc .vmem S10080x16 .bf16) (harg19 : arg19.IsWhole) (arg20 : Memref sig .tc .vmem S10080x16 .bf16) (harg20 : arg20.IsWhole)
    (hc1 : ¬ cond1 i) (hc2 : ¬ cond2 i) (hc3 : cond3 i)
    (x2 : Vec F S10000x128 .f32) (x3 : Vec F S280x10000 .f32) (x4 : Vec F S280x10000 .f32) (x5 : Vec F S280x32 .f32) (x6 : Vec F S128x64 .f32) (x7 : Vec F S128x64 .f32) (x8 : Vec F S1x64 .f32) (x9 : Vec F S1x64 .f32) (x10 : Vec F S64x32 .f32) (x11 : Vec F S64x32 .f32) (x12 : Vec F S96x16 .f32) (x13 : Vec F S1x32 .f32) (x14 : Vec F S1x32 .f32) (x15 : Vec F S1x16 .f32) (x16 : Vec F S280x16 .f32) (x17 : Vec F S10000x64 .bf16) (x18 : Vec F S10000x64 .bf16) (x19 : Vec F S10080x16 .bf16) (x20 : Vec F S10080x16 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (k0_pay4 x3 (View.ld x19 R19) x4 (View.ld x20 R19) x5 (View.ld x12 Rw0) x13 (View.ld x12 Rw32) x14 (View.ld x12 Rw64) x15) ∗ owns (c : Thread nD τ) arg17 fullShare x17 ∗ owns (c : Thread nD τ) arg18 fullShare x18 ∗ owns (c : Thread nD τ) arg19 fullShare x19 ∗ owns (c : Thread nD τ) arg20 fullShare x20) -∗ K ⟨⟩))
      ⊢ wp frame (wpE (defs₀ (F := F)) Variants.none c none) E (cc0__mgcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mgcn_kernel_eq_skeleton]; unfold cc0__mgcn_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr
    swap; · iexact H16
    ipureintro
    rw [read_writes_whole _ _ hz2]
    simp only [View.readAt_eq_ld, Memref.IsWhole.read_unread, View.ld_unit_zero (S := S280x10000) hz2,
      View.ld_unit_zero (S := S280x32) hz2, View.ld_unit_zero (S := S1x32) hz2, View.ld_unit_zero (S := S1x16) hz2]
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  · iexists _; isplitr; · ipureintro; exact harg20.read_unread _
    iexact H20

end Cert.Kernel.Body

end
-- ==== Proof.KScratch.lean ====
import proofs.«148532_g48885317763338_cont_8to1_c_83_23_alg».proof.Proof.Gen.Kernel.Launch
import proofs.«148532_g48885317763338_cont_8to1_c_83_23_alg».proof.Proof.Gen.Kernel.Skeleton
import proofs.«148532_g48885317763338_cont_8to1_c_83_23_alg».proof.Proof.Gen.Kernel.Points
import proofs.«148532_g48885317763338_cont_8to1_c_83_23_alg».proof.Proof.Gen.Kernel.Frame
import Idealize.ShloMosaic.Lib.Pipeline.FrameBody
import Idealize.ShloMosaic.Lib.Ring
import Idealize.ShloMosaic.Lib.Tactic
import proofs.«148532_g48885317763338_cont_8to1_c_83_23_alg».proof.Proof.KRunDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

/-- The four scratch buffers the kernel keeps between grid points: the two supports and the two per-node summaries. -/
abbrev scM0 : Memref sig .tc .vmem S10000x64 .bf16 := Memref.whole cc0_scratch0
abbrev scM1 : Memref sig .tc .vmem S10000x64 .bf16 := Memref.whole cc0_scratch1
abbrev scM2 : Memref sig .tc .vmem S10080x16 .bf16 := Memref.whole cc0_scratch2
abbrev scM3 : Memref sig .tc .vmem S10080x16 .bf16 := Memref.whole cc0_scratch3

/-- What the launch hands the region beside the windows: the four scratch buffers, each at some contents, and
    the generator register at some state. -/
theorem PhiA_eq :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.Kernel.Body

end
-- ==== Proof.KFrameAny.lean ====
/-
  The frame of the kernel program at any float instance: the run terminates without fault and leaves every
  argument array as launched.

  The body is run with every staging buffer and every scratch buffer at arbitrary contents, and every buffer is
  handed back at some contents: nothing is claimed about what the body computes.  At each grid point the closed
  forms of the three guards select which of the three runs of the body applies.  An input window's array is never
  written back, so after the run it holds what the region found there, which is what was launched; the arrays no
  window stages bypass the region.
-/
import proofs.«148532_g48885317763338_cont_8to1_c_83_23_alg».proof.Proof.KRunA
import proofs.«148532_g48885317763338_cont_8to1_c_83_23_alg».proof.Proof.KRunB
import proofs.«148532_g48885317763338_cont_8to1_c_83_23_alg».proof.Proof.KRunC
import proofs.«148532_g48885317763338_cont_8to1_c_83_23_alg».proof.Proof.KScratch

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that names nothing: the arrays as the region finds them, the class invariant at every point, nothing
    owed, full shares; what the body leaves in any staging buffer is left unnamed. -/
def datsAny (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem A_any (c : Dev nD) (w : Fin cfg0.W) : (datsAny m 0 c).A w = V m c (Pipeline.arrRef spec0 w) := by
  dsimp only [datsAny]

set_option maxHeartbeats 4000000 in
/-- The body at any point, every buffer at any contents: it terminates without fault and hands every buffer back, at
    some contents. The closed forms of the three guards say which of the three runs applies. -/
theorem sound_any (c : Dev nD) (t : Fin cfg0.N) :
    iprop(Pipeline.ΦA spec0 c ∗ (datsAny m 0 c).owesAt () t.castSucc
        ∗ (∃ X, owns (c : Thread nD τ) (win0_0.stage (cfg0.slots t 0)) fullShare X)
        ∗ (∃ X, owns (c : Thread nD τ) (win0_1.stage (cfg0.slots t 1)) fullShare X)
        ∗ (∃ X, owns (c : Thread nD τ) (win0_2.stage (cfg0.slots t 2)) fullShare X)
        ∗ (∃ X, owns (c : Thread nD τ) (win0_3.stage (cfg0.slots t 3)) fullShare X)
        ∗ (∃ X, owns (c : Thread nD τ) (win0_4.stage (cfg0.slots t 4)) fullShare X)
        ∗ (∃ X, owns (c : Thread nD τ) (win0_5.stage (cfg0.slots t 5)) fullShare X)
        ∗ (∃ X, owns (c : Thread nD τ) (win0_6.stage (cfg0.slots t 6)) fullShare X)
        ∗ (∃ X, owns (c : Thread nD τ) (win0_7.stage (cfg0.slots t 7)) fullShare X)
        ∗ (∃ X, owns (c : Thread nD τ) (win0_8.stage (cfg0.slots t 8)) fullShare X)
        ∗ (∃ X, owns (c : Thread nD τ) (win0_9.stage (cfg0.slots t 9)) fullShare X)
        ∗ (∃ X, owns (c : Thread nD τ) (win0_10.stage (cfg0.slots t 10)) fullShare X)
        ∗ (∃ X, owns (c : Thread nD τ) (win0_11.stage (cfg0.slots t 11)) fullShare X)
        ∗ (∃ X, owns (c : Thread nD τ) (win0_12.stage (cfg0.slots t 12)) fullShare X)
        ∗ (∃ X, owns (c : Thread nD τ) (win0_13.stage (cfg0.slots t 13)) fullShare X)
        ∗ (∃ X, owns (c : Thread nD τ) (win0_14.stage (cfg0.slots t 14)) fullShare X))
      ⊢ wp frame (wpE (defs₀ (F := F)) Variants.none c none) Set.univ (bodyAt0 t) (fun _ =>
        iprop(Pipeline.ΦA spec0 c ∗ (datsAny m 0 c).owesAt () t.succ
        ∗ (∃ X, owns (c : Thread nD τ) (win0_0.stage (cfg0.slots t 0)) fullShare X)
        ∗ (∃ X, owns (c : Thread nD τ) (win0_1.stage (cfg0.slots t 1)) fullShare X)
        ∗ (∃ X, owns (c : Thread nD τ) (win0_2.stage (cfg0.slots t 2)) fullShare X)
        ∗ (∃ X, owns (c : Thread nD τ) (win0_3.stage (cfg0.slots t 3)) fullShare X)
        ∗ (∃ X, owns (c : Thread nD τ) (win0_4.stage (cfg0.slots t 4)) fullShare X)
        ∗ (∃ X, owns (c : Thread nD τ) (win0_5.stage (cfg0.slots t 5)) fullShare X)
        ∗ (∃ X, owns (c : Thread nD τ) (win0_6.stage (cfg0.slots t 6)) fullShare X)
        ∗ (∃ X, owns (c : Thread nD τ) (win0_7.stage (cfg0.slots t 7)) fullShare X)
        ∗ (∃ X, owns (c : Thread nD τ) (win0_8.stage (cfg0.slots t 8)) fullShare X)
        ∗ (∃ X, owns (c : Thread nD τ) (win0_9.stage (cfg0.slots t 9)) fullShare X)
        ∗ (∃ X, owns (c : Thread nD τ) (win0_10.stage (cfg0.slots t 10)) fullShare X)
        ∗ (∃ X, owns (c : Thread nD τ) (win0_11.stage (cfg0.slots t 11)) fullShare X)
        ∗ (∃ X, owns (c : Thread nD τ) (win0_12.stage (cfg0.slots t 12)) fullShare X)
        ∗ (∃ X, owns (c : Thread nD τ) (win0_13.stage (cfg0.slots t 13)) fullShare X)
        ∗ (∃ X, owns (c : Thread nD τ) (win0_14.stage (cfg0.slots t 14)) fullShare X))) := by
  rw [show (datsAny m 0 c).owesAt () t.succ = (datsAny m 0 c).owesAt () t.castSucc from rfl]
  rw [PhiA_eq]
  have hN : t.val < 72 := lt_of_lt_of_eq t.isLt N72
  by_cases h0 : t.val = 0
  · iintro ⟨⟨⟨⟨%d17, H17⟩, ⟨%d18, H18⟩, ⟨%d19, H19⟩, ⟨%d20, H20⟩⟩, Hg⟩, Ho, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩⟩
    iapply (runA c (grid0.coords t) _ _ _ _ _ _ _ _ _ _ _ _ _ _ _ _ _ _ _ _ _ _ _ _ _ _ _ _ _ _ _ _ _ _ _ _ _ _ ((hcond1 t).mpr h0) ((hcond2 t).mpr (by omega))
      (fun h => by have := (hcond3 t).mp h; omega) X2 X3 X4 X5 X6 X7 X8 X9 X10 X11 X12 X13 X14 X15 X16 d17 d18 d19 d20 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H2, H3, H4, H5, H6, H7, H8, H9, H10, H11, H12, H13, H14, H15, H16, H17, H18, ⟨%Y19, -, H19⟩, ⟨%Y20, -, H20⟩⟩
    isplitl [H17 H18 H19 H20 Hg]
    · isplitl [H17 H18 H19 H20]
      · isplitl [H17]; · iexists _; iexact H17
        isplitl [H18]; · iexists _; iexact H18
        isplitl [H19]; · iexists _; iexact H19
        iexists _; iexact H20
      · iexact Hg
    isplitl [Ho]; · iexact Ho
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  by_cases h1 : t.val < 36
  · iintro ⟨⟨⟨⟨%d17, H17⟩, ⟨%d18, H18⟩, ⟨%d19, H19⟩, ⟨%d20, H20⟩⟩, Hg⟩, Ho, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩⟩
    iapply (runB c (grid0.coords t) _ _ _ _ _ _ _ _ _ _ _ _ _ _ _ _ _ _ _ _ _ _ _ _ _ _ _ _ _ _ _ _ _ _ _ _ _ _ (fun h => h0 ((hcond1 t).mp h)) ((hcond2 t).mpr h1)
      (fun h => by have := (hcond3 t).mp h; omega) X2 X3 X4 X5 X6 X7 X8 X9 X10 X11 X12 X13 X14 X15 X16 d17 d18 d19 d20 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H2, H3, H4, H5, H6, H7, H8, H9, H10, H11, H12, H13, H14, H15, H16, H17, H18, ⟨%Y19, -, H19⟩, ⟨%Y20, -, H20⟩⟩
    isplitl [H17 H18 H19 H20 Hg]
    · isplitl [H17 H18 H19 H20]
      · isplitl [H17]; · iexists _; iexact H17
        isplitl [H18]; · iexists _; iexact H18
        isplitl [H19]; · iexists _; iexact H19
        iexists _; iexact H20
      · iexact Hg
    isplitl [Ho]; · iexact Ho
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  · iintro ⟨⟨⟨⟨%d17, H17⟩, ⟨%d18, H18⟩, ⟨%d19, H19⟩, ⟨%d20, H20⟩⟩, Hg⟩, Ho, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩⟩
    iapply (runC c (grid0.coords t) _ _ _ _ _ _ _ _ _ _ _ _ _ _ _ _ _ _ _ _ _ _ _ _ _ _ _ _ _ _ _ _ _ _ _ _ _ _ (fun h => h0 ((hcond1 t).mp h)) (fun h => h1 ((hcond2 t).mp h))
      ((hcond3 t).mpr (by omega)) X2 X3 X4 X5 X6 X7 X8 X9 X10 X11 X12 X13 X14 X15 X16 d17 d18 d19 d20 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H2, H3, H4, H5, H6, H7, H8, H9, H10, H11, H12, H13, H14, H15, H16, H17, H18, H19, H20⟩
    isplitl [H17 H18 H19 H20 Hg]
    · isplitl [H17 H18 H19 H20]
      · isplitl [H17]; · iexists _; iexact H17
        isplitl [H18]; · iexists _; iexact H18
        isplitl [H19]; · iexists _; iexact H19
        iexists _; iexact H20
      · iexact Hg
    isplitl [Ho]; · iexact Ho
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

/-- The library's body obligation with every window forgotten. -/
theorem body_any (c : Dev nD) :
    BodyObligation (datsAny (F := F) m 0 c) (defs₀ (F := F)) Variants.none () Set.univ (fun _ => true) := fun t => by
  rw [bigSep_W0]
  exact sound_any m c t

-- the frame run's implicit arguments are found by unifying its conclusion with this one, which takes unfolding plain
-- definitions in a metavariable's type
set_option backward.isDefEq.respectTransparency.types false in
/-- At the compiled mesh, for any values, from any memory with zero counters: every weakly fair execution of @main on
    the TensorCores terminates without fault, every input array ends as the region found it and every other unscoped
    buffer as it was at the region's entry. -/
theorem run_any : θ_run defs (onTc (τ := τ) (main (F := F))) (s₀ m ρ)
    (Pipeline.RDat.FramePost cfg0 (fun c => (datsAny m 0 c).toRForget (fun _ => true)) (V m)) :=
  Pipeline.RDat.θ_run_frame cfgs (0 : Fin 1) launch0 defs₀ Variants.none
    (fun c => (datsAny m 0 c).toRForget (fun _ => true)) m ρ main
    (hbody := fun c => (body_any m c).toRForget)
    (hshare := fun c w => (datsAny m 0 c).share_full (fun _ => rfl) w)
    (howed := fun _ _ => rfl) (V := V m) (hmain := hmain m Variants.none) (hA := fun c w => A_any m c w)
    (hΦ := fun _ _ => rfl)

/-- An input window's array after the run is what the region found there. -/
theorem arr_in_any (c : Dev nD) (w : Fin cfg0.W) (hw : (cfg0.win w).isOut = false)
    (G : Buf (Elt F) ((cfg0.win w).arr.view.loc (c.tc : Thread nD τ)))
    (h : ((datsAny m 0 c).toRForget (fun _ => true)).ArrAt w cfg0.N G) : G = V m c (Pipeline.arrRef spec0 w) := by
  rw [Pipeline.RDat.ArrAt_in _ w hw] at h
  exact h.trans (A_any m c w)

/-- THE FRAME at any float instance: @main terminates without fault and leaves every argument array as launched. -/
theorem frameAny : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(arr_in_any m c 0 rfl _ ((h c).1 0)).trans (V_main_arg0 m c),
      (arr_in_any m c 2 rfl _ ((h c).1 2)).trans (V_main_arg1 m c),
      (arr_in_any m c 1 rfl _ ((h c).1 1)).trans (V_main_arg2 m c),
      (arr_in_any m c 3 rfl _ ((h c).1 3)).trans (V_main_arg3 m c),
      (arr_in_any m c 4 rfl _ ((h c).1 4)).trans (V_main_arg4 m c),
      ((h c).2 main_arg5 (Pipeline.mem_restRefs_of main_arg5 (by decide) (by decide))).trans (V_main_arg5 m c),
      (arr_in_any m c 8 rfl _ ((h c).1 8)).trans (V_main_arg6 m c),
      ((h c).2 main_arg7 (Pipeline.mem_restRefs_of main_arg7 (by decide) (by decide))).trans (V_main_arg7 m c),
      (arr_in_any m c 5 rfl _ ((h c).1 5)).trans (V_main_arg8 m c),
      ((h c).2 main_arg9 (Pipeline.mem_restRefs_of main_arg9 (by decide) (by decide))).trans (V_main_arg9 m c),
      (arr_in_any m c 9 rfl _ ((h c).1 9)).trans (V_main_arg10 m c),
      ((h c).2 main_arg11 (Pipeline.mem_restRefs_of main_arg11 (by decide) (by decide))).trans (V_main_arg11 m c),
      (arr_in_any m c 10 rfl _ ((h c).1 10)).trans (V_main_arg12 m c),
      ((h c).2 main_arg13 (Pipeline.mem_restRefs_of main_arg13 (by decide) (by decide))).trans (V_main_arg13 m c)⟩) (run_any m ρ)

end Cert.Kernel.Body

end
-- ==== Proof.Conds.lean ====
/-
  The grid of the one kernel is 2 × 36, point t = 36·p + i.  The body has three guarded parts: the supports
  x·W1 are computed at the first point only (p = 0 ∧ i = 0); the per-node summaries of a block of 280 rows are
  computed in the first sweep (p = 0); the output block is computed in the second sweep (p = 1).  Here the three
  guards are decided over the grid in closed form, with where the output window is idle and written back and
  the row offset of the block a point works on.
-/
import proofs.«148532_g48885317763338_cont_8to1_c_83_23_alg».proof.Proof.Gen.KernelIdeal.Launch
import proofs.«148532_g48885317763338_cont_8to1_c_83_23_alg».proof.Proof.Gen.KernelIdeal.Skeleton
import proofs.«148532_g48885317763338_cont_8to1_c_83_23_alg».proof.Proof.Gen.KernelIdeal.Points

set_option maxRecDepth 16384

noncomputable section

namespace Cert.KernelIdeal.Body

open Cert.KernelIdeal Cert.KernelIdeal.Gen
open Idealize.ShloMosaic Idealize.ShloMosaic.TcCoe

/-- The three branch conditions of the body, as the skeleton computes them from the grid coordinates. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cond2 (i : grid0.Coords) : Prop := k0_cond2 i = 1#1
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 36 :=
  (by decide +kernel : ∀ t : Fin grid0.N, cond2 (grid0.coords t) ↔ t.val < 36)
theorem hcond3 : ∀ t : Fin cfg0.N, cond3 (grid0.coords t) ↔ 36 ≤ t.val :=
  (by decide +kernel : ∀ t : Fin grid0.N, cond3 (grid0.coords t) ↔ 36 ≤ t.val)

/-- The row offset of the block of summaries a first-sweep point writes: 280 · i. -/
theorem off1_0 : ∀ t : Fin cfg0.N, k0_off1 (grid0.coords t) 0 = 280 * (t.val % 36) :=
  (by decide +kernel : ∀ t : Fin grid0.N, k0_off1 (grid0.coords t) 0 = 280 * (t.val % 36))
theorem off1_1 : ∀ t : Fin cfg0.N, k0_off1 (grid0.coords t) 1 = 0 :=
  (by decide +kernel : ∀ t : Fin grid0.N, k0_off1 (grid0.coords t) 1 = 0)

/-- The output window is idle through the first sweep and not written back there; in the second sweep it is
    live and written back at every point. -/
theorem idle14_of : ∀ t : Fin cfg0.N, t.val < 36 → cfg0.idle 14 (grid0.coords t) = true :=
  (by decide +kernel : ∀ t : Fin grid0.N, t.val < 36 → cfg0.idle 14 (grid0.coords t) = true)
theorem live14_of : ∀ t : Fin cfg0.N, 36 ≤ t.val → cfg0.idle 14 (grid0.coords t) = false :=
  (by decide +kernel : ∀ t : Fin grid0.N, 36 ≤ t.val → cfg0.idle 14 (grid0.coords t) = false)
theorem noflush14_of : ∀ t : Fin cfg0.N, t.val < 36 → (cfg0.win 14).flush t = false :=
  (by decide +kernel : ∀ t : Fin grid0.N, t.val < 36 → win0_14.flush t = false)
theorem flush14_of : ∀ t : Fin cfg0.N, 36 ≤ t.val → (cfg0.win 14).flush t = true :=
  (by decide +kernel : ∀ t : Fin grid0.N, 36 ≤ t.val → win0_14.flush t = true)
theorem flush14_iff : ∀ t : Fin cfg0.N, (cfg0.win 14).flush t = true ↔ 36 ≤ t.val :=
  (by decide +kernel : ∀ t : Fin grid0.N, win0_14.flush t = true ↔ 36 ≤ t.val)

/-- The block index of each moving window at a point: the adjacency blocks follow i in both sweeps; the z block
    and the output block stay at 0 through the first sweep and follow i in the second. -/
theorem index1 : ∀ t : Fin cfg0.N, (cfg0.win 1).index t 0 = t.val % 36 ∧ (cfg0.win 1).index t 1 = 0 :=
  (by decide +kernel : ∀ t : Fin grid0.N, win0_1.index t 0 = t.val % 36 ∧ win0_1.index t 1 = 0)
theorem index2 : ∀ t : Fin cfg0.N, (cfg0.win 2).index t 0 = t.val % 36 ∧ (cfg0.win 2).index t 1 = 0 :=
  (by decide +kernel : ∀ t : Fin grid0.N, win0_2.index t 0 = t.val % 36 ∧ win0_2.index t 1 = 0)
theorem index3 : ∀ t : Fin cfg0.N, (cfg0.win 3).index t 0 = (if 36 ≤ t.val then t.val % 36 else 0) ∧ (cfg0.win 3).index t 1 = 0 :=
  (by decide +kernel : ∀ t : Fin grid0.N, win0_3.index t 0 = (if 36 ≤ t.val then t.val % 36 else 0) ∧ win0_3.index t 1 = 0)
theorem index14 : ∀ t : Fin cfg0.N, (cfg0.win 14).index t 0 = (if 36 ≤ t.val then t.val % 36 else 0) ∧ (cfg0.win 14).index t 1 = 0 :=
  (by decide +kernel : ∀ t : Fin grid0.N, win0_14.index t 0 = (if 36 ≤ t.val then t.val % 36 else 0) ∧ win0_14.index t 1 = 0)

theorem N72 : cfg0.N = 72 := N_0

end Cert.KernelIdeal.Body

end
-- ==== Proof.RunDefs.lean ====
import proofs.«148532_g48885317763338_cont_8to1_c_83_23_alg».proof.Proof.Gen.KernelIdeal.Launch
import proofs.«148532_g48885317763338_cont_8to1_c_83_23_alg».proof.Proof.Gen.KernelIdeal.Skeleton
import proofs.«148532_g48885317763338_cont_8to1_c_83_23_alg».proof.Proof.Gen.KernelIdeal.Points
import proofs.«148532_g48885317763338_cont_8to1_c_83_23_alg».proof.Proof.Gen.KernelIdeal.Frame
import Idealize.ShloMosaic.Lib.Pipeline.FrameBody
import Idealize.ShloMosaic.Lib.Ring
import Idealize.ShloMosaic.Lib.Tactic
import proofs.«148532_g48885317763338_cont_8to1_c_83_23_alg».proof.Proof.Conds
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Rectangles the body loads and stores through, and what one store through a rectangle leaves. -/

/-- The first 10000 rows of a summary scratch. -/
abbrev R19 : Rect S10080x16 := Rect.unit (s := S10080x16) ![0, 0] S10000x16.size inb_S10080x16_S10000x16_0_0
/-- Rows 0‥31, 32‥63, 64‥95 of the head's weights. -/
abbrev Rw0 : Rect S96x16 := Rect.unit (s := S96x16) ![0, 0] S32x16.size inb_S96x16_S32x16_0_0
abbrev Rw32 : Rect S96x16 := Rect.unit (s := S96x16) ![32, 0] S32x16.size inb_S96x16_S32x16_32_0
abbrev Rw64 : Rect S96x16 := Rect.unit (s := S96x16) ![64, 0] S32x16.size inb_S96x16_S32x16_64_0
/-- The 280 rows of a summary scratch a first-sweep point writes. -/
abbrev Rblk (i : grid0.Coords) (h : k0_cond2 i = 1#1) : Rect S10080x16 :=
  Rect.unit (s := S10080x16) (k0_off1 i) S280x16.size (k0_off1_inb i h)

theorem hz2 : (![0, 0] : Fin 2 → Nat) = fun _ => 0 := by
  funext a; match a with | ⟨0, _⟩ => rfl | ⟨1, _⟩ => rfl

section
variable {sg : RefSig} {κ : Kind} {sp : Space} {s : Shape} {e : EltTy} {Val : EltTy → Type}

/-- After one store through a rectangle, the buffer reads the payload inside the rectangle … -/
theorem read_writes_one_emb (v : View sg κ sp s e) (f : v.ty.Contents Val) (r : Rect s) (w : r.shape.Idx → Val e)
    (x : r.shape.Idx) : v.read Val (v.writes Val f [⟨r, w⟩]) (r.emb x) = w x :=
  View.read_writes_cons_emb v f r w [] x

/-- … and what it held before outside it. -/
theorem read_writes_one_of_not_mem (v : View sg κ sp s e) (f : v.ty.Contents Val) (r : Rect s) (w : r.shape.Idx → Val e)
    {y : s.Idx} (hy : y ∉ r.set) : v.read Val (v.writes Val f [⟨r, w⟩]) y = v.read Val f y := by
  have hy' : y ∉ Finset.univ.map r.emb := by rwa [Rect.map_emb_univ]
  rw [View.writes_cons, View.read_slice_write_of_not_mem r _ _ _ hy', View.writes_nil]

/-- A store through the whole shape leaves the payload. -/
theorem read_writes_whole [∀ e, Nonempty (Val e)] (v : View sg κ sp s e) (f : v.ty.Contents Val) {off : Fin s.rank → Nat}
    (h : off = fun _ => 0) (inb : ∀ a, off a + s.size a ≤ s.size a) (w : s.Idx → Val e) :
    v.read Val (v.writes Val f [(⟨Rect.unit off s.size inb, w⟩ : View.Piece Val s e)]) = w := by
  rw [View.read_writes_eq_canon _ _ _ (fun y => ⟨_, List.mem_singleton_self _, View.mem_set_unit_zero h inb y⟩),
    View.canon_unit_zero h]
end

/-- Contents `X` that are `x` with the rectangle `R` overwritten by `w`. -/
def LeftBlk {s : Shape} {α : Type} (X x : s.Idx → α) (R : Rect s) (w : R.shape.Idx → α) : Prop :=
  (∀ y, X (R.emb y) = w y) ∧ (∀ z, z ∉ R.set → X z = x z)

end Cert.KernelIdeal.Body

end
-- ==== Proof.RunA.lean ====
import proofs.«148532_g48885317763338_cont_8to1_c_83_23_alg».proof.Proof.Gen.KernelIdeal.Launch
import proofs.«148532_g48885317763338_cont_8to1_c_83_23_alg».proof.Proof.Gen.KernelIdeal.Skeleton
import proofs.«148532_g48885317763338_cont_8to1_c_83_23_alg».proof.Proof.Gen.KernelIdeal.Points
import proofs.«148532_g48885317763338_cont_8to1_c_83_23_alg».proof.Proof.Gen.KernelIdeal.Frame
import Idealize.ShloMosaic.Lib.Pipeline.FrameBody
import Idealize.ShloMosaic.Lib.Ring
import Idealize.ShloMosaic.Lib.Tactic
import proofs.«148532_g48885317763338_cont_8to1_c_83_23_alg».proof.Proof.RunDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 8000000 in
/-- The first point: the first guarded part stores the two supports x·W1 whole into their scratch buffers, then
    the second part runs on them as at any point of the first sweep. -/
theorem runA (i : grid0.Coords) (arg2 : Memref sig .tc .vmem S10000x128 .f32) (harg2 : arg2.IsWhole) (arg3 : Memref sig .tc .vmem S280x10000 .f32) (harg3 : arg3.IsWhole) (arg4 : Memref sig .tc .vmem S280x10000 .f32) (harg4 : arg4.IsWhole) (arg5 : Memref sig .tc .vmem S280x32 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S64x32 .f32) (harg11 : arg11.IsWhole) (arg12 : Memref sig .tc .vmem S96x16 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x16 .f32) (harg15 : arg15.IsWhole) (arg16 : Memref sig .tc .vmem S280x16 .f32) (harg16 : arg16.IsWhole) (arg17 : Memref sig .tc .vmem S10000x64 .bf16) (harg17 : arg17.IsWhole) (arg18 : Memref sig .tc .vmem S10000x64 .bf16) (harg18 : arg18.IsWhole) (arg19 : Memref sig .tc .vmem S10080x16 .bf16) (harg19 : arg19.IsWhole) (arg20 : Memref sig .tc .vmem S10080x16 .bf16) (harg20 : arg20.IsWhole)
    (hc1 : cond1 i) (hc2 : cond2 i) (hc3 : ¬ cond3 i)
    (x2 : Vec F S10000x128 .f32) (x3 : Vec F S280x10000 .f32) (x4 : Vec F S280x10000 .f32) (x5 : Vec F S280x32 .f32) (x6 : Vec F S128x64 .f32) (x7 : Vec F S128x64 .f32) (x8 : Vec F S1x64 .f32) (x9 : Vec F S1x64 .f32) (x10 : Vec F S64x32 .f32) (x11 : Vec F S64x32 .f32) (x12 : Vec F S96x16 .f32) (x13 : Vec F S1x32 .f32) (x14 : Vec F S1x32 .f32) (x15 : Vec F S1x16 .f32) (x16 : Vec F S280x16 .f32) (x17 : Vec F S10000x64 .bf16) (x18 : Vec F S10000x64 .bf16) (x19 : Vec F S10080x16 .bf16) (x20 : Vec F S10080x16 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (k0_pay1 x2 x6) ∗ owns (c : Thread nD τ) arg18 fullShare (k0_pay2 x2 x7) ∗ (∃ X19, ⌜LeftBlk X19 x19 (Rblk i hc2) (k0_pay6 x3 (k0_pay1 x2 x6) x8 x10 (View.ld x12 Rw32))⌝ ∗ owns (c : Thread nD τ) arg19 fullShare X19) ∗ (∃ X20, ⌜LeftBlk X20 x20 (Rblk i hc2) (k0_pay3 (k0_pay5 x4 (k0_pay2 x2 x7) x9 x11) (View.ld x12 Rw64))⌝ ∗ owns (c : Thread nD τ) arg20 fullShare X20)) -∗ K ⟨⟩))
      ⊢ wp frame (wpE (defs₀ (F := F)) Variants.none c none) E (cc0__mgcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mgcn_kernel_eq_skeleton]; unfold cc0__mgcn_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | exact hc1 | exact hc2 | exact hc3)
  sl_step
  iapply Hk
  sl_unfold_run_names
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    rw [read_writes_whole _ _ hz2]
    simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
  isplitl [H18]
  · iexists _; isplitr
    swap; · iexact H18
    ipureintro
    rw [read_writes_whole _ _ hz2]
    simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
  isplitl [H19]
  · iexists _; isplitr
    swap
    · iexists _; isplitr
      swap; · iexact H19
      ipureintro; rfl
    ipureintro
    refine ⟨fun y => ?_, fun z hz => ?_⟩
    · rw [read_writes_one_emb]
      simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
    · rw [read_writes_one_of_not_mem _ _ _ _ hz, harg19.read_unread]
  · iexists _; isplitr
    swap
    · iexists _; isplitr
      swap; · iexact H20
      ipureintro; rfl
    ipureintro
    refine ⟨fun y => ?_, fun z hz => ?_⟩
    · rw [read_writes_one_emb]
      simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
    · rw [read_writes_one_of_not_mem _ _ _ _ hz, harg20.read_unread]

end Cert.KernelIdeal.Body

end
-- ==== Proof.RunB.lean ====
import proofs.«148532_g48885317763338_cont_8to1_c_83_23_alg».proof.Proof.Gen.KernelIdeal.Launch
import proofs.«148532_g48885317763338_cont_8to1_c_83_23_alg».proof.Proof.Gen.KernelIdeal.Skeleton
import proofs.«148532_g48885317763338_cont_8to1_c_83_23_alg».proof.Proof.Gen.KernelIdeal.Points
import proofs.«148532_g48885317763338_cont_8to1_c_83_23_alg».proof.Proof.Gen.KernelIdeal.Frame
import Idealize.ShloMosaic.Lib.Pipeline.FrameBody
import Idealize.ShloMosaic.Lib.Ring
import Idealize.ShloMosaic.Lib.Tactic
import proofs.«148532_g48885317763338_cont_8to1_c_83_23_alg».proof.Proof.RunDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 8000000 in
/-- A point of the first sweep other than the first: only the second guarded part runs. It loads the two
    adjacency blocks, both supports, the two first-layer bias rows, the two second-layer weights and two of the
    head's weight slices, and stores a block of 280 rows into each summary scratch at the point's row offset;
    everything else is handed back as found. -/
theorem runB (i : grid0.Coords) (arg2 : Memref sig .tc .vmem S10000x128 .f32) (harg2 : arg2.IsWhole) (arg3 : Memref sig .tc .vmem S280x10000 .f32) (harg3 : arg3.IsWhole) (arg4 : Memref sig .tc .vmem S280x10000 .f32) (harg4 : arg4.IsWhole) (arg5 : Memref sig .tc .vmem S280x32 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S64x32 .f32) (harg11 : arg11.IsWhole) (arg12 : Memref sig .tc .vmem S96x16 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x16 .f32) (harg15 : arg15.IsWhole) (arg16 : Memref sig .tc .vmem S280x16 .f32) (harg16 : arg16.IsWhole) (arg17 : Memref sig .tc .vmem S10000x64 .bf16) (harg17 : arg17.IsWhole) (arg18 : Memref sig .tc .vmem S10000x64 .bf16) (harg18 : arg18.IsWhole) (arg19 : Memref sig .tc .vmem S10080x16 .bf16) (harg19 : arg19.IsWhole) (arg20 : Memref sig .tc .vmem S10080x16 .bf16) (harg20 : arg20.IsWhole)
    (hc1 : ¬ cond1 i) (hc2 : cond2 i) (hc3 : ¬ cond3 i)
    (x2 : Vec F S10000x128 .f32) (x3 : Vec F S280x10000 .f32) (x4 : Vec F S280x10000 .f32) (x5 : Vec F S280x32 .f32) (x6 : Vec F S128x64 .f32) (x7 : Vec F S128x64 .f32) (x8 : Vec F S1x64 .f32) (x9 : Vec F S1x64 .f32) (x10 : Vec F S64x32 .f32) (x11 : Vec F S64x32 .f32) (x12 : Vec F S96x16 .f32) (x13 : Vec F S1x32 .f32) (x14 : Vec F S1x32 .f32) (x15 : Vec F S1x16 .f32) (x16 : Vec F S280x16 .f32) (x17 : Vec F S10000x64 .bf16) (x18 : Vec F S10000x64 .bf16) (x19 : Vec F S10080x16 .bf16) (x20 : Vec F S10080x16 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ X19, ⌜LeftBlk X19 x19 (Rblk i hc2) (k0_pay6 x3 x17 x8 x10 (View.ld x12 Rw32))⌝ ∗ owns (c : Thread nD τ) arg19 fullShare X19) ∗ (∃ X20, ⌜LeftBlk X20 x20 (Rblk i hc2) (k0_pay3 (k0_pay5 x4 x18 x9 x11) (View.ld x12 Rw64))⌝ ∗ owns (c : Thread nD τ) arg20 fullShare X20)) -∗ K ⟨⟩))
      ⊢ wp frame (wpE (defs₀ (F := F)) Variants.none c none) E (cc0__mgcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mgcn_kernel_eq_skeleton]; unfold cc0__mgcn_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr
    swap
    · iexists _; isplitr
      swap; · iexact H19
      ipureintro; rfl
    ipureintro
    refine ⟨fun y => ?_, fun z hz => ?_⟩
    · rw [read_writes_one_emb]
      simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
    · rw [read_writes_one_of_not_mem _ _ _ _ hz, harg19.read_unread]
  · iexists _; isplitr
    swap
    · iexists _; isplitr
      swap; · iexact H20
      ipureintro; rfl
    ipureintro
    refine ⟨fun y => ?_, fun z hz => ?_⟩
    · rw [read_writes_one_emb]
      simp only [View.readAt_eq_ld, Memref.IsWhole.read_unread, View.ld_unit_zero (S := S280x10000) hz2,
        View.ld_unit_zero (S := S10000x64) hz2, View.ld_unit_zero (S := S1x64) hz2, View.ld_unit_zero (S := S64x32) hz2,
        View.ld_unit_zero (S := S10000x128) hz2, View.ld_unit_zero (S := S128x64) hz2,
        View.readCov_unit_zero (S := S10000x64) _ hz2]
    · rw [read_writes_one_of_not_mem _ _ _ _ hz, harg20.read_unread]

end Cert.KernelIdeal.Body

end
-- ==== Proof.RunC.lean ====
import proofs.«148532_g48885317763338_cont_8to1_c_83_23_alg».proof.Proof.Gen.KernelIdeal.Launch
import proofs.«148532_g48885317763338_cont_8to1_c_83_23_alg».proof.Proof.Gen.KernelIdeal.Skeleton
import proofs.«148532_g48885317763338_cont_8to1_c_83_23_alg».proof.Proof.Gen.KernelIdeal.Points
import proofs.«148532_g48885317763338_cont_8to1_c_83_23_alg».proof.Proof.Gen.KernelIdeal.Frame
import Idealize.ShloMosaic.Lib.Pipeline.FrameBody
import Idealize.ShloMosaic.Lib.Ring
import Idealize.ShloMosaic.Lib.Tactic
import proofs.«148532_g48885317763338_cont_8to1_c_83_23_alg».proof.Proof.RunDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 8000000 in
/-- A point of the second sweep: nothing of the first two guarded parts runs; the third loads the two adjacency
    blocks, the first 10000 rows of both summaries, the z block, the head's three weight slices, the two
    second-layer biases and the head's bias, and stores the output block. Every buffer is handed back as it was
    found but the output's staging buffer, which holds the stored value. -/
theorem runC (i : grid0.Coords) (arg2 : Memref sig .tc .vmem S10000x128 .f32) (harg2 : arg2.IsWhole) (arg3 : Memref sig .tc .vmem S280x10000 .f32) (harg3 : arg3.IsWhole) (arg4 : Memref sig .tc .vmem S280x10000 .f32) (harg4 : arg4.IsWhole) (arg5 : Memref sig .tc .vmem S280x32 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x32 .f32) (harg10 : arg10.IsWhole) (arg11 : Memref sig .tc .vmem S64x32 .f32) (harg11 : arg11.IsWhole) (arg12 : Memref sig .tc .vmem S96x16 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x16 .f32) (harg15 : arg15.IsWhole) (arg16 : Memref sig .tc .vmem S280x16 .f32) (harg16 : arg16.IsWhole) (arg17 : Memref sig .tc .vmem S10000x64 .bf16) (harg17 : arg17.IsWhole) (arg18 : Memref sig .tc .vmem S10000x64 .bf16) (harg18 : arg18.IsWhole) (arg19 : Memref sig .tc .vmem S10080x16 .bf16) (harg19 : arg19.IsWhole) (arg20 : Memref sig .tc .vmem S10080x16 .bf16) (harg20 : arg20.IsWhole)
    (hc1 : ¬ cond1 i) (hc2 : ¬ cond2 i) (hc3 : cond3 i)
    (x2 : Vec F S10000x128 .f32) (x3 : Vec F S280x10000 .f32) (x4 : Vec F S280x10000 .f32) (x5 : Vec F S280x32 .f32) (x6 : Vec F S128x64 .f32) (x7 : Vec F S128x64 .f32) (x8 : Vec F S1x64 .f32) (x9 : Vec F S1x64 .f32) (x10 : Vec F S64x32 .f32) (x11 : Vec F S64x32 .f32) (x12 : Vec F S96x16 .f32) (x13 : Vec F S1x32 .f32) (x14 : Vec F S1x32 .f32) (x15 : Vec F S1x16 .f32) (x16 : Vec F S280x16 .f32) (x17 : Vec F S10000x64 .bf16) (x18 : Vec F S10000x64 .bf16) (x19 : Vec F S10080x16 .bf16) (x20 : Vec F S10080x16 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (k0_pay4 x3 (View.ld x19 R19) x4 (View.ld x20 R19) x5 (View.ld x12 Rw0) x13 (View.ld x12 Rw32) x14 (View.ld x12 Rw64) x15) ∗ owns (c : Thread nD τ) arg17 fullShare x17 ∗ owns (c : Thread nD τ) arg18 fullShare x18 ∗ owns (c : Thread nD τ) arg19 fullShare x19 ∗ owns (c : Thread nD τ) arg20 fullShare x20) -∗ K ⟨⟩))
      ⊢ wp frame (wpE (defs₀ (F := F)) Variants.none c none) E (cc0__mgcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mgcn_kernel_eq_skeleton]; unfold cc0__mgcn_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr
    swap; · iexact H16
    ipureintro
    rw [read_writes_whole _ _ hz2]
    simp only [View.readAt_eq_ld, Memref.IsWhole.read_unread, View.ld_unit_zero (S := S280x10000) hz2,
      View.ld_unit_zero (S := S280x32) hz2, View.ld_unit_zero (S := S1x32) hz2, View.ld_unit_zero (S := S1x16) hz2]
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  · iexists _; isplitr; · ipureintro; exact harg20.read_unread _
    iexact H20

end Cert.KernelIdeal.Body

end
-- ==== Proof.Scratch.lean ====
import proofs.«148532_g48885317763338_cont_8to1_c_83_23_alg».proof.Proof.Gen.KernelIdeal.Launch
import proofs.«148532_g48885317763338_cont_8to1_c_83_23_alg».proof.Proof.Gen.KernelIdeal.Skeleton
import proofs.«148532_g48885317763338_cont_8to1_c_83_23_alg».proof.Proof.Gen.KernelIdeal.Points
import proofs.«148532_g48885317763338_cont_8to1_c_83_23_alg».proof.Proof.Gen.KernelIdeal.Frame
import Idealize.ShloMosaic.Lib.Pipeline.FrameBody
import Idealize.ShloMosaic.Lib.Ring
import Idealize.ShloMosaic.Lib.Tactic
import proofs.«148532_g48885317763338_cont_8to1_c_83_23_alg».proof.Proof.RunDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

/-- The four scratch buffers the kernel keeps between grid points: the two supports and the two per-node summaries. -/
abbrev scM0 : Memref sig .tc .vmem S10000x64 .bf16 := Memref.whole cc0_scratch0
abbrev scM1 : Memref sig .tc .vmem S10000x64 .bf16 := Memref.whole cc0_scratch1
abbrev scM2 : Memref sig .tc .vmem S10080x16 .bf16 := Memref.whole cc0_scratch2
abbrev scM3 : Memref sig .tc .vmem S10080x16 .bf16 := Memref.whole cc0_scratch3

/-- What the launch hands the region beside the windows: the four scratch buffers, each at some contents, and
    the generator register at some state. -/
theorem PhiA_eq :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.KernelIdeal.Body

end
-- ==== Proof.FrameAny.lean ====
/-
  The frame of the kernel program at any float instance: the run terminates without fault and leaves every
  argument array as launched.

  The body is run with every staging buffer and every scratch buffer at arbitrary contents, and every buffer is
  handed back at some contents: nothing is claimed about what the body computes.  At each grid point the closed
  forms of the three guards select which of the three runs of the body applies.  An input window's array is never
  written back, so after the run it holds what the region found there, which is what was launched; the arrays no
  window stages bypass the region.
-/
import proofs.«148532_g48885317763338_cont_8to1_c_83_23_alg».proof.Proof.RunA
import proofs.«148532_g48885317763338_cont_8to1_c_83_23_alg».proof.Proof.RunB
import proofs.«148532_g48885317763338_cont_8to1_c_83_23_alg».proof.Proof.RunC
import proofs.«148532_g48885317763338_cont_8to1_c_83_23_alg».proof.Proof.Scratch

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that names nothing: the arrays as the region finds them, the class invariant at every point, nothing
    owed, full shares; what the body leaves in any staging buffer is left unnamed. -/
def datsAny (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem A_any (c : Dev nD) (w : Fin cfg0.W) : (datsAny m 0 c).A w = V m c (Pipeline.arrRef spec0 w) := by
  dsimp only [datsAny]

set_option maxHeartbeats 4000000 in
/-- The body at any point, every buffer at any contents: it terminates without fault and hands every buffer back, at
    some contents. The closed forms of the three guards say which of the three runs applies. -/
theorem sound_any (c : Dev nD) (t : Fin cfg0.N) :
    iprop(Pipeline.ΦA spec0 c ∗ (datsAny m 0 c).owesAt () t.castSucc
        ∗ (∃ X, owns (c : Thread nD τ) (win0_0.stage (cfg0.slots t 0)) fullShare X)
        ∗ (∃ X, owns (c : Thread nD τ) (win0_1.stage (cfg0.slots t 1)) fullShare X)
        ∗ (∃ X, owns (c : Thread nD τ) (win0_2.stage (cfg0.slots t 2)) fullShare X)
        ∗ (∃ X, owns (c : Thread nD τ) (win0_3.stage (cfg0.slots t 3)) fullShare X)
        ∗ (∃ X, owns (c : Thread nD τ) (win0_4.stage (cfg0.slots t 4)) fullShare X)
        ∗ (∃ X, owns (c : Thread nD τ) (win0_5.stage (cfg0.slots t 5)) fullShare X)
        ∗ (∃ X, owns (c : Thread nD τ) (win0_6.stage (cfg0.slots t 6)) fullShare X)
        ∗ (∃ X, owns (c : Thread nD τ) (win0_7.stage (cfg0.slots t 7)) fullShare X)
        ∗ (∃ X, owns (c : Thread nD τ) (win0_8.stage (cfg0.slots t 8)) fullShare X)
        ∗ (∃ X, owns (c : Thread nD τ) (win0_9.stage (cfg0.slots t 9)) fullShare X)
        ∗ (∃ X, owns (c : Thread nD τ) (win0_10.stage (cfg0.slots t 10)) fullShare X)
        ∗ (∃ X, owns (c : Thread nD τ) (win0_11.stage (cfg0.slots t 11)) fullShare X)
        ∗ (∃ X, owns (c : Thread nD τ) (win0_12.stage (cfg0.slots t 12)) fullShare X)
        ∗ (∃ X, owns (c : Thread nD τ) (win0_13.stage (cfg0.slots t 13)) fullShare X)
        ∗ (∃ X, owns (c : Thread nD τ) (win0_14.stage (cfg0.slots t 14)) fullShare X))
      ⊢ wp frame (wpE (defs₀ (F := F)) Variants.none c none) Set.univ (bodyAt0 t) (fun _ =>
        iprop(Pipeline.ΦA spec0 c ∗ (datsAny m 0 c).owesAt () t.succ
        ∗ (∃ X, owns (c : Thread nD τ) (win0_0.stage (cfg0.slots t 0)) fullShare X)
        ∗ (∃ X, owns (c : Thread nD τ) (win0_1.stage (cfg0.slots t 1)) fullShare X)
        ∗ (∃ X, owns (c : Thread nD τ) (win0_2.stage (cfg0.slots t 2)) fullShare X)
        ∗ (∃ X, owns (c : Thread nD τ) (win0_3.stage (cfg0.slots t 3)) fullShare X)
        ∗ (∃ X, owns (c : Thread nD τ) (win0_4.stage (cfg0.slots t 4)) fullShare X)
        ∗ (∃ X, owns (c : Thread nD τ) (win0_5.stage (cfg0.slots t 5)) fullShare X)
        ∗ (∃ X, owns (c : Thread nD τ) (win0_6.stage (cfg0.slots t 6)) fullShare X)
        ∗ (∃ X, owns (c : Thread nD τ) (win0_7.stage (cfg0.slots t 7)) fullShare X)
        ∗ (∃ X, owns (c : Thread nD τ) (win0_8.stage (cfg0.slots t 8)) fullShare X)
        ∗ (∃ X, owns (c : Thread nD τ) (win0_9.stage (cfg0.slots t 9)) fullShare X)
        ∗ (∃ X, owns (c : Thread nD τ) (win0_10.stage (cfg0.slots t 10)) fullShare X)
        ∗ (∃ X, owns (c : Thread nD τ) (win0_11.stage (cfg0.slots t 11)) fullShare X)
        ∗ (∃ X, owns (c : Thread nD τ) (win0_12.stage (cfg0.slots t 12)) fullShare X)
        ∗ (∃ X, owns (c : Thread nD τ) (win0_13.stage (cfg0.slots t 13)) fullShare X)
        ∗ (∃ X, owns (c : Thread nD τ) (win0_14.stage (cfg0.slots t 14)) fullShare X))) := by
  rw [show (datsAny m 0 c).owesAt () t.succ = (datsAny m 0 c).owesAt () t.castSucc from rfl]
  rw [PhiA_eq]
  have hN : t.val < 72 := lt_of_lt_of_eq t.isLt N72
  by_cases h0 : t.val = 0
  · iintro ⟨⟨⟨⟨%d17, H17⟩, ⟨%d18, H18⟩, ⟨%d19, H19⟩, ⟨%d20, H20⟩⟩, Hg⟩, Ho, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩⟩
    iapply (runA c (grid0.coords t) _ _ _ _ _ _ _ _ _ _ _ _ _ _ _ _ _ _ _ _ _ _ _ _ _ _ _ _ _ _ _ _ _ _ _ _ _ _ ((hcond1 t).mpr h0) ((hcond2 t).mpr (by omega))
      (fun h => by have := (hcond3 t).mp h; omega) X2 X3 X4 X5 X6 X7 X8 X9 X10 X11 X12 X13 X14 X15 X16 d17 d18 d19 d20 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H2, H3, H4, H5, H6, H7, H8, H9, H10, H11, H12, H13, H14, H15, H16, H17, H18, ⟨%Y19, -, H19⟩, ⟨%Y20, -, H20⟩⟩
    isplitl [H17 H18 H19 H20 Hg]
    · isplitl [H17 H18 H19 H20]
      · isplitl [H17]; · iexists _; iexact H17
        isplitl [H18]; · iexists _; iexact H18
        isplitl [H19]; · iexists _; iexact H19
        iexists _; iexact H20
      · iexact Hg
    isplitl [Ho]; · iexact Ho
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  by_cases h1 : t.val < 36
  · iintro ⟨⟨⟨⟨%d17, H17⟩, ⟨%d18, H18⟩, ⟨%d19, H19⟩, ⟨%d20, H20⟩⟩, Hg⟩, Ho, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩⟩
    iapply (runB c (grid0.coords t) _ _ _ _ _ _ _ _ _ _ _ _ _ _ _ _ _ _ _ _ _ _ _ _ _ _ _ _ _ _ _ _ _ _ _ _ _ _ (fun h => h0 ((hcond1 t).mp h)) ((hcond2 t).mpr h1)
      (fun h => by have := (hcond3 t).mp h; omega) X2 X3 X4 X5 X6 X7 X8 X9 X10 X11 X12 X13 X14 X15 X16 d17 d18 d19 d20 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H2, H3, H4, H5, H6, H7, H8, H9, H10, H11, H12, H13, H14, H15, H16, H17, H18, ⟨%Y19, -, H19⟩, ⟨%Y20, -, H20⟩⟩
    isplitl [H17 H18 H19 H20 Hg]
    · isplitl [H17 H18 H19 H20]
      · isplitl [H17]; · iexists _; iexact H17
        isplitl [H18]; · iexists _; iexact H18
        isplitl [H19]; · iexists _; iexact H19
        iexists _; iexact H20
      · iexact Hg
    isplitl [Ho]; · iexact Ho
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  · iintro ⟨⟨⟨⟨%d17, H17⟩, ⟨%d18, H18⟩, ⟨%d19, H19⟩, ⟨%d20, H20⟩⟩, Hg⟩, Ho, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩⟩
    iapply (runC c (grid0.coords t) _ _ _ _ _ _ _ _ _ _ _ _ _ _ _ _ _ _ _ _ _ _ _ _ _ _ _ _ _ _ _ _ _ _ _ _ _ _ (fun h => h0 ((hcond1 t).mp h)) (fun h => h1 ((hcond2 t).mp h))
      ((hcond3 t).mpr (by omega)) X2 X3 X4 X5 X6 X7 X8 X9 X10 X11 X12 X13 X14 X15 X16 d17 d18 d19 d20 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H2, H3, H4, H5, H6, H7, H8, H9, H10, H11, H12, H13, H14, H15, H16, H17, H18, H19, H20⟩
    isplitl [H17 H18 H19 H20 Hg]
    · isplitl [H17 H18 H19 H20]
      · isplitl [H17]; · iexists _; iexact H17
        isplitl [H18]; · iexists _; iexact H18
        isplitl [H19]; · iexists _; iexact H19
        iexists _; iexact H20
      · iexact Hg
    isplitl [Ho]; · iexact Ho
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

/-- The library's body obligation with every window forgotten. -/
theorem body_any (c : Dev nD) :
    BodyObligation (datsAny (F := F) m 0 c) (defs₀ (F := F)) Variants.none () Set.univ (fun _ => true) := fun t => by
  rw [bigSep_W0]
  exact sound_any m c t

-- the frame run's implicit arguments are found by unifying its conclusion with this one, which takes unfolding plain
-- definitions in a metavariable's type
set_option backward.isDefEq.respectTransparency.types false in
/-- At the compiled mesh, for any values, from any memory with zero counters: every weakly fair execution of @main on
    the TensorCores terminates without fault, every input array ends as the region found it and every other unscoped
    buffer as it was at the region's entry. -/
theorem run_any : θ_run defs (onTc (τ := τ) (main (F := F))) (s₀ m ρ)
    (Pipeline.RDat.FramePost cfg0 (fun c => (datsAny m 0 c).toRForget (fun _ => true)) (V m)) :=
  Pipeline.RDat.θ_run_frame cfgs (0 : Fin 1) launch0 defs₀ Variants.none
    (fun c => (datsAny m 0 c).toRForget (fun _ => true)) m ρ main
    (hbody := fun c => (body_any m c).toRForget)
    (hshare := fun c w => (datsAny m 0 c).share_full (fun _ => rfl) w)
    (howed := fun _ _ => rfl) (V := V m) (hmain := hmain m Variants.none) (hA := fun c w => A_any m c w)
    (hΦ := fun _ _ => rfl)

/-- An input window's array after the run is what the region found there. -/
theorem arr_in_any (c : Dev nD) (w : Fin cfg0.W) (hw : (cfg0.win w).isOut = false)
    (G : Buf (Elt F) ((cfg0.win w).arr.view.loc (c.tc : Thread nD τ)))
    (h : ((datsAny m 0 c).toRForget (fun _ => true)).ArrAt w cfg0.N G) : G = V m c (Pipeline.arrRef spec0 w) := by
  rw [Pipeline.RDat.ArrAt_in _ w hw] at h
  exact h.trans (A_any m c w)

/-- THE FRAME at any float instance: @main terminates without fault and leaves every argument array as launched. -/
theorem frameAny : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(arr_in_any m c 0 rfl _ ((h c).1 0)).trans (V_main_arg0 m c),
      (arr_in_any m c 2 rfl _ ((h c).1 2)).trans (V_main_arg1 m c),
      (arr_in_any m c 1 rfl _ ((h c).1 1)).trans (V_main_arg2 m c),
      (arr_in_any m c 3 rfl _ ((h c).1 3)).trans (V_main_arg3 m c),
      (arr_in_any m c 4 rfl _ ((h c).1 4)).trans (V_main_arg4 m c),
      ((h c).2 main_arg5 (Pipeline.mem_restRefs_of main_arg5 (by decide) (by decide))).trans (V_main_arg5 m c),
      (arr_in_any m c 8 rfl _ ((h c).1 8)).trans (V_main_arg6 m c),
      ((h c).2 main_arg7 (Pipeline.mem_restRefs_of main_arg7 (by decide) (by decide))).trans (V_main_arg7 m c),
      (arr_in_any m c 5 rfl _ ((h c).1 5)).trans (V_main_arg8 m c),
      ((h c).2 main_arg9 (Pipeline.mem_restRefs_of main_arg9 (by decide) (by decide))).trans (V_main_arg9 m c),
      (arr_in_any m c 9 rfl _ ((h c).1 9)).trans (V_main_arg10 m c),
      ((h c).2 main_arg11 (Pipeline.mem_restRefs_of main_arg11 (by decide) (by decide))).trans (V_main_arg11 m c),
      (arr_in_any m c 10 rfl _ ((h c).1 10)).trans (V_main_arg12 m c),
      ((h c).2 main_arg13 (Pipeline.mem_restRefs_of main_arg13 (by decide) (by decide))).trans (V_main_arg13 m c)⟩) (run_any m ρ)

end Cert.KernelIdeal.Body

end
-- ==== Proof.RefImports.lean ====
/- The reference's run and its operations read at an index, as generated modules. -/
import proofs.«148532_g48885317763338_cont_8to1_c_83_23_alg».proof.Proof.Gen.ReferenceIdeal.Run
import proofs.«148532_g48885317763338_cont_8to1_c_83_23_alg».proof.Proof.Gen.ReferenceIdeal.Read
-- ==== Proof.Spec.lean ====
/-
  Two-branch graph convolution with a linear head, as functions of coordinates on the extended reals.

  For an adjacency A : n×n, features x : n×f and weights W1 : f×h, W2 : h×g, a projection Wp : g×q:
    support  S = x·W1,     hidden  H = max(A·S + b1, 0),     proj  T = H·W2.
  The kernel's arrangement folds the head into the branch BEFORE the second aggregation:
    kerU = T·Wp,   kerOut = A_f·kerU_f + A_s·kerU_s + z·Wz + (b2f·Wf + b2s·Ws) + bm,
  the reference's aggregates first and projects after:
    refEmb = A·T + b2,   refOut = z·Wz + refEmb_f·Wf + refEmb_s·Ws + bm.
  They agree wherever every entry is a real number (associativity of the triple product and distributivity,
  which fail at infinities).
-/
import Mathlib

noncomputable section

namespace Cert.Mgcn

open scoped BigOperators

variable {n f h g q : ℕ}

/-- x·W1 at (r, a). -/
def support (x : Fin n → Fin f → EReal) (W1 : Fin f → Fin h → EReal) : Fin n → Fin h → EReal :=
  fun r a => ∑ k, x r k * W1 k a

/-- max(A·S + b1, 0) at (r, a). -/
def hidden (A : Fin n → Fin n → EReal) (S : Fin n → Fin h → EReal) (b1 : Fin h → EReal) : Fin n → Fin h → EReal :=
  fun r a => max (∑ k, A r k * S k a + b1 a) 0

/-- H·W2 at (r, j). -/
def proj (H : Fin n → Fin h → EReal) (W2 : Fin h → Fin g → EReal) : Fin n → Fin g → EReal :=
  fun r j => ∑ a, H r a * W2 a j

/-- The kernel's per-node summary of one branch: (max(A·S + b1, 0)·W2)·Wp at (r, c). -/
def kerU (A : Fin n → Fin n → EReal) (S : Fin n → Fin h → EReal) (b1 : Fin h → EReal)
    (W2 : Fin h → Fin g → EReal) (Wp : Fin g → Fin q → EReal) : Fin n → Fin q → EReal :=
  fun r c => ∑ j, proj (hidden A S b1) W2 r j * Wp j c

/-- The kernel's result at (r, c), in the order its additions are made. -/
def kerOut (fadj sadj : Fin n → Fin n → EReal) (z : Fin n → Fin g → EReal) (Uf Us : Fin n → Fin q → EReal)
    (b2f b2s : Fin g → EReal) (Wz Wf Ws : Fin g → Fin q → EReal) (bm : Fin q → EReal) : Fin n → Fin q → EReal :=
  fun r c => ((((∑ k, fadj r k * Uf k c) + (∑ k, sadj r k * Us k c)) + ∑ j, z r j * Wz j c)
      + ((∑ j, b2f j * Wf j c) + (∑ j, b2s j * Ws j c))) + bm c

/-- The kernel's result from the inputs. -/
def kerAll (x : Fin n → Fin f → EReal) (sadj fadj : Fin n → Fin n → EReal) (z : Fin n → Fin g → EReal)
    (W1f : Fin f → Fin h → EReal) (b1f : Fin h → EReal) (W2f : Fin h → Fin g → EReal) (b2f : Fin g → EReal)
    (W1s : Fin f → Fin h → EReal) (b1s : Fin h → EReal) (W2s : Fin h → Fin g → EReal) (b2s : Fin g → EReal)
    (Wz Wf Ws : Fin g → Fin q → EReal) (bm : Fin q → EReal) : Fin n → Fin q → EReal :=
  kerOut fadj sadj z (kerU fadj (support x W1f) b1f W2f Wf) (kerU sadj (support x W1s) b1s W2s Ws)
    b2f b2s Wz Wf Ws bm

/-- The reference's second layer of one branch: A·T + b2 at (r, j). -/
def refEmb (A : Fin n → Fin n → EReal) (S : Fin n → Fin h → EReal) (b1 : Fin h → EReal)
    (W2 : Fin h → Fin g → EReal) (b2 : Fin g → EReal) : Fin n → Fin g → EReal :=
  fun r j => (∑ k, A r k * proj (hidden A S b1) W2 k j) + b2 j

/-- The reference's result from the inputs: the head applied to the three embeddings side by side. -/
def refAll (x : Fin n → Fin f → EReal) (sadj fadj : Fin n → Fin n → EReal) (z : Fin n → Fin g → EReal)
    (W1f : Fin f → Fin h → EReal) (b1f : Fin h → EReal) (W2f : Fin h → Fin g → EReal) (b2f : Fin g → EReal)
    (W1s : Fin f → Fin h → EReal) (b1s : Fin h → EReal) (W2s : Fin h → Fin g → EReal) (b2s : Fin g → EReal)
    (Wz Wf Ws : Fin g → Fin q → EReal) (bm : Fin q → EReal) : Fin n → Fin q → EReal :=
  fun r c => (((∑ j, z r j * Wz j c) + (∑ j, refEmb fadj (support x W1f) b1f W2f b2f r j * Wf j c))
      + (∑ j, refEmb sadj (support x W1s) b1s W2s b2s r j * Ws j c)) + bm c

end Cert.Mgcn

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.RefValue.lean ====
/-
  The reference program's result, read at an index, is the two-branch graph convolution with a linear head.

  Each stage of the reference is read at an index (r, c): a matrix product is the sum over the contracted coordinate, a
  bias broadcast along the rows is the bias at the column, the rectifier is the maximum with zero, and the three
  embeddings laid side by side along the columns are read piece by piece, so the head's sum over 96 columns splits into
  three sums over 32. No finiteness is needed: both sides are the same expression of the extended reals.
-/
import proofs.«148532_g48885317763338_cont_8to1_c_83_23_alg».proof.Proof.RefImports
import proofs.«148532_g48885317763338_cont_8to1_c_83_23_alg».proof.Proof.Spec
import proofs.«148532_g48885317763338_cont_8to1_c_83_23_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Mgcn
open scoped BigOperators

/-! ## Index equations: the stages' composed index functions are the coordinate constructors -/

theorem lidx0 (r : Fin 10000) (a : Fin 64) (k : Fin 128) : lidx_main_v0 (ix2 r a) k = ix2 r k :=
  funext fun d => Fin.ext (by match d with | ⟨0, _⟩ => rfl | ⟨1, _⟩ => rfl)

theorem ridx0 (r : Fin 10000) (a : Fin 64) (k : Fin 128) : ridx_main_v0 (ix2 r a) k = ix2 k a :=
  funext fun d => Fin.ext (by match d with | ⟨0, _⟩ => rfl | ⟨1, _⟩ => rfl)

theorem lidx1 (r : Fin 10000) (a : Fin 64) (k : Fin 10000) : lidx_main_v1 (ix2 r a) k = ix2 r k :=
  funext fun d => Fin.ext (by match d with | ⟨0, _⟩ => rfl | ⟨1, _⟩ => rfl)

theorem ridx1 (r : Fin 10000) (a : Fin 64) (k : Fin 10000) : ridx_main_v1 (ix2 r a) k = ix2 k a :=
  funext fun d => Fin.ext (by match d with | ⟨0, _⟩ => rfl | ⟨1, _⟩ => rfl)

theorem bidx3 (r : Fin 10000) (a : Fin 64) : idx_main_v2 (idx_main_v3 (ix2 r a)) = ix1 a :=
  funext fun d => Fin.ext (by match d with | ⟨0, _⟩ => rfl)

theorem lidx6 (r : Fin 10000) (j : Fin 32) (k : Fin 64) : lidx_main_v6 (ix2 r j) k = ix2 r k :=
  funext fun d => Fin.ext (by match d with | ⟨0, _⟩ => rfl | ⟨1, _⟩ => rfl)

theorem ridx6 (r : Fin 10000) (j : Fin 32) (k : Fin 64) : ridx_main_v6 (ix2 r j) k = ix2 k j :=
  funext fun d => Fin.ext (by match d with | ⟨0, _⟩ => rfl | ⟨1, _⟩ => rfl)

theorem lidx7 (r : Fin 10000) (j : Fin 32) (k : Fin 10000) : lidx_main_v7 (ix2 r j) k = ix2 r k :=
  funext fun d => Fin.ext (by match d with | ⟨0, _⟩ => rfl | ⟨1, _⟩ => rfl)

theorem ridx7 (r : Fin 10000) (j : Fin 32) (k : Fin 10000) : ridx_main_v7 (ix2 r j) k = ix2 k j :=
  funext fun d => Fin.ext (by match d with | ⟨0, _⟩ => rfl | ⟨1, _⟩ => rfl)

theorem bidx9 (r : Fin 10000) (j : Fin 32) : idx_main_v8 (idx_main_v9 (ix2 r j)) = ix1 j :=
  funext fun d => Fin.ext (by match d with | ⟨0, _⟩ => rfl)

theorem lidx23 (r : Fin 10000) (c : Fin 16) (k : Fin 96) : lidx_main_v23 (ix2 r c) k = ix2 r k :=
  funext fun d => Fin.ext (by match d with | ⟨0, _⟩ => rfl | ⟨1, _⟩ => rfl)

theorem ridx23 (r : Fin 10000) (c : Fin 16) (k : Fin 96) : ridx_main_v23 (ix2 r c) k = ix2 k c :=
  funext fun d => Fin.ext (by match d with | ⟨0, _⟩ => rfl | ⟨1, _⟩ => rfl)

theorem bidx25 (r : Fin 10000) (c : Fin 16) : idx_main_v24 (idx_main_v25 (ix2 r c)) = ix1 c :=
  funext fun d => Fin.ext (by match d with | ⟨0, _⟩ => rfl)

/-! ## One branch, over any arrays: support, hidden layer, projection, second aggregation -/

section Branch

variable (x : (⟨S10000x128, .f32⟩ : BufTy).Contents (Elt Ideal)) (A : (⟨S10000x10000, .f32⟩ : BufTy).Contents (Elt Ideal)) (W1 : (⟨S128x64, .f32⟩ : BufTy).Contents (Elt Ideal)) (b1 : (⟨S64, .f32⟩ : BufTy).Contents (Elt Ideal))
  (W2 : (⟨S64x32, .f32⟩ : BufTy).Contents (Elt Ideal)) (b2 : (⟨S32, .f32⟩ : BufTy).Contents (Elt Ideal))

/-- The first product, features times first-layer weights, at (r, a). -/
theorem v0_ix (r : Fin 10000) (a : Fin 64) :
    val_main_v0 (F := Ideal) x W1 (ix2 r a) = support (fun r k => x (ix2 r k)) (fun k a => W1 (ix2 k a)) r a := by
  rw [val_main_v0_apply]
  unfold support
  simp only [lidx0, ridx0]

/-- The rectified first aggregation at (r, a). -/
theorem v5_ix (r : Fin 10000) (a : Fin 64) :
    val_main_v5 (F := Ideal) x A W1 b1 (ix2 r a)
      = Mgcn.hidden (fun r k => A (ix2 r k)) (support (fun r k => x (ix2 r k)) (fun k a => W1 (ix2 k a))) (fun a => b1 (ix1 a)) r a := by
  rw [val_main_v5_apply, val_main_v4_apply, val_main_v1_apply, val_main_v3_apply, val_main_v2_apply,
    val_main_call0_v0_apply, val_main_call0_cst_apply]
  unfold Mgcn.hidden
  simp only [lidx1, ridx1, bidx3, v0_ix, Ideal.maximumf_def, Ideal.addf_def, Ideal.ofBits_def, Ideal.ofBits_zero_f32]

/-- The hidden layer times the second-layer weights at (r, j). -/
theorem v6_ix (r : Fin 10000) (j : Fin 32) :
    val_main_v6 (F := Ideal) x A W1 b1 W2 (ix2 r j)
      = proj (Mgcn.hidden (fun r k => A (ix2 r k)) (support (fun r k => x (ix2 r k)) (fun k a => W1 (ix2 k a))) (fun a => b1 (ix1 a)))
          (fun a j => W2 (ix2 a j)) r j := by
  rw [val_main_v6_apply]
  unfold proj
  simp only [lidx6, ridx6, v5_ix]

/-- The second aggregation with its bias at (r, j). -/
theorem v10_ix (r : Fin 10000) (j : Fin 32) :
    val_main_v10 (F := Ideal) x A W1 b1 W2 b2 (ix2 r j)
      = refEmb (fun r k => A (ix2 r k)) (support (fun r k => x (ix2 r k)) (fun k a => W1 (ix2 k a))) (fun a => b1 (ix1 a))
          (fun a j => W2 (ix2 a j)) (fun j => b2 (ix1 j)) r j := by
  rw [val_main_v10_apply, val_main_v7_apply, val_main_v9_apply, val_main_v8_apply]
  unfold refEmb
  simp only [lidx7, ridx7, bidx9, v6_ix, Ideal.addf_def]

/-- The second branch's stages are the first's at its own arguments. -/
theorem v21_eq : val_main_v21 (F := Ideal) x A W1 b1 W2 b2 = val_main_v10 (F := Ideal) x A W1 b1 W2 b2 := rfl

end Branch

/-! ## The head: three embeddings side by side, times the head's weights, plus its bias -/

/-- Rows 0 to 31 of the head's weights: the rows that meet the first embedding. -/
abbrev Wz (W : (⟨S96x16, .f32⟩ : BufTy).Contents (Elt Ideal)) : Fin 32 → Fin 16 → EReal := fun j c => W (ix2 (⟨j.val, by omega⟩ : Fin 96) c)
/-- Rows 32 to 63 of the head's weights. -/
abbrev Wf (W : (⟨S96x16, .f32⟩ : BufTy).Contents (Elt Ideal)) : Fin 32 → Fin 16 → EReal := fun j c => W (ix2 (⟨32 + j.val, by omega⟩ : Fin 96) c)
/-- Rows 64 to 95 of the head's weights. -/
abbrev Ws (W : (⟨S96x16, .f32⟩ : BufTy).Contents (Elt Ideal)) : Fin 32 → Fin 16 → EReal := fun j c => W (ix2 (⟨64 + j.val, by omega⟩ : Fin 96) c)

/-- A sum over 96 positions is the sum over its three thirds, in order. -/
theorem sum_fin96 (f : Fin 96 → EReal) :
    ∑ k, f k = ((∑ j : Fin 32, f ⟨j.val, by omega⟩) + ∑ j : Fin 32, f ⟨32 + j.val, by omega⟩)
      + ∑ j : Fin 32, f ⟨64 + j.val, by omega⟩ := by
  have h1 := Fin.sum_univ_add (a := 64) (b := 32) f
  have h2 := Fin.sum_univ_add (a := 32) (b := 32) (fun i : Fin 64 => f (Fin.castAdd 32 i))
  rw [h1, h2]
  rfl

/-- Three arrays of 32 columns laid side by side along the columns. -/
def side (z y1 y2 : (⟨S10000x32, .f32⟩ : BufTy).Contents (Elt Ideal)) : (⟨S10000x96, .f32⟩ : BufTy).Contents (Elt Ideal) :=
  concatenate S10000x96 1 [⟨S10000x32, z⟩, ⟨S10000x32, y1⟩, ⟨S10000x32, y2⟩]
    concatenates_S10000x32_S10000x32_S10000x32_S10000x96_d1

section Cat

variable (z y1 y2 : (⟨S10000x32, .f32⟩ : BufTy).Contents (Elt Ideal)) (r : Fin 10000) (j : Fin 32)

/-- A column below 32 of the side-by-side array is the first piece's. -/
theorem cat0 : side z y1 y2 (ix2 r (⟨j.val, by omega⟩ : Fin 96)) = z (ix2 r j) := by
  unfold side
  refine concatenate_apply_piece (t := S10000x96) 1 _ _ _ 0 (by simp) S10000x32 z rfl rfl 0 rfl (ix2 r j) ?_ ?_
  · intro b
    match b with
    | ⟨0, _⟩ => exact fun _ => rfl
    | ⟨1, _⟩ => exact fun h => absurd rfl h
  · exact Nat.zero_add _

/-- A column from 32 to 63 is the second piece's, 32 columns back. -/
theorem cat1 : side z y1 y2 (ix2 r (⟨32 + j.val, by omega⟩ : Fin 96)) = y1 (ix2 r j) := by
  unfold side
  refine concatenate_apply_piece (t := S10000x96) 1 _ _ _ 1 (by simp) S10000x32 y1 rfl rfl 32 rfl (ix2 r j) ?_ ?_
  · intro b
    match b with
    | ⟨0, _⟩ => exact fun _ => rfl
    | ⟨1, _⟩ => exact fun h => absurd rfl h
  · exact rfl

/-- A column from 64 on is the third piece's, 64 columns back. -/
theorem cat2 : side z y1 y2 (ix2 r (⟨64 + j.val, by omega⟩ : Fin 96)) = y2 (ix2 r j) := by
  unfold side
  refine concatenate_apply_piece (t := S10000x96) 1 _ _ _ 2 (by simp) S10000x32 y2 rfl rfl 64 rfl (ix2 r j) ?_ ?_
  · intro b
    match b with
    | ⟨0, _⟩ => exact fun _ => rfl
    | ⟨1, _⟩ => exact fun h => absurd rfl h
  · exact rfl

end Cat

/-- The side-by-side stage is `side` of the first embedding and the two branches' results. -/
theorem v22_eq (a0 : (⟨S10000x128, .f32⟩ : BufTy).Contents (Elt Ideal)) (a1 a2 : (⟨S10000x10000, .f32⟩ : BufTy).Contents (Elt Ideal))
    (a3 : (⟨S10000x32, .f32⟩ : BufTy).Contents (Elt Ideal)) (a4 : (⟨S128x64, .f32⟩ : BufTy).Contents (Elt Ideal)) (a5 : (⟨S64, .f32⟩ : BufTy).Contents (Elt Ideal))
    (a6 : (⟨S64x32, .f32⟩ : BufTy).Contents (Elt Ideal)) (a7 : (⟨S32, .f32⟩ : BufTy).Contents (Elt Ideal)) (a8 : (⟨S128x64, .f32⟩ : BufTy).Contents (Elt Ideal))
    (a9 : (⟨S64, .f32⟩ : BufTy).Contents (Elt Ideal)) (a10 : (⟨S64x32, .f32⟩ : BufTy).Contents (Elt Ideal)) (a11 : (⟨S32, .f32⟩ : BufTy).Contents (Elt Ideal)) :
    val_main_v22 (F := Ideal) a0 a1 a2 a3 a4 a5 a6 a7 a8 a9 a10 a11
      = side a3 (val_main_v10 (F := Ideal) a0 a2 a4 a5 a6 a7) (val_main_v10 (F := Ideal) a0 a1 a8 a9 a10 a11) := rfl

/-- **The reference's result at (r, c) is the specification.** -/
theorem ref_eq_spec (a0 : (⟨S10000x128, .f32⟩ : BufTy).Contents (Elt Ideal)) (a1 a2 : (⟨S10000x10000, .f32⟩ : BufTy).Contents (Elt Ideal))
    (a3 : (⟨S10000x32, .f32⟩ : BufTy).Contents (Elt Ideal)) (a4 : (⟨S128x64, .f32⟩ : BufTy).Contents (Elt Ideal)) (a5 : (⟨S64, .f32⟩ : BufTy).Contents (Elt Ideal))
    (a6 : (⟨S64x32, .f32⟩ : BufTy).Contents (Elt Ideal)) (a7 : (⟨S32, .f32⟩ : BufTy).Contents (Elt Ideal)) (a8 : (⟨S128x64, .f32⟩ : BufTy).Contents (Elt Ideal))
    (a9 : (⟨S64, .f32⟩ : BufTy).Contents (Elt Ideal)) (a10 : (⟨S64x32, .f32⟩ : BufTy).Contents (Elt Ideal)) (a11 : (⟨S32, .f32⟩ : BufTy).Contents (Elt Ideal))
    (a12 : (⟨S96x16, .f32⟩ : BufTy).Contents (Elt Ideal)) (a13 : (⟨S16, .f32⟩ : BufTy).Contents (Elt Ideal)) (r : Fin 10000) (c : Fin 16) :
    val_main_v26 (F := Ideal) a0 a1 a2 a3 a4 a5 a6 a7 a8 a9 a10 a11 a12 a13 (ix2 r c)
      = refAll (fun r k => a0 (ix2 r k)) (fun r k => a1 (ix2 r k)) (fun r k => a2 (ix2 r k)) (fun r j => a3 (ix2 r j))
          (fun k a => a4 (ix2 k a)) (fun a => a5 (ix1 a)) (fun a j => a6 (ix2 a j)) (fun j => a7 (ix1 j))
          (fun k a => a8 (ix2 k a)) (fun a => a9 (ix1 a)) (fun a j => a10 (ix2 a j)) (fun j => a11 (ix1 j))
          (Wz a12) (Wf a12) (Ws a12) (fun c => a13 (ix1 c)) r c := by
  rw [val_main_v26_apply, val_main_v23_apply, val_main_v25_apply, val_main_v24_apply, v22_eq]
  simp only [lidx23, ridx23, bidx25]
  rw [sum_fin96]
  simp only [cat0, cat1, cat2, v10_ix, Ideal.addf_def]
  rfl

/-- The reference's whole result as a function of its fourteen arguments: the specification read at an index's two
    coordinates. -/
def refOutOf (a0 : (⟨S10000x128, .f32⟩ : BufTy).Contents (Elt Ideal)) (a1 a2 : (⟨S10000x10000, .f32⟩ : BufTy).Contents (Elt Ideal))
    (a3 : (⟨S10000x32, .f32⟩ : BufTy).Contents (Elt Ideal)) (a4 : (⟨S128x64, .f32⟩ : BufTy).Contents (Elt Ideal)) (a5 : (⟨S64, .f32⟩ : BufTy).Contents (Elt Ideal))
    (a6 : (⟨S64x32, .f32⟩ : BufTy).Contents (Elt Ideal)) (a7 : (⟨S32, .f32⟩ : BufTy).Contents (Elt Ideal)) (a8 : (⟨S128x64, .f32⟩ : BufTy).Contents (Elt Ideal))
    (a9 : (⟨S64, .f32⟩ : BufTy).Contents (Elt Ideal)) (a10 : (⟨S64x32, .f32⟩ : BufTy).Contents (Elt Ideal)) (a11 : (⟨S32, .f32⟩ : BufTy).Contents (Elt Ideal))
    (a12 : (⟨S96x16, .f32⟩ : BufTy).Contents (Elt Ideal)) (a13 : (⟨S16, .f32⟩ : BufTy).Contents (Elt Ideal)) : (⟨S10000x16, .f32⟩ : BufTy).Contents (Elt Ideal) :=
  fun idx => refAll (fun r k => a0 (ix2 r k)) (fun r k => a1 (ix2 r k)) (fun r k => a2 (ix2 r k)) (fun r j => a3 (ix2 r j))
          (fun k a => a4 (ix2 k a)) (fun a => a5 (ix1 a)) (fun a j => a6 (ix2 a j)) (fun j => a7 (ix1 j))
          (fun k a => a8 (ix2 k a)) (fun a => a9 (ix1 a)) (fun a j => a10 (ix2 a j)) (fun j => a11 (ix1 j))
          (Wz a12) (Wf a12) (Ws a12) (fun c => a13 (ix1 c)) (idx 0) (idx 1)

/-- **The reference's last stage, as a whole array, is the specification.** -/
theorem val_eq_refOutOf (a0 : (⟨S10000x128, .f32⟩ : BufTy).Contents (Elt Ideal)) (a1 a2 : (⟨S10000x10000, .f32⟩ : BufTy).Contents (Elt Ideal))
    (a3 : (⟨S10000x32, .f32⟩ : BufTy).Contents (Elt Ideal)) (a4 : (⟨S128x64, .f32⟩ : BufTy).Contents (Elt Ideal)) (a5 : (⟨S64, .f32⟩ : BufTy).Contents (Elt Ideal))
    (a6 : (⟨S64x32, .f32⟩ : BufTy).Contents (Elt Ideal)) (a7 : (⟨S32, .f32⟩ : BufTy).Contents (Elt Ideal)) (a8 : (⟨S128x64, .f32⟩ : BufTy).Contents (Elt Ideal))
    (a9 : (⟨S64, .f32⟩ : BufTy).Contents (Elt Ideal)) (a10 : (⟨S64x32, .f32⟩ : BufTy).Contents (Elt Ideal)) (a11 : (⟨S32, .f32⟩ : BufTy).Contents (Elt Ideal))
    (a12 : (⟨S96x16, .f32⟩ : BufTy).Contents (Elt Ideal)) (a13 : (⟨S16, .f32⟩ : BufTy).Contents (Elt Ideal)) :
    val_main_v26 (F := Ideal) a0 a1 a2 a3 a4 a5 a6 a7 a8 a9 a10 a11 a12 a13 = refOutOf a0 a1 a2 a3 a4 a5 a6 a7 a8 a9 a10 a11 a12 a13 := by
  funext idx
  obtain ⟨r, c, rfl⟩ : ∃ (r : Fin 10000) (c : Fin 16), idx = ix2 r c := ⟨idx 0, idx 1, eq_ix2 idx⟩
  exact ref_eq_spec a0 a1 a2 a3 a4 a5 a6 a7 a8 a9 a10 a11 a12 a13 r c

end Cert.RefValue

end
-- ==== Proof.RefFrame.lean ====
/-
  The reference's frame, and its run with the result stated as the specification.

  Every weakly fair execution of the reference terminates with its arguments unchanged (the frame), and with its result
  buffer equal to the two-branch graph convolution of the arguments' launch contents.
-/
import proofs.«148532_g48885317763338_cont_8to1_c_83_23_alg».proof.Defs
import proofs.«148532_g48885317763338_cont_8to1_c_83_23_alg».proof.Proof.Gen.ReferenceIdeal
import proofs.«148532_g48885317763338_cont_8to1_c_83_23_alg».proof.Proof.Gen.Pre_finite_inputs
import proofs.«148532_g48885317763338_cont_8to1_c_83_23_alg».proof.Proof.RefValue

noncomputable section

namespace Cert.RefValue

open Cert.ReferenceIdeal Cert.ReferenceIdeal.Gen Idealize.ShloMosaic Idealize.ShloMosaic.TcCoe Idealize.SL.Sem
  Idealize.ShloMosaic.StableHlo Idealize.ShloMosaic.ValueIdx Cert.Mgcn

/-- The reference's frame: its arguments are unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's run: its result buffer is the specification of the arguments' launch contents, and the arguments
    are unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26)
        = refOutOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono
    (fun _ h c => ⟨((h c).1.trans (Cert.ReferenceIdeal.Read.val_main_v26_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))).trans
        (val_eq_refOutOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))), (h c).2⟩)
    (Cert.ReferenceIdeal.Value.run (F := Ideal) m ρ)

end Cert.RefValue

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.Law.lean ====
/-
  The two arrangements of the two-branch graph convolution agree on real inputs.

  Each definition of the specification, evaluated at images of real numbers, is the image of the same
  expression computed over the reals (a sum of products of images is the image of the real sum; sums and
  the larger of a real and zero stay real). Over the reals the head distributes over the second
  aggregation:
    ∑ j, (∑ k, A r k · T k j + b2 j) · W j c = ∑ k, A r k · (∑ j, T k j · W j c) + ∑ j, b2 j · W j c,
  and the five summands of the two results are the same up to order.
-/
import proofs.«148532_g48885317763338_cont_8to1_c_83_23_alg».proof.Proof.Spec
import proofs.«148532_g48885317763338_cont_8to1_c_83_23_alg».proof.Proof.LibRealSums

noncomputable section

namespace Cert.Mgcn

open scoped BigOperators
open Cert.Lib.RealSums

variable {n f h g q : ℕ}

/-! ## The same expressions over the reals -/

/-- x·W1 at (r, a), over the reals. -/
def supportR (x : Fin n → Fin f → ℝ) (W1 : Fin f → Fin h → ℝ) : Fin n → Fin h → ℝ :=
  fun r a => ∑ k, x r k * W1 k a

/-- max(A·S + b1, 0) at (r, a), over the reals. -/
def hiddenR (A : Fin n → Fin n → ℝ) (S : Fin n → Fin h → ℝ) (b1 : Fin h → ℝ) : Fin n → Fin h → ℝ :=
  fun r a => max (∑ k, A r k * S k a + b1 a) 0

/-- H·W2 at (r, j), over the reals. -/
def projR (H : Fin n → Fin h → ℝ) (W2 : Fin h → Fin g → ℝ) : Fin n → Fin g → ℝ :=
  fun r j => ∑ a, H r a * W2 a j

/-- One branch up to its second weight: max(A·(x·W1) + b1, 0)·W2, over the reals. -/
def branchR (A : Fin n → Fin n → ℝ) (x : Fin n → Fin f → ℝ) (W1 : Fin f → Fin h → ℝ) (b1 : Fin h → ℝ)
    (W2 : Fin h → Fin g → ℝ) : Fin n → Fin g → ℝ :=
  projR (hiddenR A (supportR x W1) b1) W2

/-! ## Each definition at real entries is the image of its real twin -/

theorem support_coe (x : Fin n → Fin f → ℝ) (W1 : Fin f → Fin h → ℝ) :
    support (fun r k => (x r k : EReal)) (fun k a => (W1 k a : EReal))
      = fun r a => ((supportR x W1 r a : ℝ) : EReal) := by
  funext r a
  simp only [support, supportR]
  exact sum_coe_mul_coe _ _ _

theorem coe_max_zero (t : ℝ) : max (t : EReal) 0 = ((max t 0 : ℝ) : EReal) := by
  rw [← EReal.coe_zero]; exact (EReal.coe_strictMono.monotone.map_max).symm

theorem hidden_coe (A : Fin n → Fin n → ℝ) (S : Fin n → Fin h → ℝ) (b1 : Fin h → ℝ) :
    hidden (fun r k => (A r k : EReal)) (fun r a => (S r a : EReal)) (fun a => (b1 a : EReal))
      = fun r a => ((hiddenR A S b1 r a : ℝ) : EReal) := by
  funext r a
  simp only [hidden, hiddenR]
  rw [sum_coe_mul_coe, ← EReal.coe_add, coe_max_zero]

theorem proj_coe (H : Fin n → Fin h → ℝ) (W2 : Fin h → Fin g → ℝ) :
    proj (fun r a => (H r a : EReal)) (fun a j => (W2 a j : EReal))
      = fun r j => ((projR H W2 r j : ℝ) : EReal) := by
  funext r j
  simp only [proj, projR]
  exact sum_coe_mul_coe _ _ _

/-- One branch up to its second weight, at real entries. -/
theorem branch_coe (A : Fin n → Fin n → ℝ) (x : Fin n → Fin f → ℝ) (W1 : Fin f → Fin h → ℝ) (b1 : Fin h → ℝ)
    (W2 : Fin h → Fin g → ℝ) :
    proj (hidden (fun r k => (A r k : EReal)) (support (fun r k => (x r k : EReal)) (fun k a => (W1 k a : EReal)))
        (fun a => (b1 a : EReal))) (fun a j => (W2 a j : EReal))
      = fun r j => ((branchR A x W1 b1 W2 r j : ℝ) : EReal) := by
  rw [support_coe, hidden_coe, proj_coe]; rfl

/-- The kernel's per-node summary of one branch, at real entries. -/
theorem kerU_coe (A : Fin n → Fin n → ℝ) (x : Fin n → Fin f → ℝ) (W1 : Fin f → Fin h → ℝ) (b1 : Fin h → ℝ)
    (W2 : Fin h → Fin g → ℝ) (Wp : Fin g → Fin q → ℝ) :
    kerU (fun r k => (A r k : EReal)) (support (fun r k => (x r k : EReal)) (fun k a => (W1 k a : EReal)))
        (fun a => (b1 a : EReal)) (fun a j => (W2 a j : EReal)) (fun j c => (Wp j c : EReal))
      = fun r c => ((∑ j, branchR A x W1 b1 W2 r j * Wp j c : ℝ) : EReal) := by
  funext r c
  simp only [kerU]
  rw [branch_coe]
  exact sum_coe_mul_coe _ _ _

/-- The reference's second layer of one branch, at real entries. -/
theorem refEmb_coe (A : Fin n → Fin n → ℝ) (x : Fin n → Fin f → ℝ) (W1 : Fin f → Fin h → ℝ) (b1 : Fin h → ℝ)
    (W2 : Fin h → Fin g → ℝ) (b2 : Fin g → ℝ) :
    refEmb (fun r k => (A r k : EReal)) (support (fun r k => (x r k : EReal)) (fun k a => (W1 k a : EReal)))
        (fun a => (b1 a : EReal)) (fun a j => (W2 a j : EReal)) (fun j => (b2 j : EReal))
      = fun r j => (((∑ k, A r k * branchR A x W1 b1 W2 k j) + b2 j : ℝ) : EReal) := by
  funext r j
  simp only [refEmb]
  rw [branch_coe, sum_coe_mul_coe, ← EReal.coe_add]

/-! ## The identity over the reals -/

/-- The head distributes over the second aggregation and its bias. -/
theorem head_aggregate (A : Fin n → Fin n → ℝ) (T : Fin n → Fin g → ℝ) (b2 : Fin g → ℝ)
    (W : Fin g → Fin q → ℝ) (r : Fin n) (c : Fin q) :
    ∑ j, ((∑ k, A r k * T k j) + b2 j) * W j c
      = (∑ k, A r k * ∑ j, T k j * W j c) + ∑ j, b2 j * W j c := by
  simp only [add_mul, Finset.sum_add_distrib, Finset.sum_mul, Finset.mul_sum]
  congr 1
  rw [Finset.sum_comm]
  exact Finset.sum_congr rfl fun k _ => Finset.sum_congr rfl fun j _ => mul_assoc _ _ _

/-! ## The two arrangements agree on real inputs -/

theorem kerAll_eq_refAll
    (x : Fin n → Fin f → ℝ) (sadj fadj : Fin n → Fin n → ℝ) (z : Fin n → Fin g → ℝ)
    (W1f : Fin f → Fin h → ℝ) (b1f : Fin h → ℝ) (W2f : Fin h → Fin g → ℝ) (b2f : Fin g → ℝ)
    (W1s : Fin f → Fin h → ℝ) (b1s : Fin h → ℝ) (W2s : Fin h → Fin g → ℝ) (b2s : Fin g → ℝ)
    (Wz Wf Ws : Fin g → Fin q → ℝ) (bm : Fin q → ℝ) :
    kerAll (fun r k => (x r k : EReal)) (fun r k => (sadj r k : EReal)) (fun r k => (fadj r k : EReal))
        (fun r j => (z r j : EReal))
        (fun k a => (W1f k a : EReal)) (fun a => (b1f a : EReal)) (fun a j => (W2f a j : EReal))
        (fun j => (b2f j : EReal))
        (fun k a => (W1s k a : EReal)) (fun a => (b1s a : EReal)) (fun a j => (W2s a j : EReal))
        (fun j => (b2s j : EReal))
        (fun j c => (Wz j c : EReal)) (fun j c => (Wf j c : EReal)) (fun j c => (Ws j c : EReal))
        (fun c => (bm c : EReal))
      = refAll (fun r k => (x r k : EReal)) (fun r k => (sadj r k : EReal)) (fun r k => (fadj r k : EReal))
        (fun r j => (z r j : EReal))
        (fun k a => (W1f k a : EReal)) (fun a => (b1f a : EReal)) (fun a j => (W2f a j : EReal))
        (fun j => (b2f j : EReal))
        (fun k a => (W1s k a : EReal)) (fun a => (b1s a : EReal)) (fun a j => (W2s a j : EReal))
        (fun j => (b2s j : EReal))
        (fun j c => (Wz j c : EReal)) (fun j c => (Wf j c : EReal)) (fun j c => (Ws j c : EReal))
        (fun c => (bm c : EReal)) := by
  funext r c
  simp only [kerAll, kerOut, refAll]
  rw [kerU_coe, kerU_coe, refEmb_coe, refEmb_coe]
  simp only [sum_coe_mul_coe, ← EReal.coe_add]
  rw [head_aggregate, head_aggregate]
  congr 1
  ring

end Cert.Mgcn

end
-- ==== Proof.FinitePre.lean ====
/-
  The precondition "every float input is finite", read back at the extended reals.

  The printed predicate is the conjunction, over the fourteen float arguments, of "all entries a satisfy
  |a| < +∞", where |a| = max a (-a) and +∞ is the extended real the pattern 0x7F800000 denotes. An extended
  real whose absolute value is below +∞ is neither infinity, hence the image of a real number. The predicate
  being true therefore gives, for every argument and every index, a real number the entry is the image of.
-/
import proofs.«148532_g48885317763338_cont_8to1_c_83_23_alg».proof.Pre_finite_inputs
import Idealize.ShloMosaic.Lib.ReduceAll
import Idealize.ShloMosaic.Lib.ValueIdx
import Idealize.ShloMosaic.PureOps.Ideal.Laws

noncomputable section

namespace Cert.FinitePre

open Idealize.ShloMosaic
open Cert.Pre_finite_inputs

/-- The rank-0 shape has one index. -/
instance : Subsingleton S_.Idx := ⟨fun a b => funext fun d => d.elim0⟩

/-- The pattern 0x7F800000 denotes +∞. -/
theorem inf_bits : Ideal.ofBits .f32 0x7F800000#32 = (⊤ : EReal) := by simp [Ideal.ofBits, Ideal.ieee]

/-- An extended real whose absolute value max x (-x) is below +∞ is the image of a real number. -/
theorem real_of_abs_lt_top {x : EReal} (hx : max x (-x) < ⊤) : ∃ r : ℝ, x = (r : EReal) := by
  induction x using EReal.rec with
  | bot => simp at hx
  | top => simp at hx
  | coe r => exact ⟨r, rfl⟩

/-- One entry of one argument: the comparison |a i| < +∞ being true makes a i real. -/
theorem real_of_lt_inf {s : Shape} (hb : S_.BroadcastsInDim s (![] : Fin 0 → Fin s.rank))
    (a : FVec Ideal s .f32) (i : s.Idx)
    (e : cmpf .olt (Host.absf a) (broadcastInDim s ![] hb (constant (F := Ideal) S_ .f32 0x7F800000#32)) i = 1#1) :
    ∃ r : ℝ, a i = (r : EReal) := by
  have e2 : BitVec.ofBool (decide (max (a i) (-(a i)) < Ideal.ofBits .f32 0x7F800000#32)) = 1#1 := e
  rw [inf_bits] at e2
  by_cases hlt : max (a i) (-(a i)) < (⊤ : EReal)
  · exact real_of_abs_lt_top hlt
  · rw [decide_eq_false hlt] at e2; exact absurd e2 (by decide)

/-- One argument: the whole-array conjunction being true makes every entry real. -/
theorem real_of_all {s : Shape} {axes : List (Fin s.rank)} (hb : S_.BroadcastsInDim s (![] : Fin 0 → Fin s.rank))
    (hr : s.ReducesTo axes S_) (hu : 0 < S_.numel) (a : FVec Ideal s .f32) (init : IVec S_ 1)
    (e : Host.reduce IntOp.andi
      (cmpf .olt (Host.absf a) (broadcastInDim s ![] hb (constant (F := Ideal) S_ .f32 0x7F800000#32))) init hr hu
      ValueIdx.ix0 = 1#1) :
    ∀ i, ∃ r : ℝ, a i = (r : EReal) :=
  fun i => real_of_lt_inf hb a i (Host.reduce_andi_all _ init hr hu ValueIdx.ix0 e i)

variable [Facts]
open Facts

/-- THE PRECONDITION DECODED: every entry of every float argument is the image of a real number. -/
theorem real_of_pre
    (a0 : FVec Ideal S10000x128 .f32) (a1 a2 : FVec Ideal S10000x10000 .f32) (a3 : FVec Ideal S10000x32 .f32)
    (a4 : FVec Ideal S128x64 .f32) (a5 : FVec Ideal S64 .f32) (a6 : FVec Ideal S64x32 .f32) (a7 : FVec Ideal S32 .f32)
    (a8 : FVec Ideal S128x64 .f32) (a9 : FVec Ideal S64 .f32) (a10 : FVec Ideal S64x32 .f32) (a11 : FVec Ideal S32 .f32)
    (a12 : FVec Ideal S96x16 .f32) (a13 : FVec Ideal S16 .f32)
    (h : Cert.Pre_finite_inputs.fn (F := Ideal) a0 a1 a2 a3 a4 a5 a6 a7 a8 a9 a10 a11 a12 a13 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) ∧ (∀ i, ∃ r : ℝ, a11 i = (r : EReal))
      ∧ (∀ i, ∃ r : ℝ, a12 i = (r : EReal)) ∧ (∀ i, ∃ r : ℝ, a13 i = (r : EReal)) := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := e
  exact ⟨real_of_all _ _ _ a0 _ e0, real_of_all _ _ _ a1 _ e1, real_of_all _ _ _ a2 _ e2, real_of_all _ _ _ a3 _ e3,
    real_of_all _ _ _ a4 _ e4, real_of_all _ _ _ a5 _ e5, real_of_all _ _ _ a6 _ e6, real_of_all _ _ _ a7 _ e7,
    real_of_all _ _ _ a8 _ e8, real_of_all _ _ _ a9 _ e9, real_of_all _ _ _ a10 _ e10, real_of_all _ _ _ a11 _ e11,
    real_of_all _ _ _ a12 _ e12, real_of_all _ _ _ a13 _ e13⟩

end Cert.FinitePre

end
-- ==== Proof.Data.lean ====
/-
  What the kernel computes, at the exact instance, as data for the pipeline rule.

  The inputs as functions of coordinates; the two supports x·W1 as the arrays the first point stores; the two
  per-node summaries U = (max(A·S + b1, 0)·W2)·Wp and the result, as the specification's functions.  Between
  points the scratch holds: both supports exactly, and of each summary the rows of the blocks already swept
  (rows below 280·t; the 80 rows past the array's end that the last block carries are never read and are not
  described).  The staging buffers after the body: an input's holds its block (on the rows inside the array,
  for a block that overhangs it), the result's holds the specification's rows of its block.
-/
import proofs.«148532_g48885317763338_cont_8to1_c_83_23_alg».proof.Proof.Scratch
import proofs.«148532_g48885317763338_cont_8to1_c_83_23_alg».proof.Proof.Spec
import proofs.«148532_g48885317763338_cont_8to1_c_83_23_alg».proof.Proof.Gen.KernelIdeal.Frame
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Exact

open Cert.KernelIdeal Cert.KernelIdeal.Gen Cert.KernelIdeal.Body Cert.Mgcn
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (c : Dev nD)

/-! ## The inputs by coordinates -/

def xC : Fin 10000 → Fin 128 → EReal := fun r k => (V m c main_arg0 : S10000x128.Idx → EReal) (ix2 r k)
def sadjC : Fin 10000 → Fin 10000 → EReal := fun r k => (V m c main_arg1 : S10000x10000.Idx → EReal) (ix2 r k)
def fadjC : Fin 10000 → Fin 10000 → EReal := fun r k => (V m c main_arg2 : S10000x10000.Idx → EReal) (ix2 r k)
def zC : Fin 10000 → Fin 32 → EReal := fun r j => (V m c main_arg3 : S10000x32.Idx → EReal) (ix2 r j)
def W1fC : Fin 128 → Fin 64 → EReal := fun k a => (V m c main_arg4 : S128x64.Idx → EReal) (ix2 k a)
def b1fC : Fin 64 → EReal := fun a => (V m c main_arg5 : S64.Idx → EReal) (ix1 a)
def W2fC : Fin 64 → Fin 32 → EReal := fun a j => (V m c main_arg6 : S64x32.Idx → EReal) (ix2 a j)
def b2fC : Fin 32 → EReal := fun j => (V m c main_arg7 : S32.Idx → EReal) (ix1 j)
def W1sC : Fin 128 → Fin 64 → EReal := fun k a => (V m c main_arg8 : S128x64.Idx → EReal) (ix2 k a)
def b1sC : Fin 64 → EReal := fun a => (V m c main_arg9 : S64.Idx → EReal) (ix1 a)
def W2sC : Fin 64 → Fin 32 → EReal := fun a j => (V m c main_arg10 : S64x32.Idx → EReal) (ix2 a j)
def b2sC : Fin 32 → EReal := fun j => (V m c main_arg11 : S32.Idx → EReal) (ix1 j)
def WzC : Fin 32 → Fin 16 → EReal := fun j q => (V m c main_arg12 : S96x16.Idx → EReal) (ix2 ⟨j.val, by omega⟩ q)
def WfC : Fin 32 → Fin 16 → EReal := fun j q => (V m c main_arg12 : S96x16.Idx → EReal) (ix2 ⟨32 + j.val, by omega⟩ q)
def WsC : Fin 32 → Fin 16 → EReal := fun j q => (V m c main_arg12 : S96x16.Idx → EReal) (ix2 ⟨64 + j.val, by omega⟩ q)
def bmC : Fin 16 → EReal := fun q => (V m c main_arg13 : S16.Idx → EReal) (ix1 q)

/-! ## What the scratch holds -/

/-- The two supports, as the arrays the first point stores. -/
def SFa : Vec Ideal S10000x64 .bf16 := k0_pay1 (F := Ideal) (V m c main_arg0) (V m c main_arg4)
def SSa : Vec Ideal S10000x64 .bf16 := k0_pay2 (F := Ideal) (V m c main_arg0) (V m c main_arg8)

/-- The per-node summaries of the two branches, and the result. -/
def UFs : Fin 10000 → Fin 16 → EReal := kerU (fadjC m c) (support (xC m c) (W1fC m c)) (b1fC m c) (W2fC m c) (WfC m c)
def USs : Fin 10000 → Fin 16 → EReal := kerU (sadjC m c) (support (xC m c) (W1sC m c)) (b1sC m c) (W2sC m c) (WsC m c)
def OUTs : Fin 10000 → Fin 16 → EReal :=
  kerOut (fadjC m c) (sadjC m c) (zC m c) (UFs m c) (USs m c) (b2fC m c) (b2sC m c) (WzC m c) (WfC m c) (WsC m c) (bmC m c)

theorem OUTs_eq : OUTs m c = kerAll (xC m c) (sadjC m c) (fadjC m c) (zC m c) (W1fC m c) (b1fC m c) (W2fC m c) (b2fC m c)
    (W1sC m c) (b1sC m c) (W2sC m c) (b2sC m c) (WzC m c) (WfC m c) (WsC m c) (bmC m c) := rfl

/-- A summary scratch agrees with the specification on its first `n` rows (of those inside the array). -/
def Agree (n : ℕ) (X : Vec Ideal S10080x16 .bf16) (U : Fin 10000 → Fin 16 → EReal) : Prop :=
  ∀ (r : Fin 10000) (q : Fin 16), r.val < n → X (ix2 (⟨r.val, by omega⟩ : Fin 10080) q) = U r q

/-- The invariant before point `n`: before the first point the scratch holds anything; afterwards the supports
    exactly and the summaries on the rows swept so far. -/
def PhiE : ℕ → sProp 𝕄
  | 0 => Pipeline.ΦA spec0 c
  | n + 1 => iprop(iprop(owns (c : Thread nD τ) scM0 fullShare (SFa m c) ∗ owns (c : Thread nD τ) scM1 fullShare (SSa m c)
      ∗ (∃ X, ⌜Agree (280 * (n + 1)) X (UFs m c)⌝ ∗ owns (c : Thread nD τ) scM2 fullShare X)
      ∗ (∃ X, ⌜Agree (280 * (n + 1)) X (USs m c)⌝ ∗ owns (c : Thread nD τ) scM3 fullShare X)) ∗ (∃ r, prngReg c r))

theorem PhiE_zero : PhiE m c 0 = Pipeline.ΦA spec0 c := rfl
theorem PhiE_succ (n : ℕ) : PhiE m c (n + 1) = iprop(iprop(owns (c : Thread nD τ) scM0 fullShare (SFa m c) ∗ owns (c : Thread nD τ) scM1 fullShare (SSa m c)
      ∗ (∃ X, ⌜Agree (280 * (n + 1)) X (UFs m c)⌝ ∗ owns (c : Thread nD τ) scM2 fullShare X)
      ∗ (∃ X, ⌜Agree (280 * (n + 1)) X (USs m c)⌝ ∗ owns (c : Thread nD τ) scM3 fullShare X)) ∗ (∃ r, prngReg c r)) := rfl
theorem PhiE_pos (n : ℕ) (hn : n ≠ 0) : PhiE m c n = iprop(iprop(owns (c : Thread nD τ) scM0 fullShare (SFa m c) ∗ owns (c : Thread nD τ) scM1 fullShare (SSa m c)
      ∗ (∃ X, ⌜Agree (280 * n) X (UFs m c)⌝ ∗ owns (c : Thread nD τ) scM2 fullShare X)
      ∗ (∃ X, ⌜Agree (280 * n) X (USs m c)⌝ ∗ owns (c : Thread nD τ) scM3 fullShare X)) ∗ (∃ r, prngReg c r)) := by
  cases n with
  | zero => exact absurd rfl hn
  | succ n => rfl

/-! ## The staging buffers after the body -/

/-- The result's staging buffer after a second-sweep point: the specification's rows of the point's block
    (zero on the rows past the array's end, which the write-back does not move). -/
def out14 (t : Fin cfg0.N) : (cfg0.win 14).block.Idx → EReal :=
  fun j => if h : (t.val % 36) * 280 + (j 0).val < 10000 then OUTs m c ⟨(t.val % 36) * 280 + (j 0).val, h⟩ ⟨(j 1).val, (j 1).isLt⟩ else 0

/-- An input whose last block overhangs the array: its block on the rows inside, anything past them. -/
def inClip (w : Fin cfg0.W) (t : Fin cfg0.N) : (cfg0.win w).block.Idx → Elt Ideal (cfg0.win w).elt :=
  (cfg0.win w).fill (cfg0.grid.coords t) (fun _ => Classical.arbitrary _) (iblk m c w t)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => inClip m c 1 t
    | ⟨2, _⟩ => inClip m c 2 t
    | ⟨3, _⟩ => inClip m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 m c t
  Φ t := PhiE m c t.val
  q _ := fullShare
  owed _ := 0

theorem A_eq (w : Fin cfg0.W) : (dats m 0 c).A w = V m c (Pipeline.arrRef spec0 w) := by dsimp only [dats]

theorem after_0 (t : Fin cfg0.N) : (dats m 0 c).after 0 t = iblk m c 0 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = iblk m c 10 t := by dsimp only [dats]
theorem after_11 (t : Fin cfg0.N) : (dats m 0 c).after 11 t = iblk m c 11 t := by dsimp only [dats]
theorem after_12 (t : Fin cfg0.N) : (dats m 0 c).after 12 t = iblk m c 12 t := by dsimp only [dats]
theorem after_13 (t : Fin cfg0.N) : (dats m 0 c).after 13 t = iblk m c 13 t := by dsimp only [dats]
theorem after_1 (t : Fin cfg0.N) : (dats m 0 c).after 1 t = inClip m c 1 t := by dsimp only [dats]
theorem after_2 (t : Fin cfg0.N) : (dats m 0 c).after 2 t = inClip m c 2 t := by dsimp only [dats]
theorem after_3 (t : Fin cfg0.N) : (dats m 0 c).after 3 t = inClip m c 3 t := by dsimp only [dats]
theorem after_14 (t : Fin cfg0.N) : (dats m 0 c).after 14 t = out14 m c t := by dsimp only [dats]

theorem Phi_castSucc (t : Fin cfg0.N) : (dats m 0 c).Φ t.castSucc = PhiE m c t.val := by
  dsimp only [dats]; simp only [Fin.coe_castSucc]
theorem Phi_succ (t : Fin cfg0.N) : (dats m 0 c).Φ t.succ = PhiE m c (t.val + 1) := rfl

/-- Each input whose blocks tile its array is found at its block at every point. -/
theorem before_0 (t : Fin cfg0.N) (d) : (dats m 0 c).before 0 t d = iblk m c 0 t :=
  before0_0_of m (dats m 0 c) (A_eq m c 0) (after_0 m c) t d
theorem before_4 (t : Fin cfg0.N) (d) : (dats m 0 c).before 4 t d = iblk m c 4 t :=
  before0_4_of m (dats m 0 c) (A_eq m c 4) (after_4 m c) t d
theorem before_5 (t : Fin cfg0.N) (d) : (dats m 0 c).before 5 t d = iblk m c 5 t :=
  before0_5_of m (dats m 0 c) (A_eq m c 5) (after_5 m c) t d
theorem before_6 (t : Fin cfg0.N) (d) : (dats m 0 c).before 6 t d = iblk m c 6 t :=
  before0_6_of m (dats m 0 c) (A_eq m c 6) (after_6 m c) t d
theorem before_7 (t : Fin cfg0.N) (d) : (dats m 0 c).before 7 t d = iblk m c 7 t :=
  before0_7_of m (dats m 0 c) (A_eq m c 7) (after_7 m c) t d
theorem before_8 (t : Fin cfg0.N) (d) : (dats m 0 c).before 8 t d = iblk m c 8 t :=
  before0_8_of m (dats m 0 c) (A_eq m c 8) (after_8 m c) t d
theorem before_9 (t : Fin cfg0.N) (d) : (dats m 0 c).before 9 t d = iblk m c 9 t :=
  before0_9_of m (dats m 0 c) (A_eq m c 9) (after_9 m c) t d
theorem before_10 (t : Fin cfg0.N) (d) : (dats m 0 c).before 10 t d = iblk m c 10 t :=
  before0_10_of m (dats m 0 c) (A_eq m c 10) (after_10 m c) t d
theorem before_11 (t : Fin cfg0.N) (d) : (dats m 0 c).before 11 t d = iblk m c 11 t :=
  before0_11_of m (dats m 0 c) (A_eq m c 11) (after_11 m c) t d
theorem before_12 (t : Fin cfg0.N) (d) : (dats m 0 c).before 12 t d = iblk m c 12 t :=
  before0_12_of m (dats m 0 c) (A_eq m c 12) (after_12 m c) t d
theorem before_13 (t : Fin cfg0.N) (d) : (dats m 0 c).before 13 t d = iblk m c 13 t :=
  before0_13_of m (dats m 0 c) (A_eq m c 13) (after_13 m c) t d

end Cert.KernelIdeal.Exact

end
-- ==== Proof.Bridge.lean ====
/-
  The bridge between the two programs' results.

  On inputs whose every entry is the image of a real number (which the precondition gives), the reference's
  arrangement — aggregate, then project — and the kernel's — project, then aggregate — are the same function of the
  inputs: the triple product is associative and the products distribute over the sums, on the reals. The reference's
  result array is therefore the kernel's, and the algebraic claim follows from a run of each program.
-/
import proofs.«148532_g48885317763338_cont_8to1_c_83_23_alg».proof.Defs
import proofs.«148532_g48885317763338_cont_8to1_c_83_23_alg».proof.Proof.Gen.KernelIdeal
import proofs.«148532_g48885317763338_cont_8to1_c_83_23_alg».proof.Proof.Gen.ReferenceIdeal
import proofs.«148532_g48885317763338_cont_8to1_c_83_23_alg».proof.Proof.Gen.Pre_finite_inputs
import proofs.«148532_g48885317763338_cont_8to1_c_83_23_alg».proof.Proof.RefFrame
import proofs.«148532_g48885317763338_cont_8to1_c_83_23_alg».proof.Proof.Law
import proofs.«148532_g48885317763338_cont_8to1_c_83_23_alg».proof.Proof.FinitePre
import proofs.«148532_g48885317763338_cont_8to1_c_83_23_alg».proof.Proof.Data

noncomputable section

namespace Cert.Bridge

open Idealize.ShloMosaic Idealize.ShloMosaic.TcCoe Idealize.SL.Sem Idealize.ShloMosaic.ValueIdx Cert.Mgcn

/-- On arrays of real entries the reference's result, at an index, is the kernel's arrangement of the same inputs. -/
theorem refOutOf_eq_ker (a0 : (⟨Cert.ReferenceIdeal.S10000x128, .f32⟩ : BufTy).Contents (Elt Ideal)) (a1 : (⟨Cert.ReferenceIdeal.S10000x10000, .f32⟩ : BufTy).Contents (Elt Ideal)) (a2 : (⟨Cert.ReferenceIdeal.S10000x10000, .f32⟩ : BufTy).Contents (Elt Ideal)) (a3 : (⟨Cert.ReferenceIdeal.S10000x32, .f32⟩ : BufTy).Contents (Elt Ideal)) (a4 : (⟨Cert.ReferenceIdeal.S128x64, .f32⟩ : BufTy).Contents (Elt Ideal)) (a5 : (⟨Cert.ReferenceIdeal.S64, .f32⟩ : BufTy).Contents (Elt Ideal)) (a6 : (⟨Cert.ReferenceIdeal.S64x32, .f32⟩ : BufTy).Contents (Elt Ideal)) (a7 : (⟨Cert.ReferenceIdeal.S32, .f32⟩ : BufTy).Contents (Elt Ideal)) (a8 : (⟨Cert.ReferenceIdeal.S128x64, .f32⟩ : BufTy).Contents (Elt Ideal)) (a9 : (⟨Cert.ReferenceIdeal.S64, .f32⟩ : BufTy).Contents (Elt Ideal)) (a10 : (⟨Cert.ReferenceIdeal.S64x32, .f32⟩ : BufTy).Contents (Elt Ideal)) (a11 : (⟨Cert.ReferenceIdeal.S32, .f32⟩ : BufTy).Contents (Elt Ideal)) (a12 : (⟨Cert.ReferenceIdeal.S96x16, .f32⟩ : BufTy).Contents (Elt Ideal)) (a13 : (⟨Cert.ReferenceIdeal.S16, .f32⟩ : BufTy).Contents (Elt Ideal))
    (h0 : ∀ i, ∃ r : ℝ, a0 i = (r : EReal)) (h1 : ∀ i, ∃ r : ℝ, a1 i = (r : EReal)) (h2 : ∀ i, ∃ r : ℝ, a2 i = (r : EReal)) (h3 : ∀ i, ∃ r : ℝ, a3 i = (r : EReal)) (h4 : ∀ i, ∃ r : ℝ, a4 i = (r : EReal)) (h5 : ∀ i, ∃ r : ℝ, a5 i = (r : EReal)) (h6 : ∀ i, ∃ r : ℝ, a6 i = (r : EReal)) (h7 : ∀ i, ∃ r : ℝ, a7 i = (r : EReal)) (h8 : ∀ i, ∃ r : ℝ, a8 i = (r : EReal)) (h9 : ∀ i, ∃ r : ℝ, a9 i = (r : EReal)) (h10 : ∀ i, ∃ r : ℝ, a10 i = (r : EReal)) (h11 : ∀ i, ∃ r : ℝ, a11 i = (r : EReal)) (h12 : ∀ i, ∃ r : ℝ, a12 i = (r : EReal)) (h13 : ∀ i, ∃ r : ℝ, a13 i = (r : EReal))
    (idx : Cert.ReferenceIdeal.S10000x16.Idx) :
    Cert.RefValue.refOutOf a0 a1 a2 a3 a4 a5 a6 a7 a8 a9 a10 a11 a12 a13 idx
      = kerAll (fun r k => a0 (ix2 r k)) (fun r k => a1 (ix2 r k)) (fun r k => a2 (ix2 r k)) (fun r j => a3 (ix2 r j))
        (fun k a => a4 (ix2 k a)) (fun a => a5 (ix1 a)) (fun a j => a6 (ix2 a j)) (fun j => a7 (ix1 j))
        (fun k a => a8 (ix2 k a)) (fun a => a9 (ix1 a)) (fun a j => a10 (ix2 a j)) (fun j => a11 (ix1 j))
        (Cert.RefValue.Wz a12) (Cert.RefValue.Wf a12) (Cert.RefValue.Ws a12) (fun c => a13 (ix1 c)) (idx 0) (idx 1) := by
  choose f0 e0 using h0
  choose f1 e1 using h1
  choose f2 e2 using h2
  choose f3 e3 using h3
  choose f4 e4 using h4
  choose f5 e5 using h5
  choose f6 e6 using h6
  choose f7 e7 using h7
  choose f8 e8 using h8
  choose f9 e9 using h9
  choose f10 e10 using h10
  choose f11 e11 using h11
  choose f12 e12 using h12
  choose f13 e13 using h13
  obtain rfl : a0 = fun i => ((f0 i : ℝ) : EReal) := funext e0
  obtain rfl : a1 = fun i => ((f1 i : ℝ) : EReal) := funext e1
  obtain rfl : a2 = fun i => ((f2 i : ℝ) : EReal) := funext e2
  obtain rfl : a3 = fun i => ((f3 i : ℝ) : EReal) := funext e3
  obtain rfl : a4 = fun i => ((f4 i : ℝ) : EReal) := funext e4
  obtain rfl : a5 = fun i => ((f5 i : ℝ) : EReal) := funext e5
  obtain rfl : a6 = fun i => ((f6 i : ℝ) : EReal) := funext e6
  obtain rfl : a7 = fun i => ((f7 i : ℝ) : EReal) := funext e7
  obtain rfl : a8 = fun i => ((f8 i : ℝ) : EReal) := funext e8
  obtain rfl : a9 = fun i => ((f9 i : ℝ) : EReal) := funext e9
  obtain rfl : a10 = fun i => ((f10 i : ℝ) : EReal) := funext e10
  obtain rfl : a11 = fun i => ((f11 i : ℝ) : EReal) := funext e11
  obtain rfl : a12 = fun i => ((f12 i : ℝ) : EReal) := funext e12
  obtain rfl : a13 = fun i => ((f13 i : ℝ) : EReal) := funext e13
  exact (congrFun (congrFun (kerAll_eq_refAll (fun r k => f0 (ix2 r k)) (fun r k => f1 (ix2 r k)) (fun r k => f2 (ix2 r k)) (fun r j => f3 (ix2 r j))
      (fun k a => f4 (ix2 k a)) (fun a => f5 (ix1 a)) (fun a j => f6 (ix2 a j)) (fun j => f7 (ix1 j))
      (fun k a => f8 (ix2 k a)) (fun a => f9 (ix1 a)) (fun a j => f10 (ix2 a j)) (fun j => f11 (ix1 j))
      (fun j c => f12 (ix2 (⟨j.val, by omega⟩ : Fin 96) c)) (fun j c => f12 (ix2 (⟨32 + j.val, by omega⟩ : Fin 96) c))
      (fun j c => f12 (ix2 (⟨64 + j.val, by omega⟩ : Fin 96) c)) (fun c => f13 (ix1 c))) (idx 0)) (idx 1)).symm

/-- The kernel's result buffer as the specification's array. -/
def kerOutBuf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v5) :=
  fun idx => Cert.KernelIdeal.Exact.OUTs m c (idx 0) (idx 1)

/-- **Under the precondition the reference's result array is the kernel's.** -/
theorem bridge (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.RefValue.refOutOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = kerOutBuf m c := by
  obtain ⟨h0, h1, h2, h3, h4, h5, h6, h7, h8, h9, h10, h11, h12, h13⟩ := Cert.FinitePre.real_of_pre _ _ _ _ _ _ _ _ _ _ _ _ _ _ (hpre c)
  funext idx
  rw [refOutOf_eq_ker _ _ _ _ _ _ _ _ _ _ _ _ _ _ h0 h1 h2 h3 h4 h5 h6 h7 h8 h9 h10 h11 h12 h13 idx]
  unfold kerOutBuf
  rw [Cert.KernelIdeal.Exact.OUTs_eq]
  simp only [Cert.KernelIdeal.Exact.xC, Cert.KernelIdeal.Exact.sadjC, Cert.KernelIdeal.Exact.fadjC, Cert.KernelIdeal.Exact.zC,
    Cert.KernelIdeal.Exact.W1fC, Cert.KernelIdeal.Exact.b1fC, Cert.KernelIdeal.Exact.W2fC, Cert.KernelIdeal.Exact.b2fC,
    Cert.KernelIdeal.Exact.W1sC, Cert.KernelIdeal.Exact.b1sC, Cert.KernelIdeal.Exact.W2sC, Cert.KernelIdeal.Exact.b2sC,
    Cert.KernelIdeal.Exact.WzC, Cert.KernelIdeal.Exact.WfC, Cert.KernelIdeal.Exact.WsC, Cert.KernelIdeal.Exact.bmC,
    Cert.KernelIdeal.Gen.V_main_arg0, Cert.KernelIdeal.Gen.V_main_arg1, Cert.KernelIdeal.Gen.V_main_arg2, Cert.KernelIdeal.Gen.V_main_arg3, Cert.KernelIdeal.Gen.V_main_arg4, Cert.KernelIdeal.Gen.V_main_arg5, Cert.KernelIdeal.Gen.V_main_arg6, Cert.KernelIdeal.Gen.V_main_arg7, Cert.KernelIdeal.Gen.V_main_arg8, Cert.KernelIdeal.Gen.V_main_arg9, Cert.KernelIdeal.Gen.V_main_arg10, Cert.KernelIdeal.Gen.V_main_arg11, Cert.KernelIdeal.Gen.V_main_arg12, Cert.KernelIdeal.Gen.V_main_arg13]
  rfl

/-- **The algebraic claim**, from a run of the kernel whose result buffer is the specification's array. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      Cert.Pre_KernelIdeal m →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v5) = kerOutBuf m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))) :
    Cert.algebraic_KernelIdeal_ReferenceIdeal := by
  intro m ρ m' ρ' hpre hagree
  refine ⟨fun c => kerOutBuf m c, hk m ρ hpre, (θ_run Cert.ReferenceIdeal.defs _ _).mono
    (fun _ h c => ⟨(h c).1.trans ?_, (h c).2⟩) (Cert.RefValue.run_spec m' ρ')⟩
  obtain ⟨g0, g1, g2, g3, g4, g5, g6, g7, g8, g9, g10, g11, g12, g13⟩ := hagree c
  rw [g0, g1, g2, g3, g4, g5, g6, g7, g8, g9, g10, g11, g12, g13]
  exact bridge m hpre c

end Cert.Bridge

end
-- ==== Proof.Steps.lean ====
/-
  Index arithmetic of the body's rectangles, and how the swept rows of a summary grow by one block.
-/
import proofs.«148532_g48885317763338_cont_8to1_c_83_23_alg».proof.Proof.Data

set_option maxRecDepth 16384

noncomputable section

namespace Cert.KernelIdeal.Exact

open Cert.KernelIdeal Cert.KernelIdeal.Gen Cert.KernelIdeal.Body Cert.Mgcn
open Idealize.ShloMosaic Idealize.ShloMosaic.ValueIdx

/-- A load of the first 10000 rows of a summary scratch reads the scratch at the same coordinates. -/
theorem ld_R19 (X : Vec Ideal S10080x16 .bf16) (k : Fin 10000) (q : Fin 16) :
    View.ld X R19 (ix2 k q) = X (ix2 (⟨k.val, by omega⟩ : Fin 10080) q) := by
  show X (R19.idx (ix2 k q)) = _
  congr 1; funext a; apply Fin.ext
  match a with
  | ⟨0, _⟩ => show 0 + 1 * k.val = k.val; omega
  | ⟨1, _⟩ => show 0 + 1 * q.val = q.val; omega

/-- A load of 32 rows of the head's weights from row `o` reads the weights at row o + j. -/
theorem ld_Rw0 (W : Vec Ideal S96x16 .f32) (j : Fin 32) (q : Fin 16) :
    View.ld W Rw0 (ix2 j q) = W (ix2 (⟨j.val, by omega⟩ : Fin 96) q) := by
  show W (Rw0.idx (ix2 j q)) = _
  congr 1; funext a; apply Fin.ext
  match a with
  | ⟨0, _⟩ => show 0 + 1 * j.val = j.val; omega
  | ⟨1, _⟩ => show 0 + 1 * q.val = q.val; omega
theorem ld_Rw32 (W : Vec Ideal S96x16 .f32) (j : Fin 32) (q : Fin 16) :
    View.ld W Rw32 (ix2 j q) = W (ix2 (⟨32 + j.val, by omega⟩ : Fin 96) q) := by
  show W (Rw32.idx (ix2 j q)) = _
  congr 1; funext a; apply Fin.ext
  match a with
  | ⟨0, _⟩ => show 32 + 1 * j.val = 32 + j.val; omega
  | ⟨1, _⟩ => show 0 + 1 * q.val = q.val; omega
theorem ld_Rw64 (W : Vec Ideal S96x16 .f32) (j : Fin 32) (q : Fin 16) :
    View.ld W Rw64 (ix2 j q) = W (ix2 (⟨64 + j.val, by omega⟩ : Fin 96) q) := by
  show W (Rw64.idx (ix2 j q)) = _
  congr 1; funext a; apply Fin.ext
  match a with
  | ⟨0, _⟩ => show 64 + 1 * j.val = 64 + j.val; omega
  | ⟨1, _⟩ => show 0 + 1 * q.val = q.val; omega

/-- The block of rows a first-sweep point writes starts at row 280·t. -/
theorem Rblk_emb (t : Fin cfg0.N) (ht : t.val < 36) (h : k0_cond2 (grid0.coords t) = 1#1) (p : Fin 280) (q : Fin 16)
    (hr : 280 * t.val + p.val < 10080) :
    (Rblk (grid0.coords t) h).emb (ix2 p q) = ix2 (⟨280 * t.val + p.val, hr⟩ : Fin 10080) q := by
  funext a; apply Fin.ext
  match a with
  | ⟨0, _⟩ =>
    show k0_off1 (grid0.coords t) 0 + 1 * p.val = 280 * t.val + p.val
    rw [off1_0 t, Nat.mod_eq_of_lt ht]; omega
  | ⟨1, _⟩ =>
    show k0_off1 (grid0.coords t) 1 + 1 * q.val = q.val
    rw [off1_1 t]; omega

theorem Rblk_mem (t : Fin cfg0.N) (ht : t.val < 36) (h : k0_cond2 (grid0.coords t) = 1#1) (z : S10080x16.Idx) :
    z ∈ (Rblk (grid0.coords t) h).set ↔ 280 * t.val ≤ (z 0).val ∧ (z 0).val < 280 * t.val + 280 := by
  rw [Rect.mem_set_unit]
  constructor
  · intro hz
    have h0 := hz 0
    rw [off1_0 t, Nat.mod_eq_of_lt ht] at h0
    exact ⟨h0.1, h0.2⟩
  · intro hz a
    match a with
    | ⟨0, _⟩ =>
      show k0_off1 (grid0.coords t) 0 ≤ (z 0).val ∧ (z 0).val < k0_off1 (grid0.coords t) 0 + 280
      rw [off1_0 t, Nat.mod_eq_of_lt ht]; exact hz
    | ⟨1, _⟩ =>
      show k0_off1 (grid0.coords t) 1 ≤ (z 1).val ∧ (z 1).val < k0_off1 (grid0.coords t) 1 + 16
      rw [off1_1 t]; exact ⟨Nat.zero_le _, by have h16 : (z 1).val < 16 := (z 1).isLt; omega⟩

/-- One more block swept: if the scratch agreed on the rows below 280·t and the point writes, on the rows of its
    block inside the array, the specification's values, it agrees on the rows below 280·(t+1). -/
theorem agree_step (t : Fin cfg0.N) (ht : t.val < 36) (h : k0_cond2 (grid0.coords t) = 1#1)
    (Xold X : Vec Ideal S10080x16 .bf16) (U : Fin 10000 → Fin 16 → EReal) (w : Vec Ideal S280x16 .bf16)
    (hold : Agree (280 * t.val) Xold U) (hL : LeftBlk X Xold (Rblk (grid0.coords t) h) w)
    (hw : ∀ (p : Fin 280) (q : Fin 16) (hr : 280 * t.val + p.val < 10000), w (ix2 p q) = U ⟨280 * t.val + p.val, hr⟩ q) :
    Agree (280 * (t.val + 1)) X U := by
  intro r q hr
  by_cases hlt : r.val < 280 * t.val
  · rw [hL.2 _ (fun hm => by
      have := ((Rblk_mem t ht h _).mp hm).1
      exact absurd hlt (Nat.not_lt.mpr this))]
    exact hold r q hlt
  · have hp : r.val - 280 * t.val < 280 := by omega
    have hrr : 280 * t.val + (r.val - 280 * t.val) < 10000 := by have := r.isLt; omega
    have e := hL.1 (ix2 (⟨r.val - 280 * t.val, hp⟩ : Fin 280) q)
    rw [Rblk_emb t ht h ⟨r.val - 280 * t.val, hp⟩ q (by omega)] at e
    have e2 := hw ⟨r.val - 280 * t.val, hp⟩ q hrr
    have hidx : (⟨280 * t.val + (r.val - 280 * t.val), by omega⟩ : Fin 10080) = ⟨r.val, by have := r.isLt; omega⟩ :=
      Fin.ext (by show 280 * t.val + (r.val - 280 * t.val) = r.val; omega)
    have hr2 : (⟨280 * t.val + (r.val - 280 * t.val), hrr⟩ : Fin 10000) = r := Fin.ext (by show 280 * t.val + (r.val - 280 * t.val) = r.val; omega)
    rw [hidx] at e
    rw [e, e2, hr2]

/-- Once every row inside the array is swept, it stays so. -/
theorem agree_full {n n' : ℕ} (X : Vec Ideal S10080x16 .bf16) (U : Fin 10000 → Fin 16 → EReal) (h : Agree n X U)
    (hn : 10000 ≤ n) : Agree n' X U := fun r q _ => h r q (by have := r.isLt; omega)

end Cert.KernelIdeal.Exact

end
-- ==== Proof.PayValue.lean ====
/-
  The kernel body's arithmetic, read at an index on the extended reals.

  Each value the body stores is a composition of matrix products into a zero accumulator, format changes, reshapes
  to the same shape, broadcasts of a row down the rows, additions and a maximum with zero.  At the ideal values a
  format change and a same-shape reshape are the identity, a matrix product into zero is the plain sum over the
  contracted coordinate, and a [1, b] row broadcast down the rows reads the row at column c.  Read at output
  position (p, c), every value below depends only on row p of its [280, ·] operands.
-/
import proofs.«148532_g48885317763338_cont_8to1_c_83_23_alg».proof.Proof.Gen.KernelIdeal.Skeleton
import proofs.«148532_g48885317763338_cont_8to1_c_83_23_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx
open Cert.Lib.PlainDot
open scoped BigOperators

section Generic
variable {R K C : Nat}

/-- The product of an [R, K] array and a [K, C] array at position (r, c): the sum over k of left (r, k) times
    right (k, c). -/
theorem mm_ix2 (x : (⟨2, ![R, K]⟩ : Shape).Idx → EReal) (w : (⟨2, ![K, C]⟩ : Shape).Idx → EReal) (r : Fin R) (c : Fin C) :
    mm x w (ix2 r c) = ∑ k : Fin K, x (ix2 r k) * w (ix2 k c) := by
  unfold mm
  refine Finset.sum_congr rfl fun k _ => ?_
  have el : rowIdx (K := K) (ix2 r c) k = ix2 r k :=
    funext fun a => by match a with | ⟨0, _⟩ => rfl | ⟨1, _⟩ => rfl
  have er : colIdx (R := R) (ix2 r c) k = ix2 k c :=
    funext fun a => by match a with | ⟨0, _⟩ => rfl | ⟨1, _⟩ => rfl
  rw [el, er]

/-- A matrix product into the zero accumulator at position (r, c). -/
theorem matmul_zero_ix2 {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (r : Fin R) (c : Fin C) :
    matmul d prec x w (constant (F := Ideal) ⟨2, ![R, C]⟩ .f32 0x00000000#32) (ix2 r c)
      = ∑ k : Fin K, (x (ix2 r k) : EReal) * (w (ix2 k c) : EReal) :=
  (matmul_zero_apply d hd prec x w (ix2 r c)).trans (mm_ix2 x w r c)

end Generic

/-- The first projected feature block at (r, a): row r of the features times column a of the first weight. -/
theorem pay1_apply (v11 : Vec Ideal S10000x128 .f32) (v12 : Vec Ideal S128x64 .f32) (r : Fin 10000) (a : Fin 64) :
    k0_pay1 (F := Ideal) v11 v12 (ix2 r a) = ∑ k : Fin 128, v11 (ix2 r k) * v12 (ix2 k a) := by
  unfold k0_pay1
  show shapeCast S10000x64 _ shapeCasts_S10000x64_S10000x64 (ix2 r a) = _
  rw [shapeCast_self]
  exact matmul_zero_ix2 (φ₁ := .f32) (φ₂ := .f32) dot_S10000x128_S128x64_S10000x64_1_0_0_1_n_n rfl none v11 v12 r a

/-- The second projected feature block at (r, a). -/
theorem pay2_apply (v11 : Vec Ideal S10000x128 .f32) (v18 : Vec Ideal S128x64 .f32) (r : Fin 10000) (a : Fin 64) :
    k0_pay2 (F := Ideal) v11 v18 (ix2 r a) = ∑ k : Fin 128, v11 (ix2 r k) * v18 (ix2 k a) := by
  unfold k0_pay2
  show shapeCast S10000x64 _ shapeCasts_S10000x64_S10000x64 (ix2 r a) = _
  rw [shapeCast_self]
  exact matmul_zero_ix2 (φ₁ := .f32) (φ₂ := .f32) dot_S10000x128_S128x64_S10000x64_1_0_0_1_n_n rfl none v11 v18 r a

/-- The second hidden block times the third weight slice at (p, c). -/
theorem pay3_apply (v34 : FVec Ideal S280x32 .f32) (v43 : Vec Ideal S32x16 .f32) (p : Fin 280) (c : Fin 16) :
    k0_pay3 (F := Ideal) v34 v43 (ix2 p c) = ∑ j : Fin 32, v34 (ix2 p j) * v43 (ix2 j c) := by
  unfold k0_pay3
  show shapeCast S280x16 _ shapeCasts_S280x16_S280x16 (ix2 p c) = _
  rw [shapeCast_self]
  exact matmul_zero_ix2 (φ₁ := .f32) (φ₂ := .f32) dot_S280x32_S32x16_S280x16_1_0_0_1_n_n rfl none v34 v43 p c

/-- The hidden layer max(x W + b, 0) at (p, a), the [1, 64] row b broadcast down the rows: it reads row p of x only. -/
theorem hidden_apply (v : FVec Ideal S280x10000 .f32) (w : FVec Ideal S10000x64 .bf16) (b : FVec Ideal S1x64 .f32)
    (p : Fin 280) (a : Fin 64) :
    maximumf
        (addf
          (matmul dot_S280x10000_S10000x64_S280x64_1_0_0_1_n_n none (truncf .bf16 v bitsLt_bf16_f32) w
            (constant (F := Ideal) S280x64 .f32 0x00000000#32))
          (broadcastTo S280x64 (shapeCast S1x64 b shapeCasts_S1x64_S1x64) broadcasts_S1x64_S280x64))
        (broadcast S280x64 (Scalar.ofBits (F := Ideal) .f32 0x00000000#32)) (ix2 p a)
      = max ((∑ k : Fin 10000, (v (ix2 p k) : EReal) * (w (ix2 k a) : EReal)) + b (ix2 (0 : Fin 1) a)) 0 :=
  congrArg₂ max
    (congrArg₂ (· + ·)
      (matmul_zero_ix2 (φ₁ := .bf16) (φ₂ := .bf16) dot_S280x10000_S10000x64_S280x64_1_0_0_1_n_n rfl none
        (truncf .bf16 v bitsLt_bf16_f32) w p a)
      ((broadcastTo_1b_ab_apply _ broadcasts_S1x64_S280x64 p a).trans
        (congrFun (shapeCast_self b shapeCasts_S1x64_S1x64) _)))
    Ideal.ofBits_zero_f32

/-- The second hidden block at (p, j): the hidden layer of the second adjacency's rows times the second middle
    weight. -/
theorem pay5_apply (v21 : Vec Ideal S280x10000 .f32) (v23 : Vec Ideal S10000x64 .bf16) (v25 : Vec Ideal S1x64 .f32)
    (v33 : Vec Ideal S64x32 .f32) (p : Fin 280) (j : Fin 32) :
    k0_pay5 (F := Ideal) v21 v23 v25 v33 (ix2 p j)
      = ∑ a : Fin 64, max ((∑ k : Fin 10000, v21 (ix2 p k) * v23 (ix2 k a)) + v25 (ix2 0 a)) 0 * v33 (ix2 a j) := by
  unfold k0_pay5
  refine (matmul_zero_ix2 (φ₁ := .f32) (φ₂ := .f32) dot_S280x64_S64x32_S280x32_1_0_0_1_n_n rfl none _ v33 p j).trans ?_
  refine Finset.sum_congr rfl fun a _ => ?_
  exact congrArg (· * v33 (ix2 a j)) (hidden_apply v21 v23 v25 p a)

/-- The first hidden block times the first middle weight, at (p, j). -/
theorem mid1_apply (v11 : FVec Ideal S280x10000 .f32) (v13 : FVec Ideal S10000x64 .bf16) (v15 : FVec Ideal S1x64 .f32)
    (v31 : FVec Ideal S64x32 .f32) (p : Fin 280) (j : Fin 32) :
    matmul dot_S280x64_S64x32_S280x32_1_0_0_1_n_n none
        (maximumf
          (addf
            (matmul dot_S280x10000_S10000x64_S280x64_1_0_0_1_n_n none (truncf .bf16 v11 bitsLt_bf16_f32) v13
              (constant (F := Ideal) S280x64 .f32 0x00000000#32))
            (broadcastTo S280x64 (shapeCast S1x64 v15 shapeCasts_S1x64_S1x64) broadcasts_S1x64_S280x64))
          (broadcast S280x64 (Scalar.ofBits (F := Ideal) .f32 0x00000000#32)))
        v31 (constant (F := Ideal) S280x32 .f32 0x00000000#32) (ix2 p j)
      = ∑ a : Fin 64, max ((∑ k : Fin 10000, (v11 (ix2 p k) : EReal) * (v13 (ix2 k a) : EReal)) + v15 (ix2 (0 : Fin 1) a)) 0
          * v31 (ix2 a j) := by
  refine (matmul_zero_ix2 (φ₁ := .f32) (φ₂ := .f32) dot_S280x64_S64x32_S280x32_1_0_0_1_n_n rfl none _ v31 p j).trans ?_
  refine Finset.sum_congr rfl fun a _ => ?_
  exact congrArg (· * v31 (ix2 a j)) (hidden_apply v11 v13 v15 p a)

/-- The first output's stored block at (p, c): the first hidden block through both following weights. -/
theorem pay6_apply (v11 : Vec Ideal S280x10000 .f32) (v13 : Vec Ideal S10000x64 .bf16) (v15 : Vec Ideal S1x64 .f32)
    (v31 : Vec Ideal S64x32 .f32) (v35 : Vec Ideal S32x16 .f32) (p : Fin 280) (c : Fin 16) :
    k0_pay6 (F := Ideal) v11 v13 v15 v31 v35 (ix2 p c)
      = ∑ j : Fin 32, (∑ a : Fin 64, max ((∑ k : Fin 10000, v11 (ix2 p k) * v13 (ix2 k a)) + v15 (ix2 0 a)) 0
          * v31 (ix2 a j)) * v35 (ix2 j c) := by
  unfold k0_pay6
  show shapeCast S280x16 _ shapeCasts_S280x16_S280x16 (ix2 p c) = _
  rw [shapeCast_self]
  refine (matmul_zero_ix2 (φ₁ := .f32) (φ₂ := .f32) dot_S280x32_S32x16_S280x16_1_0_0_1_n_n rfl none _ v35 p c).trans ?_
  refine Finset.sum_congr rfl fun j _ => ?_
  exact congrArg (· * v35 (ix2 j c)) (mid1_apply v11 v13 v15 v31 p j)

/-- The second output's stored block at (p, c): both aggregated sums, the skip term, the two bias rows pushed
    through their weight slices, and the output bias row, the rows broadcast down the rows. -/
theorem pay4_apply (v11 : Vec Ideal S280x10000 .f32) (v13 : Vec Ideal S10000x16 .bf16) (v15 : Vec Ideal S280x10000 .f32)
    (v17 : Vec Ideal S10000x16 .bf16) (v20 : Vec Ideal S280x32 .f32) (v21 : Vec Ideal S32x16 .f32)
    (v24 : Vec Ideal S1x32 .f32) (v26 : Vec Ideal S32x16 .f32) (v28 : Vec Ideal S1x32 .f32) (v30 : Vec Ideal S32x16 .f32)
    (v35 : Vec Ideal S1x16 .f32) (p : Fin 280) (c : Fin 16) :
    k0_pay4 (F := Ideal) v11 v13 v15 v17 v20 v21 v24 v26 v28 v30 v35 (ix2 p c)
      = ((((∑ k : Fin 10000, v11 (ix2 p k) * v13 (ix2 k c)) + (∑ k : Fin 10000, v15 (ix2 p k) * v17 (ix2 k c)))
            + ∑ j : Fin 32, v20 (ix2 p j) * v21 (ix2 j c))
          + ((∑ j : Fin 32, v24 (ix2 0 j) * v26 (ix2 j c)) + (∑ j : Fin 32, v28 (ix2 0 j) * v30 (ix2 j c))))
        + v35 (ix2 0 c) := by
  unfold k0_pay4
  simp only [addf_apply, shapeCast_self]
  refine congrArg₂ (· + ·) (congrArg₂ (· + ·) (congrArg₂ (· + ·) (congrArg₂ (· + ·) ?_ ?_) ?_) ?_) ?_
  · exact matmul_zero_ix2 (φ₁ := .bf16) (φ₂ := .bf16) dot_S280x10000_S10000x16_S280x16_1_0_0_1_n_n rfl none
      (truncf .bf16 (φ := .f32) v11 bitsLt_bf16_f32) v13 p c
  · exact matmul_zero_ix2 (φ₁ := .bf16) (φ₂ := .bf16) dot_S280x10000_S10000x16_S280x16_1_0_0_1_n_n rfl none
      (truncf .bf16 (φ := .f32) v15 bitsLt_bf16_f32) v17 p c
  · exact matmul_zero_ix2 (φ₁ := .f32) (φ₂ := .f32) dot_S280x32_S32x16_S280x16_1_0_0_1_n_n rfl none v20 v21 p c
  · refine (broadcastTo_1b_ab_apply _ broadcasts_S1x16_S280x16 p c).trans ?_
    exact congrArg₂ (· + ·)
      (matmul_zero_ix2 (φ₁ := .f32) (φ₂ := .f32) dot_S1x32_S32x16_S1x16_1_0_0_1_n_n rfl none v24 v26 (0 : Fin 1) c)
      (matmul_zero_ix2 (φ₁ := .f32) (φ₂ := .f32) dot_S1x32_S32x16_S1x16_1_0_0_1_n_n rfl none v28 v30 (0 : Fin 1) c)
  · exact broadcastTo_1b_ab_apply v35 broadcasts_S1x16_S280x16 p c

end Cert.KernelIdeal.PayValue

end
-- ==== Proof.Values.lean ====
/-
  The body's arithmetic against the specification, one row at a time: when the rows a payload reads are the
  rows of the inputs, its value at (p, q) is the specification's at the row p stands for.  A product of a block
  with a matrix reads, in its row p, only the block's row p.
-/
import proofs.«148532_g48885317763338_cont_8to1_c_83_23_alg».proof.Proof.PayValue
import proofs.«148532_g48885317763338_cont_8to1_c_83_23_alg».proof.Proof.Spec

noncomputable section

namespace Cert.KernelIdeal.Values

open Cert.KernelIdeal Cert.KernelIdeal.Gen Cert.KernelIdeal.PayValue Cert.Mgcn
open Idealize.ShloMosaic Idealize.ShloMosaic.ValueIdx
open scoped BigOperators

theorem pay1_eq_support (v11 : Vec Ideal S10000x128 .f32) (v12 : Vec Ideal S128x64 .f32)
    (x : Fin 10000 → Fin 128 → EReal) (W1 : Fin 128 → Fin 64 → EReal)
    (hx : ∀ r k, v11 (ix2 r k) = x r k) (hW : ∀ k a, v12 (ix2 k a) = W1 k a) (r : Fin 10000) (a : Fin 64) :
    k0_pay1 (F := Ideal) v11 v12 (ix2 r a) = support x W1 r a := by
  rw [pay1_apply]; simp only [Mgcn.support, hx, hW]

theorem pay2_eq_support (v11 : Vec Ideal S10000x128 .f32) (v18 : Vec Ideal S128x64 .f32)
    (x : Fin 10000 → Fin 128 → EReal) (W1 : Fin 128 → Fin 64 → EReal)
    (hx : ∀ r k, v11 (ix2 r k) = x r k) (hW : ∀ k a, v18 (ix2 k a) = W1 k a) (r : Fin 10000) (a : Fin 64) :
    k0_pay2 (F := Ideal) v11 v18 (ix2 r a) = support x W1 r a := by
  rw [pay2_apply]; simp only [Mgcn.support, hx, hW]

/-- One row of a branch's summary, first branch's spelling. -/
theorem pay6_eq_kerU (v11 : Vec Ideal S280x10000 .f32) (v13 : Vec Ideal S10000x64 .bf16) (v15 : Vec Ideal S1x64 .f32)
    (v31 : Vec Ideal S64x32 .f32) (v35 : Vec Ideal S32x16 .f32)
    (A : Fin 10000 → Fin 10000 → EReal) (S : Fin 10000 → Fin 64 → EReal) (b1 : Fin 64 → EReal)
    (W2 : Fin 64 → Fin 32 → EReal) (Wp : Fin 32 → Fin 16 → EReal) (p : Fin 280) (r : Fin 10000) (q : Fin 16)
    (hA : ∀ k, v11 (ix2 p k) = A r k) (hS : ∀ k a, v13 (ix2 k a) = S k a) (hb : ∀ a, v15 (ix2 0 a) = b1 a)
    (hW : ∀ a j, v31 (ix2 a j) = W2 a j) (hP : ∀ j q, v35 (ix2 j q) = Wp j q) :
    k0_pay6 (F := Ideal) v11 v13 v15 v31 v35 (ix2 p q) = kerU A S b1 W2 Wp r q := by
  rw [pay6_apply]; simp only [Mgcn.kerU, Mgcn.proj, Mgcn.hidden, hA, hS, hb, hW, hP]

/-- One row of a branch's summary, second branch's spelling. -/
theorem pay35_eq_kerU (v21 : Vec Ideal S280x10000 .f32) (v23 : Vec Ideal S10000x64 .bf16) (v25 : Vec Ideal S1x64 .f32)
    (v33 : Vec Ideal S64x32 .f32) (v43 : Vec Ideal S32x16 .f32)
    (A : Fin 10000 → Fin 10000 → EReal) (S : Fin 10000 → Fin 64 → EReal) (b1 : Fin 64 → EReal)
    (W2 : Fin 64 → Fin 32 → EReal) (Wp : Fin 32 → Fin 16 → EReal) (p : Fin 280) (r : Fin 10000) (q : Fin 16)
    (hA : ∀ k, v21 (ix2 p k) = A r k) (hS : ∀ k a, v23 (ix2 k a) = S k a) (hb : ∀ a, v25 (ix2 0 a) = b1 a)
    (hW : ∀ a j, v33 (ix2 a j) = W2 a j) (hP : ∀ j q, v43 (ix2 j q) = Wp j q) :
    k0_pay3 (F := Ideal) (k0_pay5 (F := Ideal) v21 v23 v25 v33) v43 (ix2 p q) = kerU A S b1 W2 Wp r q := by
  rw [pay3_apply]; simp only [pay5_apply, Mgcn.kerU, Mgcn.proj, Mgcn.hidden, hA, hS, hb, hW, hP]

/-- One row of the result. -/
theorem pay4_eq_kerOut (v11 : Vec Ideal S280x10000 .f32) (v13 : Vec Ideal S10000x16 .bf16) (v15 : Vec Ideal S280x10000 .f32)
    (v17 : Vec Ideal S10000x16 .bf16) (v20 : Vec Ideal S280x32 .f32) (v21 : Vec Ideal S32x16 .f32) (v24 : Vec Ideal S1x32 .f32)
    (v26 : Vec Ideal S32x16 .f32) (v28 : Vec Ideal S1x32 .f32) (v30 : Vec Ideal S32x16 .f32) (v35 : Vec Ideal S1x16 .f32)
    (fadj sadj : Fin 10000 → Fin 10000 → EReal) (z : Fin 10000 → Fin 32 → EReal) (Uf Us : Fin 10000 → Fin 16 → EReal)
    (b2f b2s : Fin 32 → EReal) (Wz Wf Ws : Fin 32 → Fin 16 → EReal) (bm : Fin 16 → EReal)
    (p : Fin 280) (r : Fin 10000) (q : Fin 16)
    (h11 : ∀ k, v11 (ix2 p k) = fadj r k) (h13 : ∀ k q, v13 (ix2 k q) = Uf k q) (h15 : ∀ k, v15 (ix2 p k) = sadj r k)
    (h17 : ∀ k q, v17 (ix2 k q) = Us k q) (h20 : ∀ j, v20 (ix2 p j) = z r j) (h21 : ∀ j q, v21 (ix2 j q) = Wz j q)
    (h24 : ∀ j, v24 (ix2 0 j) = b2f j) (h26 : ∀ j q, v26 (ix2 j q) = Wf j q) (h28 : ∀ j, v28 (ix2 0 j) = b2s j)
    (h30 : ∀ j q, v30 (ix2 j q) = Ws j q) (h35 : ∀ q, v35 (ix2 0 q) = bm q) :
    k0_pay4 (F := Ideal) v11 v13 v15 v17 v20 v21 v24 v26 v28 v30 v35 (ix2 p q)
      = kerOut fadj sadj z Uf Us b2f b2s Wz Wf Ws bm r q := by
  rw [pay4_apply]; simp only [Mgcn.kerOut, h11, h13, h15, h17, h20, h21, h24, h26, h28, h30, h35]

end Cert.KernelIdeal.Values

end
-- ==== Proof.Blocks.lean ====
/-
  The moving windows of the kernel, read as rows of their arrays.

  Windows 1, 2, 3 and 14 move blocks of 280 rows over arrays of 10000 rows: block I holds rows
  280·I … 280·I + 279, and the last one, I = 35, reaches 80 rows past the array's end, so its transfer is
  cut to the 200 rows inside. For each window: the sizes of what a transfer moves (min 280 (10000 − 280·I)
  rows, every column), which block rows it moves (those with 280·I + row < 10000), that an element of the
  moved part read through the block is the array's element at row 280·I + row and the same column, and, for
  the result window, that the blocks written back in the second sweep cover the array (row r is in the
  block of point 36 + r / 280).
-/
import proofs.«148532_g48885317763338_cont_8to1_c_83_23_alg».proof.Proof.Conds
import proofs.«148532_g48885317763338_cont_8to1_c_83_23_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Body
open Idealize.ShloMosaic Idealize.ShloMosaic.TcCoe
open Idealize.ShloMosaic.Pipeline (Dat Cfg Window)

variable {Val : EltTy → Type}

/-- A coordinate of an index of the moved part is below the cut size on its axis. -/
theorem idx_lt_xsize {sig : RefSig} {G : Pipeline.Grid} (w : Window sig G) (i : G.Coords) (y : (w.xblock i).Idx) (a : Fin w.shape.rank) :
    (y a).val < w.xsize i a := (y a).isLt

/-! ## Window 1 -/

/-- The block index on the row axis starts a block inside the array. -/
theorem start1 (t : Fin cfg0.N) : (cfg0.win 1).index t 0 * 280 < 10000 := by
  have h := (index1 t).1
  have ht : t.val < 72 := t.isLt.trans_eq N72
  rw [h]
  first | omega | (split_ifs <;> omega)

/-- The rows a transfer moves: the block's 280 cut at the array's end; every column is moved. -/
theorem xsize1 : ∀ t : Fin cfg0.N, (cfg0.win 1).xsize (cfg0.grid.coords t) 0 = min 280 (10000 - (cfg0.win 1).index t 0 * 280)
    ∧ (cfg0.win 1).xsize (cfg0.grid.coords t) 1 = 10000 :=
  (by decide +kernel : ∀ t : Fin grid0.N, win0_1.xsize (grid0.coords t) 0 = min 280 (10000 - win0_1.index t 0 * 280)
    ∧ win0_1.xsize (grid0.coords t) 1 = 10000)
theorem xsize1_0 (t : Fin cfg0.N) : (cfg0.win 1).xsize (cfg0.grid.coords t) 0 = min 280 (10000 - (cfg0.win 1).index t 0 * 280) := (xsize1 t).1
theorem xsize1_1 (t : Fin cfg0.N) : (cfg0.win 1).xsize (cfg0.grid.coords t) 1 = 10000 := (xsize1 t).2

/-- An index of the moved part has the same coordinates in the block. -/
theorem xinj1_val (t : Fin cfg0.N) (y : ((cfg0.win 1).xblock (cfg0.grid.coords t)).Idx) (a : Fin 2) :
    ((cfg0.win 1).xinj (cfg0.grid.coords t) y a).val = (y a).val := rfl

/-- The block rows a transfer moves are those that fall inside the array. -/
theorem moved1_iff (t : Fin cfg0.N) (j : (cfg0.win 1).block.Idx) :
    (cfg0.win 1).moved (cfg0.grid.coords t) j = true ↔ (cfg0.win 1).index t 0 * 280 + (j 0).val < 10000 := by
  rw [Window.moved_iff]
  have hj0 : (j 0).val < 280 := (j 0).isLt
  have hs := start1 t
  constructor
  · intro h
    have h0 : (j 0).val < (cfg0.win 1).xsize (cfg0.grid.coords t) 0 := h 0
    rw [xsize1_0] at h0; omega
  · intro h a
    match a with
    | ⟨0, _⟩ => show (j 0).val < (cfg0.win 1).xsize (cfg0.grid.coords t) 0; rw [xsize1_0]; omega
    | ⟨1, _⟩ => show (j 1).val < (cfg0.win 1).xsize (cfg0.grid.coords t) 1; rw [xsize1_1]; exact (j 1).isLt

/-- A row of the moved part is a row of the array. -/
theorem row_lt1 (t : Fin cfg0.N) (y : ((cfg0.win 1).xblock (cfg0.grid.coords t)).Idx) :
    (cfg0.win 1).index t 0 * 280 + (y 0).val < 10000 :=
  Nat.lt_of_lt_of_le (Nat.add_lt_add_left (y 0).isLt _) (Pipeline.Clip.inb ((cfg0.win 1).hclip (cfg0.grid.coords t) 0))

/-- A row of the moved part is below the cut size. -/
theorem row_lt_xsize1 (t : Fin cfg0.N) (y : ((cfg0.win 1).xblock (cfg0.grid.coords t)).Idx) :
    (y 0).val < min 280 (10000 - (cfg0.win 1).index t 0 * 280) :=
  lt_of_lt_of_eq (idx_lt_xsize (cfg0.win 1) _ y 0) (xsize1_0 t)

/-- A column of the moved part is a column of the array. -/
theorem col_lt1 (t : Fin cfg0.N) (y : ((cfg0.win 1).xblock (cfg0.grid.coords t)).Idx) : (y 1).val < 10000 :=
  lt_of_lt_of_eq (idx_lt_xsize (cfg0.win 1) _ y 1) (xsize1_1 t)

/-- THE BLOCK READ: the moved part at (row, column) is the array at (280·I + row, column). -/
theorem read1 (A : S10000x10000.Idx → Val .f32) (t : Fin cfg0.N) (y : ((cfg0.win 1).xblock (cfg0.grid.coords t)).Idx)
    (h0 : (cfg0.win 1).index t 0 * 280 + (y 0).val < 10000) (h1 : (y 1).val < 10000) :
    ((cfg0.win 1).blk t).view.read Val A y = A (ValueIdx.ix2 ⟨(cfg0.win 1).index t 0 * 280 + (y 0).val, h0⟩ ⟨(y 1).val, h1⟩) := by
  show A (((cfg0.win 1).blk t).view.emb y) = _
  congr 1
  funext a
  apply Fin.ext
  match a with
  | ⟨0, _⟩ =>
    show win0_1.index t (0 : Fin 2) * 280 + 1 * (y 0).val = win0_1.index t (0 : Fin 2) * 280 + (y 0).val; omega
  | ⟨1, _⟩ =>
    show win0_1.index t (1 : Fin 2) * 10000 + 1 * (y 1).val = (y 1).val
    rw [show win0_1.index t (1 : Fin 2) = 0 from (index1 t).2]; omega

/-- The same at any name I of the block index. -/
theorem read1_at (A : S10000x10000.Idx → Val .f32) (t : Fin cfg0.N) (y : ((cfg0.win 1).xblock (cfg0.grid.coords t)).Idx)
    (I : Nat) (hI : (cfg0.win 1).index t 0 = I) (h0 : I * 280 + (y 0).val < 10000) (h1 : (y 1).val < 10000) :
    ((cfg0.win 1).blk t).view.read Val A y = A (ValueIdx.ix2 ⟨I * 280 + (y 0).val, h0⟩ ⟨(y 1).val, h1⟩) := by
  subst hI; exact read1 A t y h0 h1

/-- The same with the block index in closed form. -/
theorem read1_closed (A : S10000x10000.Idx → Val .f32) (t : Fin cfg0.N) (y : ((cfg0.win 1).xblock (cfg0.grid.coords t)).Idx)
    (h0 : t.val % 36 * 280 + (y 0).val < 10000) (h1 : (y 1).val < 10000) :
    ((cfg0.win 1).blk t).view.read Val A y = A (ValueIdx.ix2 ⟨t.val % 36 * 280 + (y 0).val, h0⟩ ⟨(y 1).val, h1⟩) :=
  read1_at A t y _ (index1 t).1 h0 h1

/-! ## Window 2 -/

/-- The block index on the row axis starts a block inside the array. -/
theorem start2 (t : Fin cfg0.N) : (cfg0.win 2).index t 0 * 280 < 10000 := by
  have h := (index2 t).1
  have ht : t.val < 72 := t.isLt.trans_eq N72
  rw [h]
  first | omega | (split_ifs <;> omega)

/-- The rows a transfer moves: the block's 280 cut at the array's end; every column is moved. -/
theorem xsize2 : ∀ t : Fin cfg0.N, (cfg0.win 2).xsize (cfg0.grid.coords t) 0 = min 280 (10000 - (cfg0.win 2).index t 0 * 280)
    ∧ (cfg0.win 2).xsize (cfg0.grid.coords t) 1 = 10000 :=
  (by decide +kernel : ∀ t : Fin grid0.N, win0_2.xsize (grid0.coords t) 0 = min 280 (10000 - win0_2.index t 0 * 280)
    ∧ win0_2.xsize (grid0.coords t) 1 = 10000)
theorem xsize2_0 (t : Fin cfg0.N) : (cfg0.win 2).xsize (cfg0.grid.coords t) 0 = min 280 (10000 - (cfg0.win 2).index t 0 * 280) := (xsize2 t).1
theorem xsize2_1 (t : Fin cfg0.N) : (cfg0.win 2).xsize (cfg0.grid.coords t) 1 = 10000 := (xsize2 t).2

/-- An index of the moved part has the same coordinates in the block. -/
theorem xinj2_val (t : Fin cfg0.N) (y : ((cfg0.win 2).xblock (cfg0.grid.coords t)).Idx) (a : Fin 2) :
    ((cfg0.win 2).xinj (cfg0.grid.coords t) y a).val = (y a).val := rfl

/-- The block rows a transfer moves are those that fall inside the array. -/
theorem moved2_iff (t : Fin cfg0.N) (j : (cfg0.win 2).block.Idx) :
    (cfg0.win 2).moved (cfg0.grid.coords t) j = true ↔ (cfg0.win 2).index t 0 * 280 + (j 0).val < 10000 := by
  rw [Window.moved_iff]
  have hj0 : (j 0).val < 280 := (j 0).isLt
  have hs := start2 t
  constructor
  · intro h
    have h0 : (j 0).val < (cfg0.win 2).xsize (cfg0.grid.coords t) 0 := h 0
    rw [xsize2_0] at h0; omega
  · intro h a
    match a with
    | ⟨0, _⟩ => show (j 0).val < (cfg0.win 2).xsize (cfg0.grid.coords t) 0; rw [xsize2_0]; omega
    | ⟨1, _⟩ => show (j 1).val < (cfg0.win 2).xsize (cfg0.grid.coords t) 1; rw [xsize2_1]; exact (j 1).isLt

/-- A row of the moved part is a row of the array. -/
theorem row_lt2 (t : Fin cfg0.N) (y : ((cfg0.win 2).xblock (cfg0.grid.coords t)).Idx) :
    (cfg0.win 2).index t 0 * 280 + (y 0).val < 10000 :=
  Nat.lt_of_lt_of_le (Nat.add_lt_add_left (y 0).isLt _) (Pipeline.Clip.inb ((cfg0.win 2).hclip (cfg0.grid.coords t) 0))

/-- A row of the moved part is below the cut size. -/
theorem row_lt_xsize2 (t : Fin cfg0.N) (y : ((cfg0.win 2).xblock (cfg0.grid.coords t)).Idx) :
    (y 0).val < min 280 (10000 - (cfg0.win 2).index t 0 * 280) :=
  lt_of_lt_of_eq (idx_lt_xsize (cfg0.win 2) _ y 0) (xsize2_0 t)

/-- A column of the moved part is a column of the array. -/
theorem col_lt2 (t : Fin cfg0.N) (y : ((cfg0.win 2).xblock (cfg0.grid.coords t)).Idx) : (y 1).val < 10000 :=
  lt_of_lt_of_eq (idx_lt_xsize (cfg0.win 2) _ y 1) (xsize2_1 t)

/-- THE BLOCK READ: the moved part at (row, column) is the array at (280·I + row, column). -/
theorem read2 (A : S10000x10000.Idx → Val .f32) (t : Fin cfg0.N) (y : ((cfg0.win 2).xblock (cfg0.grid.coords t)).Idx)
    (h0 : (cfg0.win 2).index t 0 * 280 + (y 0).val < 10000) (h1 : (y 1).val < 10000) :
    ((cfg0.win 2).blk t).view.read Val A y = A (ValueIdx.ix2 ⟨(cfg0.win 2).index t 0 * 280 + (y 0).val, h0⟩ ⟨(y 1).val, h1⟩) := by
  show A (((cfg0.win 2).blk t).view.emb y) = _
  congr 1
  funext a
  apply Fin.ext
  match a with
  | ⟨0, _⟩ =>
    show win0_2.index t (0 : Fin 2) * 280 + 1 * (y 0).val = win0_2.index t (0 : Fin 2) * 280 + (y 0).val; omega
  | ⟨1, _⟩ =>
    show win0_2.index t (1 : Fin 2) * 10000 + 1 * (y 1).val = (y 1).val
    rw [show win0_2.index t (1 : Fin 2) = 0 from (index2 t).2]; omega

/-- The same at any name I of the block index. -/
theorem read2_at (A : S10000x10000.Idx → Val .f32) (t : Fin cfg0.N) (y : ((cfg0.win 2).xblock (cfg0.grid.coords t)).Idx)
    (I : Nat) (hI : (cfg0.win 2).index t 0 = I) (h0 : I * 280 + (y 0).val < 10000) (h1 : (y 1).val < 10000) :
    ((cfg0.win 2).blk t).view.read Val A y = A (ValueIdx.ix2 ⟨I * 280 + (y 0).val, h0⟩ ⟨(y 1).val, h1⟩) := by
  subst hI; exact read2 A t y h0 h1

/-- The same with the block index in closed form. -/
theorem read2_closed (A : S10000x10000.Idx → Val .f32) (t : Fin cfg0.N) (y : ((cfg0.win 2).xblock (cfg0.grid.coords t)).Idx)
    (h0 : t.val % 36 * 280 + (y 0).val < 10000) (h1 : (y 1).val < 10000) :
    ((cfg0.win 2).blk t).view.read Val A y = A (ValueIdx.ix2 ⟨t.val % 36 * 280 + (y 0).val, h0⟩ ⟨(y 1).val, h1⟩) :=
  read2_at A t y _ (index2 t).1 h0 h1

/-! ## Window 3 -/

/-- The block index on the row axis starts a block inside the array. -/
theorem start3 (t : Fin cfg0.N) : (cfg0.win 3).index t 0 * 280 < 10000 := by
  have h := (index3 t).1
  have ht : t.val < 72 := t.isLt.trans_eq N72
  rw [h]
  first | omega | (split_ifs <;> omega)

/-- The rows a transfer moves: the block's 280 cut at the array's end; every column is moved. -/
theorem xsize3 : ∀ t : Fin cfg0.N, (cfg0.win 3).xsize (cfg0.grid.coords t) 0 = min 280 (10000 - (cfg0.win 3).index t 0 * 280)
    ∧ (cfg0.win 3).xsize (cfg0.grid.coords t) 1 = 32 :=
  (by decide +kernel : ∀ t : Fin grid0.N, win0_3.xsize (grid0.coords t) 0 = min 280 (10000 - win0_3.index t 0 * 280)
    ∧ win0_3.xsize (grid0.coords t) 1 = 32)
theorem xsize3_0 (t : Fin cfg0.N) : (cfg0.win 3).xsize (cfg0.grid.coords t) 0 = min 280 (10000 - (cfg0.win 3).index t 0 * 280) := (xsize3 t).1
theorem xsize3_1 (t : Fin cfg0.N) : (cfg0.win 3).xsize (cfg0.grid.coords t) 1 = 32 := (xsize3 t).2

/-- An index of the moved part has the same coordinates in the block. -/
theorem xinj3_val (t : Fin cfg0.N) (y : ((cfg0.win 3).xblock (cfg0.grid.coords t)).Idx) (a : Fin 2) :
    ((cfg0.win 3).xinj (cfg0.grid.coords t) y a).val = (y a).val := rfl

/-- The block rows a transfer moves are those that fall inside the array. -/
theorem moved3_iff (t : Fin cfg0.N) (j : (cfg0.win 3).block.Idx) :
    (cfg0.win 3).moved (cfg0.grid.coords t) j = true ↔ (cfg0.win 3).index t 0 * 280 + (j 0).val < 10000 := by
  rw [Window.moved_iff]
  have hj0 : (j 0).val < 280 := (j 0).isLt
  have hs := start3 t
  constructor
  · intro h
    have h0 : (j 0).val < (cfg0.win 3).xsize (cfg0.grid.coords t) 0 := h 0
    rw [xsize3_0] at h0; omega
  · intro h a
    match a with
    | ⟨0, _⟩ => show (j 0).val < (cfg0.win 3).xsize (cfg0.grid.coords t) 0; rw [xsize3_0]; omega
    | ⟨1, _⟩ => show (j 1).val < (cfg0.win 3).xsize (cfg0.grid.coords t) 1; rw [xsize3_1]; exact (j 1).isLt

/-- A row of the moved part is a row of the array. -/
theorem row_lt3 (t : Fin cfg0.N) (y : ((cfg0.win 3).xblock (cfg0.grid.coords t)).Idx) :
    (cfg0.win 3).index t 0 * 280 + (y 0).val < 10000 :=
  Nat.lt_of_lt_of_le (Nat.add_lt_add_left (y 0).isLt _) (Pipeline.Clip.inb ((cfg0.win 3).hclip (cfg0.grid.coords t) 0))

/-- A row of the moved part is below the cut size. -/
theorem row_lt_xsize3 (t : Fin cfg0.N) (y : ((cfg0.win 3).xblock (cfg0.grid.coords t)).Idx) :
    (y 0).val < min 280 (10000 - (cfg0.win 3).index t 0 * 280) :=
  lt_of_lt_of_eq (idx_lt_xsize (cfg0.win 3) _ y 0) (xsize3_0 t)

/-- A column of the moved part is a column of the array. -/
theorem col_lt3 (t : Fin cfg0.N) (y : ((cfg0.win 3).xblock (cfg0.grid.coords t)).Idx) : (y 1).val < 32 :=
  lt_of_lt_of_eq (idx_lt_xsize (cfg0.win 3) _ y 1) (xsize3_1 t)

/-- THE BLOCK READ: the moved part at (row, column) is the array at (280·I + row, column). -/
theorem read3 (A : S10000x32.Idx → Val .f32) (t : Fin cfg0.N) (y : ((cfg0.win 3).xblock (cfg0.grid.coords t)).Idx)
    (h0 : (cfg0.win 3).index t 0 * 280 + (y 0).val < 10000) (h1 : (y 1).val < 32) :
    ((cfg0.win 3).blk t).view.read Val A y = A (ValueIdx.ix2 ⟨(cfg0.win 3).index t 0 * 280 + (y 0).val, h0⟩ ⟨(y 1).val, h1⟩) := by
  show A (((cfg0.win 3).blk t).view.emb y) = _
  congr 1
  funext a
  apply Fin.ext
  match a with
  | ⟨0, _⟩ =>
    show win0_3.index t (0 : Fin 2) * 280 + 1 * (y 0).val = win0_3.index t (0 : Fin 2) * 280 + (y 0).val; omega
  | ⟨1, _⟩ =>
    show win0_3.index t (1 : Fin 2) * 32 + 1 * (y 1).val = (y 1).val
    rw [show win0_3.index t (1 : Fin 2) = 0 from (index3 t).2]; omega

/-- The same at any name I of the block index. -/
theorem read3_at (A : S10000x32.Idx → Val .f32) (t : Fin cfg0.N) (y : ((cfg0.win 3).xblock (cfg0.grid.coords t)).Idx)
    (I : Nat) (hI : (cfg0.win 3).index t 0 = I) (h0 : I * 280 + (y 0).val < 10000) (h1 : (y 1).val < 32) :
    ((cfg0.win 3).blk t).view.read Val A y = A (ValueIdx.ix2 ⟨I * 280 + (y 0).val, h0⟩ ⟨(y 1).val, h1⟩) := by
  subst hI; exact read3 A t y h0 h1

/-- The same with the block index in closed form. -/
theorem read3_closed (A : S10000x32.Idx → Val .f32) (t : Fin cfg0.N) (y : ((cfg0.win 3).xblock (cfg0.grid.coords t)).Idx)
    (h0 : (if 36 ≤ t.val then t.val % 36 else 0) * 280 + (y 0).val < 10000) (h1 : (y 1).val < 32) :
    ((cfg0.win 3).blk t).view.read Val A y = A (ValueIdx.ix2 ⟨(if 36 ≤ t.val then t.val % 36 else 0) * 280 + (y 0).val, h0⟩ ⟨(y 1).val, h1⟩) :=
  read3_at A t y _ (index3 t).1 h0 h1

/-! ## Window 14 -/

/-- The block index on the row axis starts a block inside the array. -/
theorem start14 (t : Fin cfg0.N) : (cfg0.win 14).index t 0 * 280 < 10000 := by
  have h := (index14 t).1
  have ht : t.val < 72 := t.isLt.trans_eq N72
  rw [h]
  first | omega | (split_ifs <;> omega)

/-- The rows a transfer moves: the block's 280 cut at the array's end; every column is moved. -/
theorem xsize14 : ∀ t : Fin cfg0.N, (cfg0.win 14).xsize (cfg0.grid.coords t) 0 = min 280 (10000 - (cfg0.win 14).index t 0 * 280)
    ∧ (cfg0.win 14).xsize (cfg0.grid.coords t) 1 = 16 :=
  (by decide +kernel : ∀ t : Fin grid0.N, win0_14.xsize (grid0.coords t) 0 = min 280 (10000 - win0_14.index t 0 * 280)
    ∧ win0_14.xsize (grid0.coords t) 1 = 16)
theorem xsize14_0 (t : Fin cfg0.N) : (cfg0.win 14).xsize (cfg0.grid.coords t) 0 = min 280 (10000 - (cfg0.win 14).index t 0 * 280) := (xsize14 t).1
theorem xsize14_1 (t : Fin cfg0.N) : (cfg0.win 14).xsize (cfg0.grid.coords t) 1 = 16 := (xsize14 t).2

/-- An index of the moved part has the same coordinates in the block. -/
theorem xinj14_val (t : Fin cfg0.N) (y : ((cfg0.win 14).xblock (cfg0.grid.coords t)).Idx) (a : Fin 2) :
    ((cfg0.win 14).xinj (cfg0.grid.coords t) y a).val = (y a).val := rfl

/-- The block rows a transfer moves are those that fall inside the array. -/
theorem moved14_iff (t : Fin cfg0.N) (j : (cfg0.win 14).block.Idx) :
    (cfg0.win 14).moved (cfg0.grid.coords t) j = true ↔ (cfg0.win 14).index t 0 * 280 + (j 0).val < 10000 := by
  rw [Window.moved_iff]
  have hj0 : (j 0).val < 280 := (j 0).isLt
  have hs := start14 t
  constructor
  · intro h
    have h0 : (j 0).val < (cfg0.win 14).xsize (cfg0.grid.coords t) 0 := h 0
    rw [xsize14_0] at h0; omega
  · intro h a
    match a with
    | ⟨0, _⟩ => show (j 0).val < (cfg0.win 14).xsize (cfg0.grid.coords t) 0; rw [xsize14_0]; omega
    | ⟨1, _⟩ => show (j 1).val < (cfg0.win 14).xsize (cfg0.grid.coords t) 1; rw [xsize14_1]; exact (j 1).isLt

/-- A row of the moved part is a row of the array. -/
theorem row_lt14 (t : Fin cfg0.N) (y : ((cfg0.win 14).xblock (cfg0.grid.coords t)).Idx) :
    (cfg0.win 14).index t 0 * 280 + (y 0).val < 10000 :=
  Nat.lt_of_lt_of_le (Nat.add_lt_add_left (y 0).isLt _) (Pipeline.Clip.inb ((cfg0.win 14).hclip (cfg0.grid.coords t) 0))

/-- A row of the moved part is below the cut size. -/
theorem row_lt_xsize14 (t : Fin cfg0.N) (y : ((cfg0.win 14).xblock (cfg0.grid.coords t)).Idx) :
    (y 0).val < min 280 (10000 - (cfg0.win 14).index t 0 * 280) :=
  lt_of_lt_of_eq (idx_lt_xsize (cfg0.win 14) _ y 0) (xsize14_0 t)

/-- A column of the moved part is a column of the array. -/
theorem col_lt14 (t : Fin cfg0.N) (y : ((cfg0.win 14).xblock (cfg0.grid.coords t)).Idx) : (y 1).val < 16 :=
  lt_of_lt_of_eq (idx_lt_xsize (cfg0.win 14) _ y 1) (xsize14_1 t)

/-- THE BLOCK READ: the moved part at (row, column) is the array at (280·I + row, column). -/
theorem read14 (A : S10000x16.Idx → Val .f32) (t : Fin cfg0.N) (y : ((cfg0.win 14).xblock (cfg0.grid.coords t)).Idx)
    (h0 : (cfg0.win 14).index t 0 * 280 + (y 0).val < 10000) (h1 : (y 1).val < 16) :
    ((cfg0.win 14).blk t).view.read Val A y = A (ValueIdx.ix2 ⟨(cfg0.win 14).index t 0 * 280 + (y 0).val, h0⟩ ⟨(y 1).val, h1⟩) := by
  show A (((cfg0.win 14).blk t).view.emb y) = _
  congr 1
  funext a
  apply Fin.ext
  match a with
  | ⟨0, _⟩ =>
    show win0_14.index t (0 : Fin 2) * 280 + 1 * (y 0).val = win0_14.index t (0 : Fin 2) * 280 + (y 0).val; omega
  | ⟨1, _⟩ =>
    show win0_14.index t (1 : Fin 2) * 16 + 1 * (y 1).val = (y 1).val
    rw [show win0_14.index t (1 : Fin 2) = 0 from (index14 t).2]; omega

/-- The same at any name I of the block index. -/
theorem read14_at (A : S10000x16.Idx → Val .f32) (t : Fin cfg0.N) (y : ((cfg0.win 14).xblock (cfg0.grid.coords t)).Idx)
    (I : Nat) (hI : (cfg0.win 14).index t 0 = I) (h0 : I * 280 + (y 0).val < 10000) (h1 : (y 1).val < 16) :
    ((cfg0.win 14).blk t).view.read Val A y = A (ValueIdx.ix2 ⟨I * 280 + (y 0).val, h0⟩ ⟨(y 1).val, h1⟩) := by
  subst hI; exact read14 A t y h0 h1

/-- The same with the block index in closed form. -/
theorem read14_closed (A : S10000x16.Idx → Val .f32) (t : Fin cfg0.N) (y : ((cfg0.win 14).xblock (cfg0.grid.coords t)).Idx)
    (h0 : (if 36 ≤ t.val then t.val % 36 else 0) * 280 + (y 0).val < 10000) (h1 : (y 1).val < 16) :
    ((cfg0.win 14).blk t).view.read Val A y = A (ValueIdx.ix2 ⟨(if 36 ≤ t.val then t.val % 36 else 0) * 280 + (y 0).val, h0⟩ ⟨(y 1).val, h1⟩) :=
  read14_at A t y _ (index14 t).1 h0 h1

/-! ## The two sweeps -/

/-- Windows 3 and 14 stay at block 0 through the first sweep and follow the point in the second. -/
theorem read3_sweep1 (A : S10000x32.Idx → Val .f32) (t : Fin cfg0.N) (ht : t.val < 36)
    (y : ((cfg0.win 3).xblock (cfg0.grid.coords t)).Idx) (h0 : 0 * 280 + (y 0).val < 10000) (h1 : (y 1).val < 32) :
    ((cfg0.win 3).blk t).view.read Val A y = A (ValueIdx.ix2 ⟨0 * 280 + (y 0).val, h0⟩ ⟨(y 1).val, h1⟩) :=
  read3_at A t y _ ((index3 t).1.trans (if_neg (Nat.not_le.2 ht))) h0 h1
theorem read3_sweep2 (A : S10000x32.Idx → Val .f32) (t : Fin cfg0.N) (ht : 36 ≤ t.val)
    (y : ((cfg0.win 3).xblock (cfg0.grid.coords t)).Idx) (h0 : t.val % 36 * 280 + (y 0).val < 10000) (h1 : (y 1).val < 32) :
    ((cfg0.win 3).blk t).view.read Val A y = A (ValueIdx.ix2 ⟨t.val % 36 * 280 + (y 0).val, h0⟩ ⟨(y 1).val, h1⟩) :=
  read3_at A t y _ ((index3 t).1.trans (if_pos ht)) h0 h1
theorem read14_sweep2 (G : S10000x16.Idx → Val .f32) (t : Fin cfg0.N) (ht : 36 ≤ t.val)
    (y : ((cfg0.win 14).xblock (cfg0.grid.coords t)).Idx) (h0 : t.val % 36 * 280 + (y 0).val < 10000) (h1 : (y 1).val < 16) :
    ((cfg0.win 14).blk t).view.read Val G y = G (ValueIdx.ix2 ⟨t.val % 36 * 280 + (y 0).val, h0⟩ ⟨(y 1).val, h1⟩) :=
  read14_at G t y _ ((index14 t).1.trans (if_pos ht)) h0 h1

/-- The row bound of the second sweep's block of the result, in closed form. -/
theorem row_lt14_sweep2 (t : Fin cfg0.N) (ht : 36 ≤ t.val) (y : ((cfg0.win 14).xblock (cfg0.grid.coords t)).Idx) :
    t.val % 36 * 280 + (y 0).val < 10000 := by
  have h := row_lt14 t y
  rw [(index14 t).1, if_pos ht] at h; exact h

/-! ## The blocks of the result cover it -/

/-- An index of the result array is in point t's block iff on each axis it lies in the block's range, cut at the array's end. -/
theorem mem_blk14 (t : Fin cfg0.N) (i : S10000x16.Idx) :
    i ∈ ((cfg0.win 14).blk t).view.set ↔ ∀ a : Fin 2, win0_14.index t a * S280x16.size a ≤ (i a).val
      ∧ (i a).val < win0_14.index t a * S280x16.size a + win0_14.xsize (grid0.coords t) a := by
  show i ∈ ((View.whole main_v5).slice (win0_14.rect t)).set ↔ _
  rw [View.set_slice_whole, Rect.mem_set_unit]
  exact Iff.rfl

/-- THE COVER: row r of the result is in the block that point 36 + r / 280 writes back. -/
theorem cover14 (i : S10000x16.Idx) :
    ∃ t : Fin cfg0.N, (cfg0.win 14).flush t = true ∧ i ∈ ((cfg0.win 14).blk t).view.set := by
  have hi0 : (i 0).val < 10000 := (i 0).isLt
  have hi1 : (i 1).val < 16 := (i 1).isLt
  have hN : 36 + (i 0).val / 280 < cfg0.N := by rw [N72]; omega
  obtain ⟨t, ht⟩ : ∃ t : Fin cfg0.N, t.val = 36 + (i 0).val / 280 := ⟨⟨_, hN⟩, rfl⟩
  have h36 : 36 ≤ t.val := by omega
  refine ⟨t, flush14_of t h36, ?_⟩
  rw [mem_blk14]
  obtain ⟨e0, e1⟩ := index14 t
  obtain ⟨x0, x1⟩ := xsize14 t
  rw [if_pos h36] at e0
  have b0 : (cfg0.win 14).index t 0 * 280 ≤ (i 0).val
      ∧ (i 0).val < (cfg0.win 14).index t 0 * 280 + (cfg0.win 14).xsize (cfg0.grid.coords t) 0 := by
    rw [x0, e0]; omega
  have b1 : (cfg0.win 14).index t 1 * 16 ≤ (i 1).val
      ∧ (i 1).val < (cfg0.win 14).index t 1 * 16 + (cfg0.win 14).xsize (cfg0.grid.coords t) 1 := by
    rw [x1, e1]; omega
  intro a
  match a with
  | ⟨0, _⟩ => exact b0
  | ⟨1, _⟩ => exact b1

/-- The same over the index type of the window's array as the pipeline library spells it. -/
theorem cover14' (c : Dev nD) (i : ((cfg0.win 14).arr.view.loc (c.tc : Thread nD τ)).2.ty.Idx) :
    ∃ t : Fin cfg0.N, (cfg0.win 14).flush t = true ∧ i ∈ ((cfg0.win 14).blk t).view.set := cover14 i

/-! ## The input blocks as the region finds them -/

section Inputs

variable {F : FTy → Type} [FloatOps F] (m : (ℓ : Loc nD τ sig) → Buf (Elt F) ℓ)

theorem iblk1 (c : Dev nD) (t : Fin cfg0.N) (y : ((cfg0.win 1).xblock (cfg0.grid.coords t)).Idx)
    (h0 : (cfg0.win 1).index t 0 * 280 + (y 0).val < 10000) (h1 : (y 1).val < 10000) :
    iblk m c 1 t y = V m c main_arg2 (ValueIdx.ix2 ⟨(cfg0.win 1).index t 0 * 280 + (y 0).val, h0⟩ ⟨(y 1).val, h1⟩) := by
  unfold iblk; exact read1 (Val := Elt F) (V m c main_arg2) t y h0 h1
theorem iblk1_closed (c : Dev nD) (t : Fin cfg0.N) (y : ((cfg0.win 1).xblock (cfg0.grid.coords t)).Idx)
    (h0 : t.val % 36 * 280 + (y 0).val < 10000) (h1 : (y 1).val < 10000) :
    iblk m c 1 t y = V m c main_arg2 (ValueIdx.ix2 ⟨t.val % 36 * 280 + (y 0).val, h0⟩ ⟨(y 1).val, h1⟩) := by
  unfold iblk; exact read1_closed (Val := Elt F) (V m c main_arg2) t y h0 h1

theorem iblk2 (c : Dev nD) (t : Fin cfg0.N) (y : ((cfg0.win 2).xblock (cfg0.grid.coords t)).Idx)
    (h0 : (cfg0.win 2).index t 0 * 280 + (y 0).val < 10000) (h1 : (y 1).val < 10000) :
    iblk m c 2 t y = V m c main_arg1 (ValueIdx.ix2 ⟨(cfg0.win 2).index t 0 * 280 + (y 0).val, h0⟩ ⟨(y 1).val, h1⟩) := by
  unfold iblk; exact read2 (Val := Elt F) (V m c main_arg1) t y h0 h1
theorem iblk2_closed (c : Dev nD) (t : Fin cfg0.N) (y : ((cfg0.win 2).xblock (cfg0.grid.coords t)).Idx)
    (h0 : t.val % 36 * 280 + (y 0).val < 10000) (h1 : (y 1).val < 10000) :
    iblk m c 2 t y = V m c main_arg1 (ValueIdx.ix2 ⟨t.val % 36 * 280 + (y 0).val, h0⟩ ⟨(y 1).val, h1⟩) := by
  unfold iblk; exact read2_closed (Val := Elt F) (V m c main_arg1) t y h0 h1

theorem iblk3 (c : Dev nD) (t : Fin cfg0.N) (y : ((cfg0.win 3).xblock (cfg0.grid.coords t)).Idx)
    (h0 : (cfg0.win 3).index t 0 * 280 + (y 0).val < 10000) (h1 : (y 1).val < 32) :
    iblk m c 3 t y = V m c main_arg3 (ValueIdx.ix2 ⟨(cfg0.win 3).index t 0 * 280 + (y 0).val, h0⟩ ⟨(y 1).val, h1⟩) := by
  unfold iblk; exact read3 (Val := Elt F) (V m c main_arg3) t y h0 h1
theorem iblk3_sweep2 (c : Dev nD) (t : Fin cfg0.N) (ht : 36 ≤ t.val) (y : ((cfg0.win 3).xblock (cfg0.grid.coords t)).Idx)
    (h0 : t.val % 36 * 280 + (y 0).val < 10000) (h1 : (y 1).val < 32) :
    iblk m c 3 t y = V m c main_arg3 (ValueIdx.ix2 ⟨t.val % 36 * 280 + (y 0).val, h0⟩ ⟨(y 1).val, h1⟩) := by
  unfold iblk; exact read3_sweep2 (Val := Elt F) (V m c main_arg3) t ht y h0 h1

end Inputs

end Cert.KernelIdeal.Blocks

end
-- ==== Proof.Found.lean ====
/-
  What the body finds in each input window's staging buffer.

  A window whose block is its whole array holds that array at every point. The five one-row arrays are the
  bias vectors, reshaped on the host before the kernel runs: row 0 reads the vector. The three windows of
  280-row blocks hold, on the rows of the point's block that lie inside the array, the array's rows
  280·I … (I the block index at the point): the two adjacencies are fetched at every point; the z block is
  fetched at the first point and from point 37 on, and in between it is the block kept from the point before,
  block 0 throughout. None of the three is written by the body, so each is left as it was found.
-/
import proofs.«148532_g48885317763338_cont_8to1_c_83_23_alg».proof.Proof.Data
import proofs.«148532_g48885317763338_cont_8to1_c_83_23_alg».proof.Proof.Blocks
import Idealize.ShloMosaic.Lib.Pipeline.Frame
import Idealize.ShloMosaic.Lib.Pipeline.FrameBody
import Idealize.ShloMosaic.Lib.Pipeline.Value
import Idealize.ShloMosaic.Lib.ValueLayout
import Idealize.ShloMosaic.Lib.StableHlo.Run

set_option maxRecDepth 16384

noncomputable section

namespace Cert.KernelIdeal.Exact

open Cert.KernelIdeal Cert.KernelIdeal.Gen Cert.KernelIdeal.Body Cert.KernelIdeal.Blocks
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ) (c : Dev nD)

/-! ## The windows whose block is the whole array -/

/-- Window 0's block is its whole array at every point. -/
theorem index_whole0 : ∀ t : Fin cfg0.N, (cfg0.win 0).index t 0 = 0 ∧ (cfg0.win 0).index t 1 = 0 :=
  (by decide +kernel : ∀ t : Fin grid0.N, win0_0.index t 0 = 0 ∧ win0_0.index t 1 = 0)
theorem iblk_whole0 (t : Fin cfg0.N) : iblk m c 0 t = V m c main_arg0 := by
  funext y
  show V m c main_arg0 (((cfg0.win 0).blk t).view.emb y) = V m c main_arg0 y
  congr 1
  funext a
  apply Fin.ext
  match a with
  | ⟨0, _⟩ =>
    show win0_0.index t (0 : Fin 2) * 10000 + 1 * (y 0).val = (y 0).val
    rw [show win0_0.index t (0 : Fin 2) = 0 from (index_whole0 t).1]; omega
  | ⟨1, _⟩ =>
    show win0_0.index t (1 : Fin 2) * 128 + 1 * (y 1).val = (y 1).val
    rw [show win0_0.index t (1 : Fin 2) = 0 from (index_whole0 t).2]; omega
theorem found0 (t : Fin cfg0.N) (d) : (dats m 0 c).before 0 t d = V m c main_arg0 :=
  (before_0 m c t d).trans (iblk_whole0 m c t)

/-- Window 4's block is its whole array at every point. -/
theorem index_whole4 : ∀ t : Fin cfg0.N, (cfg0.win 4).index t 0 = 0 ∧ (cfg0.win 4).index t 1 = 0 :=
  (by decide +kernel : ∀ t : Fin grid0.N, win0_4.index t 0 = 0 ∧ win0_4.index t 1 = 0)
theorem iblk_whole4 (t : Fin cfg0.N) : iblk m c 4 t = V m c main_arg4 := by
  funext y
  show V m c main_arg4 (((cfg0.win 4).blk t).view.emb y) = V m c main_arg4 y
  congr 1
  funext a
  apply Fin.ext
  match a with
  | ⟨0, _⟩ =>
    show win0_4.index t (0 : Fin 2) * 128 + 1 * (y 0).val = (y 0).val
    rw [show win0_4.index t (0 : Fin 2) = 0 from (index_whole4 t).1]; omega
  | ⟨1, _⟩ =>
    show win0_4.index t (1 : Fin 2) * 64 + 1 * (y 1).val = (y 1).val
    rw [show win0_4.index t (1 : Fin 2) = 0 from (index_whole4 t).2]; omega
theorem found4 (t : Fin cfg0.N) (d) : (dats m 0 c).before 4 t d = V m c main_arg4 :=
  (before_4 m c t d).trans (iblk_whole4 m c t)

/-- Window 5's block is its whole array at every point. -/
theorem index_whole5 : ∀ t : Fin cfg0.N, (cfg0.win 5).index t 0 = 0 ∧ (cfg0.win 5).index t 1 = 0 :=
  (by decide +kernel : ∀ t : Fin grid0.N, win0_5.index t 0 = 0 ∧ win0_5.index t 1 = 0)
theorem iblk_whole5 (t : Fin cfg0.N) : iblk m c 5 t = V m c main_arg8 := by
  funext y
  show V m c main_arg8 (((cfg0.win 5).blk t).view.emb y) = V m c main_arg8 y
  congr 1
  funext a
  apply Fin.ext
  match a with
  | ⟨0, _⟩ =>
    show win0_5.index t (0 : Fin 2) * 128 + 1 * (y 0).val = (y 0).val
    rw [show win0_5.index t (0 : Fin 2) = 0 from (index_whole5 t).1]; omega
  | ⟨1, _⟩ =>
    show win0_5.index t (1 : Fin 2) * 64 + 1 * (y 1).val = (y 1).val
    rw [show win0_5.index t (1 : Fin 2) = 0 from (index_whole5 t).2]; omega
theorem found5 (t : Fin cfg0.N) (d) : (dats m 0 c).before 5 t d = V m c main_arg8 :=
  (before_5 m c t d).trans (iblk_whole5 m c t)

/-- Window 6's block is its whole array at every point. -/
theorem index_whole6 : ∀ t : Fin cfg0.N, (cfg0.win 6).index t 0 = 0 ∧ (cfg0.win 6).index t 1 = 0 :=
  (by decide +kernel : ∀ t : Fin grid0.N, win0_6.index t 0 = 0 ∧ win0_6.index t 1 = 0)
theorem iblk_whole6 (t : Fin cfg0.N) : iblk m c 6 t = V m c main_v0 := by
  funext y
  show V m c main_v0 (((cfg0.win 6).blk t).view.emb y) = V m c main_v0 y
  congr 1
  funext a
  apply Fin.ext
  match a with
  | ⟨0, _⟩ =>
    show win0_6.index t (0 : Fin 2) * 1 + 1 * (y 0).val = (y 0).val
    rw [show win0_6.index t (0 : Fin 2) = 0 from (index_whole6 t).1]; omega
  | ⟨1, _⟩ =>
    show win0_6.index t (1 : Fin 2) * 64 + 1 * (y 1).val = (y 1).val
    rw [show win0_6.index t (1 : Fin 2) = 0 from (index_whole6 t).2]; omega
theorem found6 (t : Fin cfg0.N) (d) : (dats m 0 c).before 6 t d = V m c main_v0 :=
  (before_6 m c t d).trans (iblk_whole6 m c t)

/-- Window 7's block is its whole array at every point. -/
theorem index_whole7 : ∀ t : Fin cfg0.N, (cfg0.win 7).index t 0 = 0 ∧ (cfg0.win 7).index t 1 = 0 :=
  (by decide +kernel : ∀ t : Fin grid0.N, win0_7.index t 0 = 0 ∧ win0_7.index t 1 = 0)
theorem iblk_whole7 (t : Fin cfg0.N) : iblk m c 7 t = V m c main_v1 := by
  funext y
  show V m c main_v1 (((cfg0.win 7).blk t).view.emb y) = V m c main_v1 y
  congr 1
  funext a
  apply Fin.ext
  match a with
  | ⟨0, _⟩ =>
    show win0_7.index t (0 : Fin 2) * 1 + 1 * (y 0).val = (y 0).val
    rw [show win0_7.index t (0 : Fin 2) = 0 from (index_whole7 t).1]; omega
  | ⟨1, _⟩ =>
    show win0_7.index t (1 : Fin 2) * 64 + 1 * (y 1).val = (y 1).val
    rw [show win0_7.index t (1 : Fin 2) = 0 from (index_whole7 t).2]; omega
theorem found7 (t : Fin cfg0.N) (d) : (dats m 0 c).before 7 t d = V m c main_v1 :=
  (before_7 m c t d).trans (iblk_whole7 m c t)

/-- Window 8's block is its whole array at every point. -/
theorem index_whole8 : ∀ t : Fin cfg0.N, (cfg0.win 8).index t 0 = 0 ∧ (cfg0.win 8).index t 1 = 0 :=
  (by decide +kernel : ∀ t : Fin grid0.N, win0_8.index t 0 = 0 ∧ win0_8.index t 1 = 0)
theorem iblk_whole8 (t : Fin cfg0.N) : iblk m c 8 t = V m c main_arg6 := by
  funext y
  show V m c main_arg6 (((cfg0.win 8).blk t).view.emb y) = V m c main_arg6 y
  congr 1
  funext a
  apply Fin.ext
  match a with
  | ⟨0, _⟩ =>
    show win0_8.index t (0 : Fin 2) * 64 + 1 * (y 0).val = (y 0).val
    rw [show win0_8.index t (0 : Fin 2) = 0 from (index_whole8 t).1]; omega
  | ⟨1, _⟩ =>
    show win0_8.index t (1 : Fin 2) * 32 + 1 * (y 1).val = (y 1).val
    rw [show win0_8.index t (1 : Fin 2) = 0 from (index_whole8 t).2]; omega
theorem found8 (t : Fin cfg0.N) (d) : (dats m 0 c).before 8 t d = V m c main_arg6 :=
  (before_8 m c t d).trans (iblk_whole8 m c t)

/-- Window 9's block is its whole array at every point. -/
theorem index_whole9 : ∀ t : Fin cfg0.N, (cfg0.win 9).index t 0 = 0 ∧ (cfg0.win 9).index t 1 = 0 :=
  (by decide +kernel : ∀ t : Fin grid0.N, win0_9.index t 0 = 0 ∧ win0_9.index t 1 = 0)
theorem iblk_whole9 (t : Fin cfg0.N) : iblk m c 9 t = V m c main_arg10 := by
  funext y
  show V m c main_arg10 (((cfg0.win 9).blk t).view.emb y) = V m c main_arg10 y
  congr 1
  funext a
  apply Fin.ext
  match a with
  | ⟨0, _⟩ =>
    show win0_9.index t (0 : Fin 2) * 64 + 1 * (y 0).val = (y 0).val
    rw [show win0_9.index t (0 : Fin 2) = 0 from (index_whole9 t).1]; omega
  | ⟨1, _⟩ =>
    show win0_9.index t (1 : Fin 2) * 32 + 1 * (y 1).val = (y 1).val
    rw [show win0_9.index t (1 : Fin 2) = 0 from (index_whole9 t).2]; omega
theorem found9 (t : Fin cfg0.N) (d) : (dats m 0 c).before 9 t d = V m c main_arg10 :=
  (before_9 m c t d).trans (iblk_whole9 m c t)

/-- Window 10's block is its whole array at every point. -/
theorem index_whole10 : ∀ t : Fin cfg0.N, (cfg0.win 10).index t 0 = 0 ∧ (cfg0.win 10).index t 1 = 0 :=
  (by decide +kernel : ∀ t : Fin grid0.N, win0_10.index t 0 = 0 ∧ win0_10.index t 1 = 0)
theorem iblk_whole10 (t : Fin cfg0.N) : iblk m c 10 t = V m c main_arg12 := by
  funext y
  show V m c main_arg12 (((cfg0.win 10).blk t).view.emb y) = V m c main_arg12 y
  congr 1
  funext a
  apply Fin.ext
  match a with
  | ⟨0, _⟩ =>
    show win0_10.index t (0 : Fin 2) * 96 + 1 * (y 0).val = (y 0).val
    rw [show win0_10.index t (0 : Fin 2) = 0 from (index_whole10 t).1]; omega
  | ⟨1, _⟩ =>
    show win0_10.index t (1 : Fin 2) * 16 + 1 * (y 1).val = (y 1).val
    rw [show win0_10.index t (1 : Fin 2) = 0 from (index_whole10 t).2]; omega
theorem found10 (t : Fin cfg0.N) (d) : (dats m 0 c).before 10 t d = V m c main_arg12 :=
  (before_10 m c t d).trans (iblk_whole10 m c t)

/-- Window 11's block is its whole array at every point. -/
theorem index_whole11 : ∀ t : Fin cfg0.N, (cfg0.win 11).index t 0 = 0 ∧ (cfg0.win 11).index t 1 = 0 :=
  (by decide +kernel : ∀ t : Fin grid0.N, win0_11.index t 0 = 0 ∧ win0_11.index t 1 = 0)
theorem iblk_whole11 (t : Fin cfg0.N) : iblk m c 11 t = V m c main_v2 := by
  funext y
  show V m c main_v2 (((cfg0.win 11).blk t).view.emb y) = V m c main_v2 y
  congr 1
  funext a
  apply Fin.ext
  match a with
  | ⟨0, _⟩ =>
    show win0_11.index t (0 : Fin 2) * 1 + 1 * (y 0).val = (y 0).val
    rw [show win0_11.index t (0 : Fin 2) = 0 from (index_whole11 t).1]; omega
  | ⟨1, _⟩ =>
    show win0_11.index t (1 : Fin 2) * 32 + 1 * (y 1).val = (y 1).val
    rw [show win0_11.index t (1 : Fin 2) = 0 from (index_whole11 t).2]; omega
theorem found11 (t : Fin cfg0.N) (d) : (dats m 0 c).before 11 t d = V m c main_v2 :=
  (before_11 m c t d).trans (iblk_whole11 m c t)

/-- Window 12's block is its whole array at every point. -/
theorem index_whole12 : ∀ t : Fin cfg0.N, (cfg0.win 12).index t 0 = 0 ∧ (cfg0.win 12).index t 1 = 0 :=
  (by decide +kernel : ∀ t : Fin grid0.N, win0_12.index t 0 = 0 ∧ win0_12.index t 1 = 0)
theorem iblk_whole12 (t : Fin cfg0.N) : iblk m c 12 t = V m c main_v3 := by
  funext y
  show V m c main_v3 (((cfg0.win 12).blk t).view.emb y) = V m c main_v3 y
  congr 1
  funext a
  apply Fin.ext
  match a with
  | ⟨0, _⟩ =>
    show win0_12.index t (0 : Fin 2) * 1 + 1 * (y 0).val = (y 0).val
    rw [show win0_12.index t (0 : Fin 2) = 0 from (index_whole12 t).1]; omega
  | ⟨1, _⟩ =>
    show win0_12.index t (1 : Fin 2) * 32 + 1 * (y 1).val = (y 1).val
    rw [show win0_12.index t (1 : Fin 2) = 0 from (index_whole12 t).2]; omega
theorem found12 (t : Fin cfg0.N) (d) : (dats m 0 c).before 12 t d = V m c main_v3 :=
  (before_12 m c t d).trans (iblk_whole12 m c t)

/-- Window 13's block is its whole array at every point. -/
theorem index_whole13 : ∀ t : Fin cfg0.N, (cfg0.win 13).index t 0 = 0 ∧ (cfg0.win 13).index t 1 = 0 :=
  (by decide +kernel : ∀ t : Fin grid0.N, win0_13.index t 0 = 0 ∧ win0_13.index t 1 = 0)
theorem iblk_whole13 (t : Fin cfg0.N) : iblk m c 13 t = V m c main_v4 := by
  funext y
  show V m c main_v4 (((cfg0.win 13).blk t).view.emb y) = V m c main_v4 y
  congr 1
  funext a
  apply Fin.ext
  match a with
  | ⟨0, _⟩ =>
    show win0_13.index t (0 : Fin 2) * 1 + 1 * (y 0).val = (y 0).val
    rw [show win0_13.index t (0 : Fin 2) = 0 from (index_whole13 t).1]; omega
  | ⟨1, _⟩ =>
    show win0_13.index t (1 : Fin 2) * 16 + 1 * (y 1).val = (y 1).val
    rw [show win0_13.index t (1 : Fin 2) = 0 from (index_whole13 t).2]; omega
theorem found13 (t : Fin cfg0.N) (d) : (dats m 0 c).before 13 t d = V m c main_v4 :=
  (before_13 m c t d).trans (iblk_whole13 m c t)

/-! ## The host reshapes before the region -/

/-- The biases enter the kernel as one-row arrays: row 0 of each is the bias vector. -/
theorem v0_apply (a : Fin 64) : (V m c main_v0 : S1x64.Idx → EReal) (ix2 (0 : Fin 1) a) = b1fC m c a := by
  have e : (V m c main_v0 : S1x64.Idx → EReal) = shapeCast S1x64 (V m c main_arg5 : S64.Idx → EReal) shapeCasts_S64_S1x64 := by
    dsimp only [Gen.V, Gen.hostOps0]; after_results; rfl
  rw [e]; exact shapeCast_a_1a_apply _ _ _ _
theorem v1_apply (a : Fin 64) : (V m c main_v1 : S1x64.Idx → EReal) (ix2 (0 : Fin 1) a) = b1sC m c a := by
  have e : (V m c main_v1 : S1x64.Idx → EReal) = shapeCast S1x64 (V m c main_arg9 : S64.Idx → EReal) shapeCasts_S64_S1x64 := by
    dsimp only [Gen.V, Gen.hostOps0]; after_results; rfl
  rw [e]; exact shapeCast_a_1a_apply _ _ _ _
theorem v2_apply (j : Fin 32) : (V m c main_v2 : S1x32.Idx → EReal) (ix2 (0 : Fin 1) j) = b2fC m c j := by
  have e : (V m c main_v2 : S1x32.Idx → EReal) = shapeCast S1x32 (V m c main_arg7 : S32.Idx → EReal) shapeCasts_S32_S1x32 := by
    dsimp only [Gen.V, Gen.hostOps0]; after_results; rfl
  rw [e]; exact shapeCast_a_1a_apply _ _ _ _
theorem v3_apply (j : Fin 32) : (V m c main_v3 : S1x32.Idx → EReal) (ix2 (0 : Fin 1) j) = b2sC m c j := by
  have e : (V m c main_v3 : S1x32.Idx → EReal) = shapeCast S1x32 (V m c main_arg11 : S32.Idx → EReal) shapeCasts_S32_S1x32 := by
    dsimp only [Gen.V, Gen.hostOps0]; after_results; rfl
  rw [e]; exact shapeCast_a_1a_apply _ _ _ _
theorem v4_apply (q : Fin 16) : (V m c main_v4 : S1x16.Idx → EReal) (ix2 (0 : Fin 1) q) = bmC m c q := by
  have e : (V m c main_v4 : S1x16.Idx → EReal) = shapeCast S1x16 (V m c main_arg13 : S16.Idx → EReal) shapeCasts_S16_S1x16 := by
    dsimp only [Gen.V, Gen.hostOps0]; after_results; rfl
  rw [e]; exact shapeCast_a_1a_apply _ _ _ _

/-! ## The inputs whose last block reaches past the array -/

/-- A filled block at an index the transfer moves holds the transfer's element there. -/
theorem fill_of_moved {sg : RefSig} {G : Pipeline.Grid} (w : Window sg G) {α : Type} (i : G.Coords) (d : w.block.Idx → α)
    (g : (w.xblock i).Idx → α) {j : w.block.Idx} (h : w.moved i j = true) :
    w.fill i d g j = g (fun a => ⟨(j a).val, (w.moved_iff i j).mp h a⟩) := by
  unfold Window.fill; rw [dif_pos h]

/-- Window 1 is fetched at every point: the body finds the array's rows of the point's block. -/
theorem before1_at (t : Fin cfg0.N) (d) (j : (cfg0.win 1).block.Idx) (I : Nat) (hI : (cfg0.win 1).index t 0 = I)
    (h : I * 280 + (j 0).val < 10000) (h1 : (j 1).val < 10000) :
    (dats m 0 c).before 1 t d j = V m c main_arg2 (ix2 ⟨I * 280 + (j 0).val, h⟩ ⟨(j 1).val, h1⟩) := by
  subst hI
  rw [(dats m 0 c).before_fetched 1 t (fetch0_1 t) d]
  unfold Dat.fetched
  rw [fill_of_moved _ _ _ _ ((moved1_iff t j).mpr h)]
  unfold Dat.blockOf
  rw [A_eq]
  exact read1 (V m c main_arg2) t _ h h1
theorem before1_apply (t : Fin cfg0.N) (d) (j : (cfg0.win 1).block.Idx)
    (h : (cfg0.win 1).index t 0 * 280 + (j 0).val < 10000) (h1 : (j 1).val < 10000) :
    (dats m 0 c).before 1 t d j = V m c main_arg2 (ix2 ⟨(cfg0.win 1).index t 0 * 280 + (j 0).val, h⟩ ⟨(j 1).val, h1⟩) :=
  before1_at m c t d j _ rfl h h1
theorem found1 (t : Fin cfg0.N) (d) (j : (cfg0.win 1).block.Idx)
    (h : t.val % 36 * 280 + (j 0).val < 10000) (h1 : (j 1).val < 10000) :
    (dats m 0 c).before 1 t d j = fadjC m c ⟨t.val % 36 * 280 + (j 0).val, h⟩ ⟨(j 1).val, h1⟩ :=
  before1_at m c t d j _ (index1 t).1 h h1

/-- Window 2 is fetched at every point: the body finds the array's rows of the point's block. -/
theorem before2_at (t : Fin cfg0.N) (d) (j : (cfg0.win 2).block.Idx) (I : Nat) (hI : (cfg0.win 2).index t 0 = I)
    (h : I * 280 + (j 0).val < 10000) (h1 : (j 1).val < 10000) :
    (dats m 0 c).before 2 t d j = V m c main_arg1 (ix2 ⟨I * 280 + (j 0).val, h⟩ ⟨(j 1).val, h1⟩) := by
  subst hI
  rw [(dats m 0 c).before_fetched 2 t (fetch0_2 t) d]
  unfold Dat.fetched
  rw [fill_of_moved _ _ _ _ ((moved2_iff t j).mpr h)]
  unfold Dat.blockOf
  rw [A_eq]
  exact read2 (V m c main_arg1) t _ h h1
theorem before2_apply (t : Fin cfg0.N) (d) (j : (cfg0.win 2).block.Idx)
    (h : (cfg0.win 2).index t 0 * 280 + (j 0).val < 10000) (h1 : (j 1).val < 10000) :
    (dats m 0 c).before 2 t d j = V m c main_arg1 (ix2 ⟨(cfg0.win 2).index t 0 * 280 + (j 0).val, h⟩ ⟨(j 1).val, h1⟩) :=
  before2_at m c t d j _ rfl h h1
theorem found2 (t : Fin cfg0.N) (d) (j : (cfg0.win 2).block.Idx)
    (h : t.val % 36 * 280 + (j 0).val < 10000) (h1 : (j 1).val < 10000) :
    (dats m 0 c).before 2 t d j = sadjC m c ⟨t.val % 36 * 280 + (j 0).val, h⟩ ⟨(j 1).val, h1⟩ :=
  before2_at m c t d j _ (index2 t).1 h h1

/-- Window 3 is fetched at the first point and from point 37 on. -/
theorem fetch3_iff : ∀ t : Fin cfg0.N, (cfg0.win 3).fetch t = true ↔ (t.val = 0 ∨ 37 ≤ t.val) :=
  (by decide +kernel : ∀ t : Fin grid0.N, win0_3.fetch t = true ↔ (t.val = 0 ∨ 37 ≤ t.val))

/-- What a buffer of window 3 holds after the body, refilled: the block's rows inside the array, the rest as before. -/
theorem kept3 (t : Fin cfg0.N) (d) :
    (dats m 0 c).kept 3 t d = (cfg0.win 3).fill (cfg0.grid.coords t) d (iblk m c 3 t) := by
  unfold Dat.kept
  rw [after_3]
  unfold inClip
  rw [(cfg0.win 3).cut_fill]

/-- Window 3: the body finds the array's rows of the point's block, fetched there or kept from the point before
    (whose block is the same one, block 0). -/
theorem before3_at (t : Fin cfg0.N) (d) (j : (cfg0.win 3).block.Idx) (I : Nat) (hI : (cfg0.win 3).index t 0 = I)
    (h : I * 280 + (j 0).val < 10000) (h1 : (j 1).val < 32) :
    (dats m 0 c).before 3 t d j = V m c main_arg3 (ix2 ⟨I * 280 + (j 0).val, h⟩ ⟨(j 1).val, h1⟩) := by
  by_cases hf : (cfg0.win 3).fetch t = true
  · subst hI
    rw [(dats m 0 c).before_fetched 3 t hf d]
    unfold Dat.fetched
    rw [fill_of_moved _ _ _ _ ((moved3_iff t j).mpr h)]
    unfold Dat.blockOf
    rw [A_eq]
    exact read3 (V m c main_arg3) t _ h h1
  · have hf' : (cfg0.win 3).fetch t = false := by cases hq : (cfg0.win 3).fetch t <;> simp_all
    have hr : ¬(t.val = 0 ∨ 37 ≤ t.val) := fun hh => hf ((fetch3_iff t).mpr hh)
    have ht1 : 1 ≤ t.val ∧ t.val ≤ 36 := by omega
    rw [(dats m 0 c).before_unfetched_in 3 rfl t hf' (fun _ => rfl) d, kept3]
    have e : (cfg0.win 3).index ⟨t.val - 1, Nat.lt_of_le_of_lt (Nat.sub_le _ _) t.isLt⟩ 0 = I := by
      rw [← hI, (index3 _).1, (index3 t).1]
      show (if 36 ≤ t.val - 1 then (t.val - 1) % 36 else 0) = (if 36 ≤ t.val then t.val % 36 else 0)
      split_ifs <;> omega
    have hm : (cfg0.win 3).index ⟨t.val - 1, Nat.lt_of_le_of_lt (Nat.sub_le _ _) t.isLt⟩ 0 * 280 + (j 0).val < 10000 := by
      rw [e]; exact h
    rw [fill_of_moved _ _ _ _ ((moved3_iff _ j).mpr hm)]
    unfold iblk
    exact read3_at (V m c main_arg3) _ _ I e h h1
theorem before3_apply (t : Fin cfg0.N) (d) (j : (cfg0.win 3).block.Idx)
    (h : (cfg0.win 3).index t 0 * 280 + (j 0).val < 10000) (h1 : (j 1).val < 32) :
    (dats m 0 c).before 3 t d j = V m c main_arg3 (ix2 ⟨(cfg0.win 3).index t 0 * 280 + (j 0).val, h⟩ ⟨(j 1).val, h1⟩) :=
  before3_at m c t d j _ rfl h h1
theorem found3 (t : Fin cfg0.N) (ht : 36 ≤ t.val) (d) (j : (cfg0.win 3).block.Idx)
    (h : t.val % 36 * 280 + (j 0).val < 10000) (h1 : (j 1).val < 32) :
    (dats m 0 c).before 3 t d j = zC m c ⟨t.val % 36 * 280 + (j 0).val, h⟩ ⟨(j 1).val, h1⟩ :=
  before3_at m c t d j _ ((index3 t).1.trans (if_pos ht)) h h1

/-! ## The three are left as found -/

/-- Window 1: the moved part of what the body finds, and of what it leaves, is the block's rows inside the array. -/
theorem cut_before1 (t : Fin cfg0.N) (d) :
    (cfg0.win 1).cut (cfg0.grid.coords t) ((dats m 0 c).before 1 t d) = iblk m c 1 t := by
  funext y
  exact (before1_apply m c t d ((cfg0.win 1).xinj (cfg0.grid.coords t) y) (row_lt1 t y) (col_lt1 t y)).trans
    (iblk1 m c t y (row_lt1 t y) (col_lt1 t y)).symm
theorem cut_after1 (t : Fin cfg0.N) :
    (cfg0.win 1).cut (cfg0.grid.coords t) ((dats m 0 c).after 1 t) = iblk m c 1 t := by
  rw [after_1]; unfold inClip; exact (cfg0.win 1).cut_fill _ _ _
/-- The body does not write window 1: its buffer is left as found. -/
theorem leaves1 (t : Fin cfg0.N) (d) :
    (dats m 0 c).before 1 t d = (cfg0.win 1).fill (cfg0.grid.coords t) ((dats m 0 c).before 1 t d)
      ((cfg0.win 1).cut (cfg0.grid.coords t) ((dats m 0 c).after 1 t)) :=
  ((cfg0.win 1).fill_congr_cut (cfg0.grid.coords t) ((cut_before1 m c t d).trans (cut_after1 m c t).symm)).symm

/-- Window 2: the moved part of what the body finds, and of what it leaves, is the block's rows inside the array. -/
theorem cut_before2 (t : Fin cfg0.N) (d) :
    (cfg0.win 2).cut (cfg0.grid.coords t) ((dats m 0 c).before 2 t d) = iblk m c 2 t := by
  funext y
  exact (before2_apply m c t d ((cfg0.win 2).xinj (cfg0.grid.coords t) y) (row_lt2 t y) (col_lt2 t y)).trans
    (iblk2 m c t y (row_lt2 t y) (col_lt2 t y)).symm
theorem cut_after2 (t : Fin cfg0.N) :
    (cfg0.win 2).cut (cfg0.grid.coords t) ((dats m 0 c).after 2 t) = iblk m c 2 t := by
  rw [after_2]; unfold inClip; exact (cfg0.win 2).cut_fill _ _ _
/-- The body does not write window 2: its buffer is left as found. -/
theorem leaves2 (t : Fin cfg0.N) (d) :
    (dats m 0 c).before 2 t d = (cfg0.win 2).fill (cfg0.grid.coords t) ((dats m 0 c).before 2 t d)
      ((cfg0.win 2).cut (cfg0.grid.coords t) ((dats m 0 c).after 2 t)) :=
  ((cfg0.win 2).fill_congr_cut (cfg0.grid.coords t) ((cut_before2 m c t d).trans (cut_after2 m c t).symm)).symm

/-- Window 3: the moved part of what the body finds, and of what it leaves, is the block's rows inside the array. -/
theorem cut_before3 (t : Fin cfg0.N) (d) :
    (cfg0.win 3).cut (cfg0.grid.coords t) ((dats m 0 c).before 3 t d) = iblk m c 3 t := by
  funext y
  exact (before3_apply m c t d ((cfg0.win 3).xinj (cfg0.grid.coords t) y) (row_lt3 t y) (col_lt3 t y)).trans
    (iblk3 m c t y (row_lt3 t y) (col_lt3 t y)).symm
theorem cut_after3 (t : Fin cfg0.N) :
    (cfg0.win 3).cut (cfg0.grid.coords t) ((dats m 0 c).after 3 t) = iblk m c 3 t := by
  rw [after_3]; unfold inClip; exact (cfg0.win 3).cut_fill _ _ _
/-- The body does not write window 3: its buffer is left as found. -/
theorem leaves3 (t : Fin cfg0.N) (d) :
    (dats m 0 c).before 3 t d = (cfg0.win 3).fill (cfg0.grid.coords t) ((dats m 0 c).before 3 t d)
      ((cfg0.win 3).cut (cfg0.grid.coords t) ((dats m 0 c).after 3 t)) :=
  ((cfg0.win 3).fill_congr_cut (cfg0.grid.coords t) ((cut_before3 m c t d).trans (cut_after3 m c t).symm)).symm

end Cert.KernelIdeal.Exact

end
-- ==== Proof.PureFacts.lean ====
/-
  The body's stored values are the specification's.

  With what the body finds in each window (the arrays' rows of the point's block, the weights and biases
  whole) and the summaries swept so far, each value the body stores at a row inside the array is the
  specification's at that row: the supports at the first point, a block of each branch's summaries in the
  first sweep, a block of the result in the second.
-/
import proofs.«148532_g48885317763338_cont_8to1_c_83_23_alg».proof.Proof.Found
import proofs.«148532_g48885317763338_cont_8to1_c_83_23_alg».proof.Proof.Steps
import proofs.«148532_g48885317763338_cont_8to1_c_83_23_alg».proof.Proof.Values

set_option maxRecDepth 16384

noncomputable section

namespace Cert.KernelIdeal.Exact

open Cert.KernelIdeal Cert.KernelIdeal.Gen Cert.KernelIdeal.Body Cert.KernelIdeal.Blocks Cert.Mgcn
open Idealize.ShloMosaic Idealize.ShloMosaic.TcCoe Idealize.ShloMosaic.ValueIdx
open Idealize.ShloMosaic.Pipeline (Dat Cfg Window)

variable (m : (ℓ : Loc nD τ sig) → Buf (Elt Ideal) ℓ) (c : Dev nD)

/-! ## The weights and biases as the body reads them -/

theorem w6_apply (t : Fin cfg0.N) (a : Fin 64) : iblk m c 6 t (ix2 (0 : Fin 1) a) = b1fC m c a := by
  rw [iblk_whole6]; exact v0_apply m c a
theorem w7_apply (t : Fin cfg0.N) (a : Fin 64) : iblk m c 7 t (ix2 (0 : Fin 1) a) = b1sC m c a := by
  rw [iblk_whole7]; exact v1_apply m c a
theorem w11_apply (t : Fin cfg0.N) (j : Fin 32) : iblk m c 11 t (ix2 (0 : Fin 1) j) = b2fC m c j := by
  rw [iblk_whole11]; exact v2_apply m c j
theorem w12_apply (t : Fin cfg0.N) (j : Fin 32) : iblk m c 12 t (ix2 (0 : Fin 1) j) = b2sC m c j := by
  rw [iblk_whole12]; exact v3_apply m c j
theorem w13_apply (t : Fin cfg0.N) (q : Fin 16) : iblk m c 13 t (ix2 (0 : Fin 1) q) = bmC m c q := by
  rw [iblk_whole13]; exact v4_apply m c q
theorem w8_apply (t : Fin cfg0.N) (a : Fin 64) (j : Fin 32) : iblk m c 8 t (ix2 a j) = W2fC m c a j := by
  rw [iblk_whole8]; rfl
theorem w9_apply (t : Fin cfg0.N) (a : Fin 64) (j : Fin 32) : iblk m c 9 t (ix2 a j) = W2sC m c a j := by
  rw [iblk_whole9]; rfl
theorem wz_apply (t : Fin cfg0.N) (j : Fin 32) (q : Fin 16) : View.ld (iblk m c 10 t) Rw0 (ix2 j q) = WzC m c j q := by
  rw [iblk_whole10]; exact ld_Rw0 _ j q
theorem wf_apply (t : Fin cfg0.N) (j : Fin 32) (q : Fin 16) : View.ld (iblk m c 10 t) Rw32 (ix2 j q) = WfC m c j q := by
  rw [iblk_whole10]; exact ld_Rw32 _ j q
theorem ws_apply (t : Fin cfg0.N) (j : Fin 32) (q : Fin 16) : View.ld (iblk m c 10 t) Rw64 (ix2 j q) = WsC m c j q := by
  rw [iblk_whole10]; exact ld_Rw64 _ j q

/-! ## The supports -/

/-- At the first point the supports the body stores are the supports. -/
theorem pureSF (t : Fin cfg0.N) : k0_pay1 (F := Ideal) (iblk m c 0 t) (iblk m c 4 t) = SFa m c := by
  rw [iblk_whole0, iblk_whole4]; rfl
theorem pureSS (t : Fin cfg0.N) : k0_pay2 (F := Ideal) (iblk m c 0 t) (iblk m c 5 t) = SSa m c := by
  rw [iblk_whole0, iblk_whole5]; rfl

theorem SFa_apply (k : Fin 10000) (a : Fin 64) : SFa m c (ix2 k a) = support (xC m c) (W1fC m c) k a :=
  Values.pay1_eq_support (V m c main_arg0) (V m c main_arg4) (xC m c) (W1fC m c) (fun _ _ => rfl) (fun _ _ => rfl) k a
theorem SSa_apply (k : Fin 10000) (a : Fin 64) : SSa m c (ix2 k a) = support (xC m c) (W1sC m c) k a :=
  Values.pay2_eq_support (V m c main_arg0) (V m c main_arg8) (xC m c) (W1sC m c) (fun _ _ => rfl) (fun _ _ => rfl) k a

/-! ## The first sweep -/

/-- In the first sweep the adjacency blocks found hold rows 280·t … of the adjacencies. -/
theorem fadj_row (t : Fin cfg0.N) (ht : t.val < 36) (d1 : (cfg0.win 1).block.Idx → Elt Ideal (cfg0.win 1).elt)
    (p : Fin 280) (k : Fin 10000) (hr : 280 * t.val + p.val < 10000) :
    (dats m 0 c).before 1 t d1 (ix2 p k) = fadjC m c ⟨280 * t.val + p.val, hr⟩ k := by
  have hmod : t.val % 36 = t.val := Nat.mod_eq_of_lt ht
  have h' : t.val % 36 * 280 + p.val < 10000 := by rw [hmod]; omega
  have e : (⟨t.val % 36 * 280 + p.val, h'⟩ : Fin 10000) = ⟨280 * t.val + p.val, hr⟩ :=
    Fin.ext (by show t.val % 36 * 280 + p.val = 280 * t.val + p.val; rw [hmod]; omega)
  exact (found1 m c t d1 (ix2 p k) h' k.isLt).trans (congrArg (fun r => fadjC m c r k) e)
theorem sadj_row (t : Fin cfg0.N) (ht : t.val < 36) (d2 : (cfg0.win 2).block.Idx → Elt Ideal (cfg0.win 2).elt)
    (p : Fin 280) (k : Fin 10000) (hr : 280 * t.val + p.val < 10000) :
    (dats m 0 c).before 2 t d2 (ix2 p k) = sadjC m c ⟨280 * t.val + p.val, hr⟩ k := by
  have hmod : t.val % 36 = t.val := Nat.mod_eq_of_lt ht
  have h' : t.val % 36 * 280 + p.val < 10000 := by rw [hmod]; omega
  have e : (⟨t.val % 36 * 280 + p.val, h'⟩ : Fin 10000) = ⟨280 * t.val + p.val, hr⟩ :=
    Fin.ext (by show t.val % 36 * 280 + p.val = 280 * t.val + p.val; rw [hmod]; omega)
  exact (found2 m c t d2 (ix2 p k) h' k.isLt).trans (congrArg (fun r => sadjC m c r k) e)

/-- First sweep, first branch: the block of summaries the point stores is the specification's on the rows inside the array. -/
theorem pureF (t : Fin cfg0.N) (ht : t.val < 36) (d1 : (cfg0.win 1).block.Idx → Elt Ideal (cfg0.win 1).elt) (d2 : (cfg0.win 2).block.Idx → Elt Ideal (cfg0.win 2).elt) (d3 : (cfg0.win 3).block.Idx → Elt Ideal (cfg0.win 3).elt) (p : Fin 280) (q : Fin 16) (hr : 280 * t.val + p.val < 10000) :
    (k0_pay6 (F := Ideal) ((dats m 0 c).before 1 t d1) (SFa m c) (iblk m c 6 t) (iblk m c 8 t) (View.ld (iblk m c 10 t) Rw32)) (ix2 p q) = UFs m c ⟨280 * t.val + p.val, hr⟩ q := by
  unfold UFs
  exact Values.pay6_eq_kerU _ _ _ _ _ (fadjC m c) (support (xC m c) (W1fC m c)) (b1fC m c) (W2fC m c) (WfC m c)
    p ⟨280 * t.val + p.val, hr⟩ q (fun k => fadj_row m c t ht d1 p k hr) (SFa_apply m c) (w6_apply m c t) (w8_apply m c t)
    (wf_apply m c t)

/-- First sweep, second branch. -/
theorem pureS (t : Fin cfg0.N) (ht : t.val < 36) (d1 : (cfg0.win 1).block.Idx → Elt Ideal (cfg0.win 1).elt) (d2 : (cfg0.win 2).block.Idx → Elt Ideal (cfg0.win 2).elt) (d3 : (cfg0.win 3).block.Idx → Elt Ideal (cfg0.win 3).elt) (p : Fin 280) (q : Fin 16) (hr : 280 * t.val + p.val < 10000) :
    (k0_pay3 (F := Ideal) (k0_pay5 (F := Ideal) ((dats m 0 c).before 2 t d2) (SSa m c) (iblk m c 7 t) (iblk m c 9 t)) (View.ld (iblk m c 10 t) Rw64)) (ix2 p q) = USs m c ⟨280 * t.val + p.val, hr⟩ q := by
  unfold USs
  exact Values.pay35_eq_kerU _ _ _ _ _ (sadjC m c) (support (xC m c) (W1sC m c)) (b1sC m c) (W2sC m c) (WsC m c)
    p ⟨280 * t.val + p.val, hr⟩ q (fun k => sadj_row m c t ht d2 p k hr) (SSa_apply m c) (w7_apply m c t) (w9_apply m c t)
    (ws_apply m c t)

/-! ## The second sweep -/

/-- The result's staging block after a second-sweep point, on a row inside the array. -/
theorem out14_apply (t : Fin cfg0.N) (p : Fin 280) (q : Fin 16) (h : t.val % 36 * 280 + p.val < 10000) :
    out14 m c t (ix2 p q) = OUTs m c ⟨t.val % 36 * 280 + p.val, h⟩ q := by
  unfold out14; exact dif_pos h

/-- Second sweep: on the rows of the point's block inside the array, the stored value is the specification's. -/
theorem pureC (t : Fin cfg0.N) (ht : 36 ≤ t.val) (d1 : (cfg0.win 1).block.Idx → Elt Ideal (cfg0.win 1).elt) (d2 : (cfg0.win 2).block.Idx → Elt Ideal (cfg0.win 2).elt) (d3 : (cfg0.win 3).block.Idx → Elt Ideal (cfg0.win 3).elt)
    (X2 X3 : Vec Ideal S10080x16 .bf16) (hX2 : Agree (280 * t.val) X2 (UFs m c)) (hX3 : Agree (280 * t.val) X3 (USs m c)) :
    (cfg0.win 14).cut (cfg0.grid.coords t) (k0_pay4 (F := Ideal) ((dats m 0 c).before 1 t d1) (View.ld X2 R19) ((dats m 0 c).before 2 t d2) (View.ld X3 R19) ((dats m 0 c).before 3 t d3) (View.ld (iblk m c 10 t) Rw0) (iblk m c 11 t) (View.ld (iblk m c 10 t) Rw32) (iblk m c 12 t) (View.ld (iblk m c 10 t) Rw64) (iblk m c 13 t))
      = (cfg0.win 14).cut (cfg0.grid.coords t) ((dats m 0 c).after 14 t) := by
  funext y
  rw [after_14]
  have hrow : t.val % 36 * 280 + (y 0).val < 10000 := row_lt14_sweep2 t ht y
  have hy0 : (y 0).val < 280 := lt_of_lt_of_le (row_lt_xsize14 t y) (Nat.min_le_left _ _)
  have hy1 : (y 1).val < 16 := col_lt14 t y
  have hx : (cfg0.win 14).xinj (cfg0.grid.coords t) y = ix2 (⟨(y 0).val, hy0⟩ : Fin 280) (⟨(y 1).val, hy1⟩ : Fin 16) := by
    funext a; apply Fin.ext
    match a with
    | ⟨0, _⟩ => rfl
    | ⟨1, _⟩ => rfl
  unfold Window.cut
  rw [hx, out14_apply m c t ⟨(y 0).val, hy0⟩ ⟨(y 1).val, hy1⟩ hrow]
  unfold OUTs
  have h13 : ∀ (k : Fin 10000) (q : Fin 16), View.ld X2 R19 (ix2 k q) = UFs m c k q := fun k q =>
    (ld_R19 X2 k q).trans (hX2 k q (by have := k.isLt; omega))
  have h17 : ∀ (k : Fin 10000) (q : Fin 16), View.ld X3 R19 (ix2 k q) = USs m c k q := fun k q =>
    (ld_R19 X3 k q).trans (hX3 k q (by have := k.isLt; omega))
  exact Values.pay4_eq_kerOut _ _ _ _ _ _ _ _ _ _ _ (fadjC m c) (sadjC m c) (zC m c) (UFs m c) (USs m c) (b2fC m c) (b2sC m c)
    (WzC m c) (WfC m c) (WsC m c) (bmC m c) ⟨(y 0).val, hy0⟩ ⟨t.val % 36 * 280 + (y 0).val, hrow⟩ ⟨(y 1).val, hy1⟩
    (fun k => found1 m c t d1 (ix2 ⟨(y 0).val, hy0⟩ k) hrow k.isLt) h13
    (fun k => found2 m c t d2 (ix2 ⟨(y 0).val, hy0⟩ k) hrow k.isLt) h17
    (fun j => found3 m c t ht d3 (ix2 ⟨(y 0).val, hy0⟩ j) hrow j.isLt)
    (wz_apply m c t) (w11_apply m c t) (wf_apply m c t) (w12_apply m c t) (ws_apply m c t) (w13_apply m c t)

end Cert.KernelIdeal.Exact

end
-- ==== Proof.Oblig.lean ====
/-
  The body obligation of the pipeline rule at the exact instance.  At each grid point the body is handed every
  window's staging buffer at what the schedule put there and the scratch at what the points before left, and
  must hand back the buffers at the proof data's contents and the scratch at the next point's invariant.
  Three kinds of point: the first (the supports are stored, then the first block of each summary), the rest of
  the first sweep (one more block of each summary), and the second sweep (the result's block, from both
  summaries complete on the rows inside the array).  The inputs are never written; a block that overhangs its
  array is described on the rows inside it only.
-/
import proofs.«148532_g48885317763338_cont_8to1_c_83_23_alg».proof.Proof.Steps
import proofs.«148532_g48885317763338_cont_8to1_c_83_23_alg».proof.Proof.Values
import proofs.«148532_g48885317763338_cont_8to1_c_83_23_alg».proof.Proof.RunA
import proofs.«148532_g48885317763338_cont_8to1_c_83_23_alg».proof.Proof.RunB
import proofs.«148532_g48885317763338_cont_8to1_c_83_23_alg».proof.Proof.RunC
import proofs.«148532_g48885317763338_cont_8to1_c_83_23_alg».proof.Proof.PureFacts
set_option maxRecDepth 16384

noncomputable section

namespace Cert.KernelIdeal.Exact

open Cert.KernelIdeal Cert.KernelIdeal.Gen Cert.KernelIdeal.Body Cert.Mgcn
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (c : Dev nD)

/-- What the body is called with at point `t`, the windows one by one, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ (dats m 0 c).leaves 14 t)

set_option maxHeartbeats 8000000 in
/-- The first point: the scratch holds anything; the supports are stored, then the first block of each summary. -/
theorem sound_A (t : Fin cfg0.N) (h0 : t.val = 0) :
    bodyPre m c t ⊢ wp frame (wpE (defs₀ (F := Ideal)) Variants.none c none) Set.univ (bodyAt0 t) (fun _ => bodyPost m c t) := by
  have ht : t.val < 36 := by omega
  unfold bodyPre bodyPost bodyAt0
  simp only [before_0 m c t, before_4 m c t, before_5 m c t, before_6 m c t, before_7 m c t, before_8 m c t, before_9 m c t, before_10 m c t, before_11 m c t, before_12 m c t, before_13 m c t]
  rw [show (dats m 0 c).owesAt () t.succ = (dats m 0 c).owesAt () t.castSucc from rfl]
  rw [Phi_castSucc, Phi_succ, PhiE_succ, show PhiE m c t.val = Pipeline.ΦA spec0 c from by rw [h0]; rfl, PhiA_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  icases HΦ with ⟨⟨⟨%X0, HS0⟩, ⟨%X1, HS1⟩, ⟨%X2, HS2⟩, ⟨%X3, HS3⟩⟩, Hg⟩
  have hc2 : cond2 (grid0.coords t) := (hcond2 t).mpr ht
  iapply (runA (F := Ideal) c (grid0.coords t) _ _ _ _ _ _ _ _ _ _ _ _ _ _ _ _ _ _ _ _ _ _ _ _ _ _ _ _ _ _ _ _ _ _ _ _ _ _ ((hcond1 t).mpr h0) hc2 (fun h => by have := (hcond3 t).mp h; omega) _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, HS0, HS1, ⟨%Y2, %hY2, HS2⟩, ⟨%Y3, %hY3, HS3⟩⟩
  rw [pureSF m c t] at hY2
  rw [pureSS m c t] at hY3
  isplitl [HS0 HS1 HS2 HS3 Hg]
  · isplitl [HS0 HS1 HS2 HS3]
    · isplitl [HS0]; · rw [← pureSF m c t]; iexact HS0
      isplitl [HS1]; · rw [← pureSS m c t]; iexact HS1
      isplitl [HS2]
      · iexists Y2; isplitr
        · ipureintro
          exact agree_step t ht hc2 X2 Y2 (UFs m c) _ (fun r q hr => absurd hr (by omega)) hY2 (fun p q hr => pureF m c t ht d1 d2 d3 p q hr)
        iexact HS2
      · iexists Y3; isplitr
        · ipureintro
          exact agree_step t ht hc2 X3 Y3 (USs m c) _ (fun r q hr => absurd hr (by omega)) hY3 (fun p q hr => pureS m c t ht d1 d2 d3 p q hr)
        iexact HS3
    · iexact Hg
  isplitl [Ho]; · iexact Ho
  isplitl [H0]; · rw [after_0]; iexact H0
  isplitl [H1]; · iexists ((dats m 0 c).before 1 t d1); rw [← leaves1 m c t d1]; iexact H1
  isplitl [H2]; · iexists ((dats m 0 c).before 2 t d2); rw [← leaves2 m c t d2]; iexact H2
  isplitl [H3]; · iexists ((dats m 0 c).before 3 t d3); rw [← leaves3 m c t d3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  isplitl [H11]; · rw [after_11]; iexact H11
  isplitl [H12]; · rw [after_12]; iexact H12
  isplitl [H13]; · rw [after_13]; iexact H13
  · rw [Dat.leaves_idle (dats m 0 c) 14 t (idle14_of t ht) (noflush14_of t ht)]
    iexists d14; iexact H14

set_option maxHeartbeats 8000000 in
/-- A point of the first sweep after the first: one more block of each summary is swept. -/
theorem sound_B (t : Fin cfg0.N) (h0 : t.val ≠ 0) (ht : t.val < 36) :
    bodyPre m c t ⊢ wp frame (wpE (defs₀ (F := Ideal)) Variants.none c none) Set.univ (bodyAt0 t) (fun _ => bodyPost m c t) := by
  unfold bodyPre bodyPost bodyAt0
  simp only [before_0 m c t, before_4 m c t, before_5 m c t, before_6 m c t, before_7 m c t, before_8 m c t, before_9 m c t, before_10 m c t, before_11 m c t, before_12 m c t, before_13 m c t]
  rw [show (dats m 0 c).owesAt () t.succ = (dats m 0 c).owesAt () t.castSucc from rfl]
  rw [Phi_castSucc, Phi_succ, PhiE_succ, PhiE_pos m c t.val h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  icases HΦ with ⟨⟨HS0, HS1, ⟨%X2, %hX2, HS2⟩, ⟨%X3, %hX3, HS3⟩⟩, Hg⟩
  have hc2 : cond2 (grid0.coords t) := (hcond2 t).mpr ht
  iapply (runB (F := Ideal) c (grid0.coords t) _ _ _ _ _ _ _ _ _ _ _ _ _ _ _ _ _ _ _ _ _ _ _ _ _ _ _ _ _ _ _ _ _ _ _ _ _ _ (fun h => h0 ((hcond1 t).mp h)) hc2 (fun h => by have := (hcond3 t).mp h; omega) _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, HS0, HS1, ⟨%Y2, %hY2, HS2⟩, ⟨%Y3, %hY3, HS3⟩⟩
  isplitl [HS0 HS1 HS2 HS3 Hg]
  · isplitl [HS0 HS1 HS2 HS3]
    · isplitl [HS0]; · iexact HS0
      isplitl [HS1]; · iexact HS1
      isplitl [HS2]
      · iexists Y2; isplitr
        · ipureintro
          exact agree_step t ht hc2 X2 Y2 (UFs m c) _ hX2 hY2 (fun p q hr => pureF m c t ht d1 d2 d3 p q hr)
        iexact HS2
      · iexists Y3; isplitr
        · ipureintro
          exact agree_step t ht hc2 X3 Y3 (USs m c) _ hX3 hY3 (fun p q hr => pureS m c t ht d1 d2 d3 p q hr)
        iexact HS3
    · iexact Hg
  isplitl [Ho]; · iexact Ho
  isplitl [H0]; · rw [after_0]; iexact H0
  isplitl [H1]; · iexists ((dats m 0 c).before 1 t d1); rw [← leaves1 m c t d1]; iexact H1
  isplitl [H2]; · iexists ((dats m 0 c).before 2 t d2); rw [← leaves2 m c t d2]; iexact H2
  isplitl [H3]; · iexists ((dats m 0 c).before 3 t d3); rw [← leaves3 m c t d3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  isplitl [H11]; · rw [after_11]; iexact H11
  isplitl [H12]; · rw [after_12]; iexact H12
  isplitl [H13]; · rw [after_13]; iexact H13
  · rw [Dat.leaves_idle (dats m 0 c) 14 t (idle14_of t ht) (noflush14_of t ht)]
    iexists d14; iexact H14

set_option maxHeartbeats 8000000 in
/-- A point of the second sweep: the scratch is only read, all rows inside the array are swept, and the stored
    block is the specification's on the rows the write-back moves. -/
theorem sound_C (t : Fin cfg0.N) (ht : 36 ≤ t.val) :
    bodyPre m c t ⊢ wp frame (wpE (defs₀ (F := Ideal)) Variants.none c none) Set.univ (bodyAt0 t) (fun _ => bodyPost m c t) := by
  unfold bodyPre bodyPost bodyAt0
  simp only [before_0 m c t, before_4 m c t, before_5 m c t, before_6 m c t, before_7 m c t, before_8 m c t, before_9 m c t, before_10 m c t, before_11 m c t, before_12 m c t, before_13 m c t]
  rw [show (dats m 0 c).owesAt () t.succ = (dats m 0 c).owesAt () t.castSucc from rfl]
  rw [Phi_castSucc, Phi_succ, PhiE_succ, PhiE_pos m c t.val (by omega)]
  rw [show (dats m 0 c).leaves 14 t = iprop(∃ d, owns (c : Thread nD τ) (st0_14 t) fullShare ((cfg0.win 14).fill (cfg0.grid.coords t) d ((cfg0.win 14).cut (cfg0.grid.coords t) ((dats m 0 c).after 14 t)))) from by
    unfold Dat.leaves; rw [live14_of t ht]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  icases HΦ with ⟨⟨HS0, HS1, ⟨%X2, %hX2, HS2⟩, ⟨%X3, %hX3, HS3⟩⟩, Hg⟩
  iapply (runC (F := Ideal) c (grid0.coords t) _ _ _ _ _ _ _ _ _ _ _ _ _ _ _ _ _ _ _ _ _ _ _ _ _ _ _ _ _ _ _ _ _ _ _ _ _ _ (fun h => by have := (hcond1 t).mp h; omega) (fun h => by have := (hcond2 t).mp h; omega) ((hcond3 t).mpr ht) _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists X2; isplitr; · ipureintro; exact agree_full X2 _ hX2 (by omega)
        iexact HS2
      · iexists X3; isplitr; · ipureintro; exact agree_full X3 _ hX3 (by omega)
        iexact HS3
    · iexact Hg
  isplitl [Ho]; · iexact Ho
  isplitl [H0]; · rw [after_0]; iexact H0
  isplitl [H1]; · iexists ((dats m 0 c).before 1 t d1); rw [← leaves1 m c t d1]; iexact H1
  isplitl [H2]; · iexists ((dats m 0 c).before 2 t d2); rw [← leaves2 m c t d2]; iexact H2
  isplitl [H3]; · iexists ((dats m 0 c).before 3 t d3); rw [← leaves3 m c t d3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  isplitl [H11]; · rw [after_11]; iexact H11
  isplitl [H12]; · rw [after_12]; iexact H12
  isplitl [H13]; · rw [after_13]; iexact H13
  · iexists _
    rw [(cfg0.win 14).fill_congr_cut (cfg0.grid.coords t) (pureC m c t ht d1 d2 d3 X2 X3 hX2 hX3)]
    iexact H14

/-- The body at any point. -/
theorem sound_body (t : Fin cfg0.N) :
    bodyPre m c t ⊢ wp frame (wpE (defs₀ (F := Ideal)) Variants.none c none) Set.univ (bodyAt0 t) (fun _ => bodyPost m c t) := by
  by_cases h0 : t.val = 0
  · exact sound_A m c t h0
  · by_cases ht : t.val < 36
    · exact sound_B m c t h0 ht
    · exact sound_C m c t (by omega)

/-- The pipeline rule's body obligation, at every point. -/
theorem body_obligation : BodyObligationLoose (dats m 0 c) (defs₀ (F := Ideal)) Variants.none () Set.univ := fun t => by
  rw [bigSep_W0, bigSep_W0]
  exact sound_body m c t

end Cert.KernelIdeal.Exact

end
-- ==== Proof.Final.lean ====
/-
  The kernel's result array at the exact instance, from the exact proof data.

  Every second-sweep point writes back the rows of its block that lie inside the array, and what its staging
  buffer then holds on those rows is the specification's result at row 280·(t mod 36) + (row in the block).  The
  second sweep's blocks cover the array, so after the run the array holds the specification's result everywhere.
  The scratch invariant starts as the class invariant and gives it back after the last point by forgetting what
  the scratch holds; the argument arrays are left as launched.
-/
import proofs.«148532_g48885317763338_cont_8to1_c_83_23_alg».proof.Proof.Data
import proofs.«148532_g48885317763338_cont_8to1_c_83_23_alg».proof.Proof.Blocks

set_option maxRecDepth 16384

noncomputable section

namespace Cert.KernelIdeal.Exact

open Cert.KernelIdeal Cert.KernelIdeal.Gen Cert.KernelIdeal.Body Cert.KernelIdeal.Blocks Cert.Mgcn
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The specification's result as the contents of the result array. -/
def outBuf (c : Dev nD) : Buf (Elt Ideal) ((c.tc : Thread nD τ).loc main_v5) :=
  fun idx => OUTs m c (idx 0) (idx 1)

/-- What a second-sweep point writes back is the specification's result on its block. -/
theorem flushed14 (c : Dev nD) (t : Fin cfg0.N) (hf : (cfg0.win 14).flush t = true) :
    (dats m 0 c).flushed 14 t = ((cfg0.win 14).blk t).view.read (Elt Ideal) (outBuf m c) := by
  have ht : 36 ≤ t.val := (flush14_iff t).mp hf
  funext y
  have h0 : t.val % 36 * 280 + (y 0).val < 10000 := row_lt14_sweep2 t ht y
  have h1 : (y 1).val < 16 := col_lt14 t y
  have h0' : t.val % 36 * 280 + ((cfg0.win 14).xinj (cfg0.grid.coords t) y 0).val < 10000 := h0
  rw [read14_sweep2 (Val := Elt Ideal) (outBuf m c) t ht y h0 h1]
  show (dats m 0 c).after 14 t ((cfg0.win 14).xinj (cfg0.grid.coords t) y) = _
  rw [after_14]
  unfold out14
  refine (dif_pos h0').trans ?_
  unfold outBuf
  exact congrArg₂ (OUTs m c) (Fin.ext rfl) (Fin.ext rfl)

/-- The second sweep's blocks cover the result array: it ends holding the specification's result. -/
theorem final14 (c : Dev nD) : (dats m 0 c).arrAt 14 cfg0.N = outBuf m c :=
  (dats m 0 c).arrAt_eq_of_cover 14 (outBuf m c) (flushed14 m c) (cover14' c)

/-- What the launch hands the region is the invariant before the first point. -/
theorem hin (c : Dev nD) : Pipeline.ΦA spec0 c ⊢ (dats m 0 c).Φ 0 := by
  rw [show (dats m 0 c).Φ 0 = PhiE m c 0 from rfl, PhiE_zero]
  try exact Idealize.SL.BI.Entails.refl _

/-- After the last point the invariant gives the class invariant back: what the scratch holds is forgotten. -/
theorem hout (c : Dev nD) : (dats m 0 c).Φ (Fin.last cfg0.N) ⊢ Pipeline.ΦA spec0 c := by
  rw [show (dats m 0 c).Φ (Fin.last cfg0.N) = PhiE m c (Fin.last cfg0.N).val from rfl,
    PhiE_pos m c _ (by rw [Fin.val_last, N72]; decide), PhiA_eq]
  iintro ⟨⟨H0, H1, ⟨%X2, -, H2⟩, ⟨%X3, -, H3⟩⟩, Hg⟩
  isplitl [H0 H1 H2 H3]
  · isplitl [H0]; · iexists _; iexact H0
    isplitl [H1]; · iexists _; iexact H1
    isplitl [H2]; · iexists _; iexact H2
    iexists _; iexact H3
  iexact Hg

-- the frame run's implicit arguments are found by unifying its conclusion with this one, which takes unfolding plain
-- definitions in a metavariable's type
set_option backward.isDefEq.respectTransparency.types false in
/-- The run of @main with the exact proof data, given the body obligation: every array of the pipeline ends at
    what the library computes from the data, every other unscoped buffer as the region found it. -/
theorem run_frame (hbody : ∀ c, Pipeline.BodyObligationLoose (dats m 0 c) (defs₀ (F := Ideal)) Variants.none () Set.univ)
    (ρ : Dev nD → PrngReg) :
    θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := hbody) (hshare := fun c => (dats m 0 c).share_full fun _ => rfl) (howed := fun _ _ => rfl)
    (V := V m) (hmain := hmain m Variants.none) (hA := A_eq m) (hin := hin m) (hout := hout m)

/-- THE RESULT at the exact instance, given the body obligation: @main terminates without fault, the result array
    holds the specification's result and every argument array is left as launched. -/
theorem run_exact (hbody : ∀ c, Pipeline.BodyObligationLoose (dats m 0 c) (defs₀ (F := Ideal)) Variants.none () Set.univ)
    (ρ : Dev nD → PrngReg) :
    θ_run defs (onTc (τ := τ) (main (F := Ideal))) ⟨m, fun _ => 0, ρ⟩ (fun r => ∀ c : Dev nD,
      r.2.mem ((c.tc : Thread nD τ).loc main_v5) = outBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 14).trans (final14 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 8).trans (((dats m 0 c).arrAt_in 8 rfl _).trans ((A_eq m c 8).trans (V_main_arg6 m c))),
      ((h c).2 main_arg7 (Pipeline.mem_restRefs_of main_arg7 (by decide) (by decide))).trans (V_main_arg7 m c),
      ((h c).1 5).trans (((dats m 0 c).arrAt_in 5 rfl _).trans ((A_eq m c 5).trans (V_main_arg8 m c))),
      ((h c).2 main_arg9 (Pipeline.mem_restRefs_of main_arg9 (by decide) (by decide))).trans (V_main_arg9 m c),
      ((h c).1 9).trans (((dats m 0 c).arrAt_in 9 rfl _).trans ((A_eq m c 9).trans (V_main_arg10 m c))),
      ((h c).2 main_arg11 (Pipeline.mem_restRefs_of main_arg11 (by decide) (by decide))).trans (V_main_arg11 m c),
      ((h c).1 10).trans (((dats m 0 c).arrAt_in 10 rfl _).trans ((A_eq m c 10).trans (V_main_arg12 m c))),
      ((h c).2 main_arg13 (Pipeline.mem_restRefs_of main_arg13 (by decide) (by decide))).trans (V_main_arg13 m c)⟩) (run_frame m hbody ρ)

end Cert.KernelIdeal.Exact

end
-- ==== Proof.lean ====
/-
  A two-branch graph convolution with a linear head, computed by one kernel in two sweeps over blocks of 280
  rows, against the plain composition of its layers.

  Kernel: the supports x·W1f and x·W1s are computed once; in the first sweep each block of rows of an adjacency A
  gives the per-node summary U = (max(A·S + b1, 0)·W2)·Wp of its rows, kept in scratch; in the second sweep each
  block gives the result's rows A_f·U_f + A_s·U_s + z·Wz + (b2f·Wf + b2s·Ws) + bm, where Wz, Wf, Ws are the
  three 32-row slices of the head's weights.  Reference: each branch is A·(max(A·S + b1, 0)·W2) + b2, the three
  embeddings are laid side by side and multiplied by the head's weights, plus bm.  On the extended reals the two
  agree where every input is a real number: the head moves inside the second aggregation by associativity of
  the triple product and distributivity over the bias, which hold for reals and fail at infinities — so the
  precondition (every input finite) is used.  The last block of rows overhangs the arrays by 80 rows; what the
  kernel computes from the rows past the end reaches neither the result (the write-back moves only the rows
  inside) nor any row of the summaries that is read.

  The frames of the kernel at both instances run the body with every staging buffer and the scratch at arbitrary
  contents; the value of the idealized kernel is read off a run that names the scratch and the result's blocks
  point by point; the reference's run is read one operation at a time.
-/
import proofs.«148532_g48885317763338_cont_8to1_c_83_23_alg».proof.Defs
import proofs.«148532_g48885317763338_cont_8to1_c_83_23_alg».proof.Proof.Gen.Kernel
import proofs.«148532_g48885317763338_cont_8to1_c_83_23_alg».proof.Proof.Gen.KernelIdeal
import proofs.«148532_g48885317763338_cont_8to1_c_83_23_alg».proof.Proof.Gen.ReferenceIdeal
import proofs.«148532_g48885317763338_cont_8to1_c_83_23_alg».proof.Proof.Gen.Pre_finite_inputs
import proofs.«148532_g48885317763338_cont_8to1_c_83_23_alg».proof.Proof.KFrameAny
import proofs.«148532_g48885317763338_cont_8to1_c_83_23_alg».proof.Proof.FrameAny
import proofs.«148532_g48885317763338_cont_8to1_c_83_23_alg».proof.Proof.RefFrame
import proofs.«148532_g48885317763338_cont_8to1_c_83_23_alg».proof.Proof.Bridge
import proofs.«148532_g48885317763338_cont_8to1_c_83_23_alg».proof.Proof.Oblig
import proofs.«148532_g48885317763338_cont_8to1_c_83_23_alg».proof.Proof.Final
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Body.frameAny m ρ

/-- So does the kernel read at the exact instance. -/
theorem frame_ki : Cert.frame_KernelIdeal := fun m ρ _ => Cert.KernelIdeal.Body.frameAny m ρ

theorem claim : Cert.Claim := ⟨Cert.Kernel.Gen.facts, Cert.KernelIdeal.Gen.facts, Cert.ReferenceIdeal.Gen.facts, Cert.Pre_finite_inputs.Gen.facts,
  frame_k, frame_ki, Cert.RefValue.frame_ri, trivial,
  Cert.Bridge.algebraic_of (fun m ρ _ =>
    Cert.KernelIdeal.Exact.run_exact m (fun c => Cert.KernelIdeal.Exact.body_obligation m c) ρ)⟩

end Cert.Proof

end
